-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S16384x64 : Shape := ⟨2, ![16384, 64]⟩
abbrev S262144 : Shape := ⟨1, ![262144]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S16384x64 : S_.BroadcastsInDim S16384x64 (![] : Fin 0 → Fin S16384x64.rank)
  reducesTo_S16384x64_S_d0_1 : S16384x64.ReducesTo [0, 1] S_

variable [Facts]

def fn_part2 {F : FTy → Type} [FloatOps F] (main_arg7 : FVec F S16384x64 .f32) (main_v33 : IVec S_ 1) : IVec S_ 1 :=
  let main_v34 : FVec F S16384x64 .f32 := Host.absf main_arg7
  let main_cst_12 : FVec F S_ .f32 := constant S_ .f32 0x7F800000#32
  let main_v35 : FVec F S16384x64 .f32 := broadcastInDim S16384x64 ![] bcast_S_S16384x64 main_cst_12
  let main_v36 : IVec S16384x64 1 := cmpf .olt main_v34 main_v35
  let main_c_13 : IVec S_ 1 := constantI S_ 1 1#1
  let main_v37 : IVec S_ 1 := (fun x v => Host.reduce IntOp.andi x v reducesTo_S16384x64_S_d0_1 h_S_) main_v36 main_c_13
  let main_v38 : IVec S_ 1 := andi main_v33 main_v37
  main_v38

def fn_part1 {F : FTy → Type} [FloatOps F] (main_arg4 : FVec F S64 .f32) (main_arg5 : FVec F S128x64 .f32) (main_arg6 : FVec F S64 .f32) (main_arg7 : FVec F S16384x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S16384x256 .f32) (main_arg1 : FVec F S256x128 .f32) (main_arg2 : FVec F S128 .f32) (main_arg3 : FVec F S128x64 .f32) (main_arg4 : FVec F S64 .f32) (main_arg5 : FVec F S128x64 .f32) (main_arg6 : FVec F S64 .f32) (main_arg7 : FVec F S16384x64 .f32) (main_arg8 : IVec S262144 32) (main_arg9 : IVec S262144 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_v13 main_v16
-- ==== Kernel.lean ====
abbrev S16384x256 : Shape := ⟨2, ![16384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S16384x64 : Shape := ⟨2, ![16384, 64]⟩
abbrev S262144 : Shape := ⟨1, ![262144]⟩
abbrev S_ : Shape := ⟨0, ![]⟩
abbrev S16384 : Shape := ⟨1, ![16384]⟩
abbrev S262144x1 : Shape := ⟨2, ![262144, 1]⟩
abbrev S16384x1 : Shape := ⟨2, ![16384, 1]⟩
abbrev S16384x128 : Shape := ⟨2, ![16384, 128]⟩
abbrev S2048x256 : Shape := ⟨2, ![2048, 256]⟩
abbrev S2048x128 : Shape := ⟨2, ![2048, 128]⟩
abbrev S262144x128 : Shape := ⟨2, ![262144, 128]⟩
abbrev S1x128 : Shape := ⟨2, ![1, 128]⟩
abbrev S128x128 : Shape := ⟨2, ![128, 128]⟩
abbrev S16384x16384 : Shape := ⟨2, ![16384, 16384]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 97
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S16384x64, .f32⟩
  | .hbm, ⟨8, _⟩ => ⟨S262144, .i32⟩
  | .hbm, ⟨9, _⟩ => ⟨S262144, .i32⟩
  | .hbm, ⟨10, _⟩ => ⟨S_, .f32⟩
  | .hbm, ⟨11, _⟩ => ⟨S262144, .f32⟩
  | .hbm, ⟨12, _⟩ => ⟨S_, .f32⟩
  | .hbm, ⟨13, _⟩ => ⟨S16384, .f32⟩
  | .hbm, ⟨14, _⟩ => ⟨S262144x1, .i32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S262144x1, .i32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .i1⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .i1⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S16384x1, .f32⟩
  | .hbm, ⟨41, _⟩ => ⟨S16384x256, .f32⟩
  | .hbm, ⟨42, _⟩ => ⟨S16384x256, .f32⟩
  | .hbm, ⟨43, _⟩ => ⟨S16384x128, .f32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S262144x1, .i32⟩
  | .hbm, ⟨52, _⟩ => ⟨S262144x128, .f32⟩
  | .hbm, ⟨53, _⟩ => ⟨S_, .f32⟩
  | .hbm, ⟨54, _⟩ => ⟨S16384x128, .f32⟩
  | .hbm, ⟨55, _⟩ => ⟨S262144x1, .i32⟩
  | .hbm, ⟨56, _⟩ => ⟨S16384x128, .f32⟩
  | .hbm, ⟨57, _⟩ => ⟨S16384x1, .f32⟩
  | .hbm, ⟨58, _⟩ => ⟨S16384x128, .f32⟩
  | .hbm, ⟨59, _⟩ => ⟨S16384x128, .f32⟩
  | .hbm, ⟨60, _⟩ => ⟨S1x128, .f32⟩
  | .hbm, ⟨61, _⟩ => ⟨S16384x128, .f32⟩
  | .hbm, ⟨62, _⟩ => ⟨S16384x128, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S128x128, .f32⟩
  | .hbm, ⟨67, _⟩ => ⟨S128, .f32⟩
  | .hbm, ⟨68, _⟩ => ⟨S16384x1, .f32⟩
  | .hbm, ⟨69, _⟩ => ⟨S16384x128, .f32⟩
  | .hbm, ⟨70, _⟩ => ⟨S16384x128, .f32⟩
  | .hbm, ⟨71, _⟩ => ⟨S16384x128, .f32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S_, .i32⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S262144x1, .i32⟩
  | .hbm, ⟨80, _⟩ => ⟨S262144x128, .f32⟩
  | .hbm, ⟨81, _⟩ => ⟨S_, .f32⟩
  | .hbm, ⟨82, _⟩ => ⟨S16384x128, .f32⟩
  | .hbm, ⟨83, _⟩ => ⟨S262144x1, .i32⟩
  | .hbm, ⟨84, _⟩ => ⟨S16384x128, .f32⟩
  | .hbm, ⟨85, _⟩ => ⟨S16384x1, .f32⟩
  | .hbm, ⟨86, _⟩ => ⟨S16384x128, .f32⟩
  | .hbm, ⟨87, _⟩ => ⟨S16384x128, .f32⟩
  | .hbm, ⟨88, _⟩ => ⟨S1x128, .f32⟩
  | .hbm, ⟨89, _⟩ => ⟨S16384x128, .f32⟩
  | .hbm, ⟨90, _⟩ => ⟨S16384x128, .f32⟩
  | .hbm, ⟨91, _⟩ => ⟨S16384x64, .f32⟩
  | .hbm, ⟨92, _⟩ => ⟨S16384x64, .f32⟩
  | .hbm, ⟨93, _⟩ => ⟨S16384x64, .f32⟩
  | .hbm, ⟨94, _⟩ => ⟨S16384x64, .f32⟩
  | .hbm, ⟨95, _⟩ => ⟨S16384x64, .f32⟩
  | .hbm, ⟨96, _⟩ => ⟨S16384x16384, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S128x128, .f32⟩
  | .local _ .vmem, ⟨8, _⟩ => ⟨S2048x128, .f32⟩
  | .local _ .vmem, ⟨9, _⟩ => ⟨S2048x128, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x1024, .f32⟩
  | .local _ .vmem, ⟨15, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_cst : Ref sig .tc := ⟨.hbm, 63, rfl⟩
abbrev main_call2_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S262144 : S_.BroadcastsInDim S262144 (![] : Fin 0 → Fin S262144.rank)
  bcast_S_S16384 : S_.BroadcastsInDim S16384 (![] : Fin 0 → Fin S16384.rank)
  bcast_S262144_S262144x1_0 : S262144.BroadcastsInDim S262144x1 (![0] : Fin 1 → Fin S262144x1.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  concatenates_S128x64_S128x64_S128x128_d1 : Shape.Concatenates [S128x64, S128x64] S128x128 1
  concatenates_S64_S64_S128_d0 : Shape.Concatenates [S64, S64] S128 0
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S16384x128_S16384x64_0_0 : S16384x128.Slices ![0, 0] S16384x64
  slices_S16384x128_S16384x64_0_64 : S16384x128.Slices ![0, 64] S16384x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  scatter_S16384_S262144x1_S262144_n_0_0_1_wf : ScatterDims.WF S16384 S262144x1 S262144 [] [0] [0] 1
  dot_S2048x256_S256x128_S2048x128_1_0_0_1_n_n_wf : DotDims.WF S2048x256 S256x128 S2048x128 [1] [0] [0] [1] [] []
  gather_S16384x128_S262144x1_S262144x128_1_0_n_n_0_1_1128_wf : GatherDims.WF S16384x128 S262144x1 S262144x128 [1] [0] [] [0] [] 1 ![1, 128]
  scatter_S16384x128_S262144x1_S262144x128_1_0_0_1_wf : ScatterDims.WF S16384x128 S262144x1 S262144x128 [1] [0] [0] 1
  dot_S2048x128_S128x128_S2048x128_1_0_0_1_n_n_wf : DotDims.WF S2048x128 S128x128 S2048x128 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S16384x64.size a
  hwx2_0 : ∀ i : grid2.Coords, EltTy.bits .f32 = 32 ∨ (Rect.block (s := S16384x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S16384x64.size a
  hwx2_1 : ∀ i : grid2.Coords, EltTy.bits .f32 = 32 ∨ (Rect.block (s := S16384x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S16384x16384.size a
  hwx2_2 : ∀ i : grid2.Coords, EltTy.bits .f32 = 32 ∨ (Rect.block (s := S16384x16384) S1024x1024.size (cc2_transform_2 i) (hinb2_2 i)).WholeWords (EltTy.packing .f32)

variable [Facts₀]

def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S262144x1_S262144x128_1_0_n_n_0_1_1128 : GatherDims S16384x128 S262144x1 S262144x128 where
  offsetDims := [1]
  collapsedSliceDims := [0]
  operandBatchingDims := []
  startIndicesBatchingDims := []
  startIndexMap := [0]
  indexVectorDim := 1
  sliceSizes := ![1, 128]
  wf := gather_S16384x128_S262144x1_S262144x128_1_0_n_n_0_1_1128_wf
def scatter_S16384x128_S262144x1_S262144x128_1_0_0_1 : ScatterDims S16384x128 S262144x1 S262144x128 where
  updateWindowDims := [1]
  insertedWindowDims := [0]
  scatterDimsToOperandDims := [0]
  indexVectorDim := 1
  wf := scatter_S16384x128_S262144x1_S262144x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v19) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x256 : Shape := ⟨2, ![16384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S16384x64 : Shape := ⟨2, ![16384, 64]⟩
abbrev S262144 : Shape := ⟨1, ![262144]⟩
abbrev S_ : Shape := ⟨0, ![]⟩
abbrev S16384 : Shape := ⟨1, ![16384]⟩
abbrev S262144x1 : Shape := ⟨2, ![262144, 1]⟩
abbrev S16384x1 : Shape := ⟨2, ![16384, 1]⟩
abbrev S16384x128 : Shape := ⟨2, ![16384, 128]⟩
abbrev S262144x128 : Shape := ⟨2, ![262144, 128]⟩
abbrev S1x128 : Shape := ⟨2, ![1, 128]⟩
abbrev S262144x64 : Shape := ⟨2, ![262144, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 127
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S16384x64, .f32⟩
  | .hbm, ⟨8, _⟩ => ⟨S262144, .i32⟩
  | .hbm, ⟨9, _⟩ => ⟨S262144, .i32⟩
  | .hbm, ⟨10, _⟩ => ⟨S_, .f32⟩
  | .hbm, ⟨11, _⟩ => ⟨S262144, .f32⟩
  | .hbm, ⟨12, _⟩ => ⟨S_, .f32⟩
  | .hbm, ⟨13, _⟩ => ⟨S16384, .f32⟩
  | .hbm, ⟨14, _⟩ => ⟨S262144x1, .i32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .i1⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S262144, .f32⟩
  | .hbm, ⟨28, _⟩ => ⟨S_, .f32⟩
  | .hbm, ⟨29, _⟩ => ⟨S16384, .f32⟩
  | .hbm, ⟨30, _⟩ => ⟨S262144x1, .i32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .i1⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S16384x256, .f32⟩
  | .hbm, ⟨44, _⟩ => ⟨S16384x256, .f32⟩
  | .hbm, ⟨45, _⟩ => ⟨S16384x128, .f32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S262144x128, .f32⟩
  | .hbm, ⟨55, _⟩ => ⟨S_, .f32⟩
  | .hbm, ⟨56, _⟩ => ⟨S16384x128, .f32⟩
  | .hbm, ⟨57, _⟩ => ⟨S262144x1, .i32⟩
  | .hbm, ⟨58, _⟩ => ⟨S16384x128, .f32⟩
  | .hbm, ⟨59, _⟩ => ⟨S16384x1, .f32⟩
  | .hbm, ⟨60, _⟩ => ⟨S16384x128, .f32⟩
  | .hbm, ⟨61, _⟩ => ⟨S16384x128, .f32⟩
  | .hbm, ⟨62, _⟩ => ⟨S1x128, .f32⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S16384x128, .f32⟩
  | .hbm, ⟨67, _⟩ => ⟨S16384x128, .f32⟩
  | .hbm, ⟨68, _⟩ => ⟨S16384x1, .f32⟩
  | .hbm, ⟨69, _⟩ => ⟨S16384x128, .f32⟩
  | .hbm, ⟨70, _⟩ => ⟨S16384x128, .f32⟩
  | .hbm, ⟨71, _⟩ => ⟨S16384x64, .f32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S_, .i32⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S262144x1, .i32⟩
  | .hbm, ⟨80, _⟩ => ⟨S262144x64, .f32⟩
  | .hbm, ⟨81, _⟩ => ⟨S_, .f32⟩
  | .hbm, ⟨82, _⟩ => ⟨S16384x64, .f32⟩
  | .hbm, ⟨83, _⟩ => ⟨S262144x1, .i32⟩
  | .hbm, ⟨84, _⟩ => ⟨S16384x64, .f32⟩
  | .hbm, ⟨85, _⟩ => ⟨S16384x1, .f32⟩
  | .hbm, ⟨86, _⟩ => ⟨S16384x64, .f32⟩
  | .hbm, ⟨87, _⟩ => ⟨S16384x64, .f32⟩
  | .hbm, ⟨88, _⟩ => ⟨S1x64, .f32⟩
  | .hbm, ⟨89, _⟩ => ⟨S16384x64, .f32⟩
  | .hbm, ⟨90, _⟩ => ⟨S16384x64, .f32⟩
  | .hbm, ⟨91, _⟩ => ⟨S16384x1, .f32⟩
  | .hbm, ⟨92, _⟩ => ⟨S16384x128, .f32⟩
  | .hbm, ⟨93, _⟩ => ⟨S16384x128, .f32⟩
  | .hbm, ⟨94, _⟩ => ⟨S16384x64, .f32⟩
  | .hbm, ⟨95, _⟩ => ⟨S_, .i32⟩
  | .hbm, ⟨96, _⟩ => ⟨S262144, .i32⟩
  | .hbm, ⟨97, _⟩ => ⟨S262144, .i1⟩
  | .hbm, ⟨98, _⟩ => ⟨S_, .i32⟩
  | .hbm, ⟨99, _⟩ => ⟨S262144, .i32⟩
  | .hbm, ⟨100, _⟩ => ⟨S262144, .i32⟩
  | .hbm, ⟨101, _⟩ => ⟨S262144, .i32⟩
  | .hbm, ⟨102, _⟩ => ⟨S262144x1, .i32⟩
  | .hbm, ⟨103, _⟩ => ⟨S262144x64, .f32⟩
  | .hbm, ⟨104, _⟩ => ⟨S_, .f32⟩
  | .hbm, ⟨105, _⟩ => ⟨S16384x64, .f32⟩
  | .hbm, ⟨106, _⟩ => ⟨S262144x1, .i32⟩
  | .hbm, ⟨107, _⟩ => ⟨S16384x64, .f32⟩
  | .hbm, ⟨108, _⟩ => ⟨S16384x1, .f32⟩
  | .hbm, ⟨109, _⟩ => ⟨S16384x64, .f32⟩
  | .hbm, ⟨110, _⟩ => ⟨S16384x64, .f32⟩
  | .hbm, ⟨111, _⟩ => ⟨S1x64, .f32⟩
  | .hbm, ⟨112, _⟩ => ⟨S16384x64, .f32⟩
  | .hbm, ⟨113, _⟩ => ⟨S16384x64, .f32⟩
  | .hbm, ⟨114, _⟩ => ⟨S16384x64, .f32⟩
  | .hbm, ⟨115, _⟩ => ⟨S16384x64, .f32⟩
  | .hbm, ⟨116, _⟩ => ⟨S16384x64, .f32⟩
  | .hbm, ⟨117, _⟩ => ⟨S64x16384, .f32⟩
  | .hbm, ⟨118, _⟩ => ⟨S16384x16384, .f32⟩
  | .hbm, ⟨119, _⟩ => ⟨S16384x16384, .f32⟩
  | .hbm, ⟨120, _⟩ => ⟨S16384x16384, .f32⟩
  | .hbm, ⟨121, _⟩ => ⟨S_, .f32⟩
  | .hbm, ⟨122, _⟩ => ⟨S16384x16384, .f32⟩
  | .hbm, ⟨123, _⟩ => ⟨S16384x16384, .f32⟩
  | .hbm, ⟨124, _⟩ => ⟨S_, .f32⟩
  | .hbm, ⟨125, _⟩ => ⟨S16384x16384, .f32⟩
  | .hbm, ⟨126, _⟩ => ⟨S16384x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_cst_5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_cst_7 : Ref sig .tc := ⟨.hbm, 35, rfl⟩
abbrev main_v15 : Ref sig .tc := ⟨.hbm, 36, rfl⟩
abbrev main_v16 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_c_9 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call2_cst : Ref sig .tc := ⟨.hbm, 65, rfl⟩
abbrev main_call2_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_11 : Ref sig .tc := ⟨.hbm, 72, rfl⟩
abbrev main_v43 : Ref sig .tc := ⟨.hbm, 73, rfl⟩
abbrev main_v44 : Ref sig .tc := ⟨.hbm, 74, rfl⟩
abbrev main_c_12 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_c_15 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev main_cst_18 : Ref sig .tc := ⟨.hbm, 124, rfl⟩
abbrev main_v88 : Ref sig .tc := ⟨.hbm, 125, rfl⟩
abbrev main_v89 : Ref sig .tc := ⟨.hbm, 126, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S16384 : S_.BroadcastsInDim S16384 (![] : Fin 0 → Fin S16384.rank)
  bcast_S262144_S262144x1_0 : S262144.BroadcastsInDim S262144x1 (![0] : Fin 1 → Fin S262144x1.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  bcast_S_S16384x16384 : S_.BroadcastsInDim S16384x16384 (![] : Fin 0 → Fin S16384x16384.rank)
  scatter_S16384_S262144x1_S262144_n_0_0_1_wf : ScatterDims.WF S16384 S262144x1 S262144 [] [0] [0] 1
  dot_S16384x256_S256x128_S16384x128_1_0_0_1_n_n_wf : DotDims.WF S16384x256 S256x128 S16384x128 [1] [0] [0] [1] [] []
  gather_S16384x128_S262144x1_S262144x128_1_0_n_n_0_1_1128_wf : GatherDims.WF S16384x128 S262144x1 S262144x128 [1] [0] [] [0] [] 1 ![1, 128]
  scatter_S16384x128_S262144x1_S262144x128_1_0_0_1_wf : ScatterDims.WF S16384x128 S262144x1 S262144x128 [1] [0] [0] 1
  dot_S16384x128_S128x64_S16384x64_1_0_0_1_n_n_wf : DotDims.WF S16384x128 S128x64 S16384x64 [1] [0] [0] [1] [] []
  gather_S16384x64_S262144x1_S262144x64_1_0_n_n_0_1_164_wf : GatherDims.WF S16384x64 S262144x1 S262144x64 [1] [0] [] [0] [] 1 ![1, 64]
  scatter_S16384x64_S262144x1_S262144x64_1_0_0_1_wf : ScatterDims.WF S16384x64 S262144x1 S262144x64 [1] [0] [0] 1
  dot_S16384x64_S64x16384_S16384x16384_1_0_0_1_n_n_wf : DotDims.WF S16384x64 S64x16384 S16384x16384 [1] [0] [0] [1] [] []

variable [Facts₀]

def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S16384x128_S262144x1_S262144x128_1_0_n_n_0_1_1128 : GatherDims S16384x128 S262144x1 S262144x128 where
  offsetDims := [1]
  collapsedSliceDims := [0]
  operandBatchingDims := []
  startIndicesBatchingDims := []
  startIndexMap := [0]
  indexVectorDim := 1
  sliceSizes := ![1, 128]
  wf := gather_S16384x128_S262144x1_S262144x128_1_0_n_n_0_1_1128_wf
def scatter_S16384x128_S262144x1_S262144x128_1_0_0_1 : ScatterDims S16384x128 S262144x1 S262144x128 where
  updateWindowDims := [1]
  insertedWindowDims := [0]
  scatterDimsToOperandDims := [0]
  indexVectorDim := 1
  wf := scatter_S16384x128_S262144x1_S262144x128_1_0_0_1_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S262144x1_S262144x64_1_0_n_n_0_1_164 : GatherDims S16384x64 S262144x1 S262144x64 where
  offsetDims := [1]
  collapsedSliceDims := [0]
  operandBatchingDims := []
  startIndicesBatchingDims := []
  startIndexMap := [0]
  indexVectorDim := 1
  sliceSizes := ![1, 64]
  wf := gather_S16384x64_S262144x1_S262144x64_1_0_n_n_0_1_164_wf
def scatter_S16384x64_S262144x1_S262144x64_1_0_0_1 : ScatterDims S16384x64 S262144x1 S262144x64 where
  updateWindowDims := [1]
  insertedWindowDims := [0]
  scatterDimsToOperandDims := [0]
  indexVectorDim := 1
  wf := scatter_S16384x64_S262144x1_S262144x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.BitsBodies.lean ====
import proofs.«102990_j70274254897510_1_alg».proof.Proof.Gen.Kernel.Launch
import proofs.«102990_j70274254897510_1_alg».proof.Proof.Gen.Kernel.Skeleton
import proofs.«102990_j70274254897510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The three kernel bodies as separation-logic triples, and each pipeline's proof data

Each of the three kernels loads its two input blocks whole, computes one value from them (a product of the two
blocks; for the third kernel the logistic of the product with the second block transposed) and stores it over the
whole output block. So, at any grid point, the output staging buffer ends holding that one value of the two input
blocks, and the input staging buffers are unchanged. The proof data of a pipeline records exactly this: the arrays
as the region finds them (a parameter `V`), each input window's buffer at its block of the array, the output
window's buffer at the value of the two input blocks.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: a block of rows times the whole first weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- The output staging buffer after the body, from the two input blocks: the one whole-block store. -/
def out0_2 (x0 : Vec F S2048x256 .f32) (x1 : Vec F S256x128 .f32) : Vec F S2048x128 .f32 :=
  View.canon [⟨r0_2, k0_pay1 (View.ld x0 r0_0) (View.ld x1 r0_1)⟩]

/-- The one store covers the buffer. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S2048x256 .f32) (harg1 : arg1.IsWhole) (arg2 : Memref sig .tc .vmem S256x128 .f32) (harg2 : arg2.IsWhole) (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## Region 0: the pipeline's proof data and the body obligation -/

/-- The proof data of pipeline 0 on core `c`: the arrays as the region finds them; after the body at point `t` each
    input's buffer at its block, the output's at the value of the two input blocks; the invariant the scoped rest and
    the generator register, untouched; nothing owed; the inputs' arrays held at the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

variable (q0 : Fin cfg0.W → PosShare TreeShare)

theorem A_eq0 (c : Dev nD) (w : Fin cfg0.W) : (dat0 V q0 c).A w = V c (Pipeline.arrRef spec0 w) := by
  dsimp only [dat0]
theorem after0_0 (c : Dev nD) (t : Fin cfg0.N) : (dat0 V q0 c).after 0 t = iblk0 V c 0 t := by dsimp only [dat0]
theorem after0_1 (c : Dev nD) (t : Fin cfg0.N) : (dat0 V q0 c).after 1 t = iblk0 V c 1 t := by dsimp only [dat0]
theorem after0_2 (c : Dev nD) (t : Fin cfg0.N) : (dat0 V q0 c).after 2 t = out0_2 (iblk0 V c 0 t) (iblk0 V c 1 t) := by dsimp only [dat0]

theorem before0_0 (c : Dev nD) (t : Fin cfg0.N) (d) : (dat0 V q0 c).before 0 t d = iblk0 V c 0 t :=
  before0_0_of V (dat0 V q0 c) (A_eq0 V q0 c 0) (after0_0 V q0 c) t d
theorem before0_1 (c : Dev nD) (t : Fin cfg0.N) (d) : (dat0 V q0 c).before 1 t d = iblk0 V c 1 t :=
  before0_1_of V (dat0 V q0 c) (A_eq0 V q0 c 1) (after0_1 V q0 c) t d

/-- What the body is called with at point `t`, the windows one by one, -/
def bodyPre0 (c : Dev nD) (t : Fin cfg0.N) : sProp 𝕄 :=
  iprop((dat0 V q0 c).Φ t.castSucc ∗ (dat0 V q0 c).owesAt () t.castSucc
    ∗ (∃ d, owns (c : Thread nD τ) (st0_0 t) fullShare ((dat0 V q0 c).before 0 t d))
    ∗ (∃ d, owns (c : Thread nD τ) (st0_1 t) fullShare ((dat0 V q0 c).before 1 t d))
    ∗ (∃ d, owns (c : Thread nD τ) (st0_2 t) fullShare ((dat0 V q0 c).before 2 t d)))

/-- and what it returns. -/
def bodyPost0 (c : Dev nD) (t : Fin cfg0.N) : sProp 𝕄 :=
  iprop((dat0 V q0 c).Φ t.succ ∗ (dat0 V q0 c).owesAt () t.succ
    ∗ owns (c : Thread nD τ) (st0_0 t) fullShare ((dat0 V q0 c).after 0 t)
    ∗ owns (c : Thread nD τ) (st0_1 t) fullShare ((dat0 V q0 c).after 1 t)
    ∗ owns (c : Thread nD τ) (st0_2 t) fullShare ((dat0 V q0 c).after 2 t))

/-- The body at any point: the inputs' memrefs hold their blocks, so the kernel's triple applies; the invariant and
    the core's dues pass through unread. -/
theorem sound_body0 (c : Dev nD) (t : Fin cfg0.N) :
    bodyPre0 V q0 c t ⊢ wp frame (wpE (defs₀ (F := F)) Variants.none c none) Set.univ (bodyAt0 t) (fun _ => bodyPost0 V q0 c t) := by
  unfold bodyPre0 bodyPost0 bodyAt0
  simp only [before0_0, before0_1]
  rw [show (dat0 V q0 c).Φ t.succ = (dat0 V q0 c).Φ t.castSucc from rfl,
    show (dat0 V q0 c).owesAt () t.succ = (dat0 V q0 c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V q0 c) (defs₀ (F := F)) Variants.none () Set.univ := fun t => by
  rw [bigSep_W0, bigSep_W0]
  exact sound_body0 V q0 c t

/-! ## Region 1: a block of rows times the whole second weight matrix -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S2048x128 := Rect.unit (s := S2048x128) ![0, 0] S2048x128.size inb_S2048x128_S2048x128_0_0

/-- The output staging buffer after the body, from the two input blocks: the one whole-block store. -/
def out1_2 (x0 : Vec F S2048x128 .f32) (x1 : Vec F S128x128 .f32) : Vec F S2048x128 .f32 :=
  View.canon [⟨r1_2, k1_pay1 (View.ld x0 r1_0) (View.ld x1 r1_1)⟩]

/-- The one store covers the buffer. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

set_option maxHeartbeats 1000000 in
/-- The kernel body on whole staging memrefs, the inputs' at contents `x0`, `x1` and the output's at anything, runs to
    the continuation holding the inputs' as they were and the output's at `out1_2 x0 x1`. -/
theorem sound_kernel1 (c : Dev nD) (E : Set ℕ) (i : grid1.Coords) (arg1 : Memref sig .tc .vmem S2048x128 .f32) (harg1 : arg1.IsWhole) (arg2 : Memref sig .tc .vmem S128x128 .f32) (harg2 : arg2.IsWhole) (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_matmul_kernel i arg1 harg1 arg2 harg2 arg3 harg3) K := by
  simp only [cc1_matmul_kernel_eq_skeleton]; unfold cc1_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## Region 1: the pipeline's proof data and the body obligation -/

/-- The proof data of pipeline 1 on core `c`: the arrays as the region finds them; after the body at point `t` each
    input's buffer at its block, the output's at the value of the two input blocks; the invariant the scoped rest and
    the generator register, untouched; nothing owed; the inputs' arrays held at the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

variable (q1 : Fin cfg1.W → PosShare TreeShare)

theorem A_eq1 (c : Dev nD) (w : Fin cfg1.W) : (dat1 V q1 c).A w = V c (Pipeline.arrRef spec1 w) := by
  dsimp only [dat1]
theorem after1_0 (c : Dev nD) (t : Fin cfg1.N) : (dat1 V q1 c).after 0 t = iblk1 V c 0 t := by dsimp only [dat1]
theorem after1_1 (c : Dev nD) (t : Fin cfg1.N) : (dat1 V q1 c).after 1 t = iblk1 V c 1 t := by dsimp only [dat1]
theorem after1_2 (c : Dev nD) (t : Fin cfg1.N) : (dat1 V q1 c).after 2 t = out1_2 (iblk1 V c 0 t) (iblk1 V c 1 t) := by dsimp only [dat1]

theorem before1_0 (c : Dev nD) (t : Fin cfg1.N) (d) : (dat1 V q1 c).before 0 t d = iblk1 V c 0 t :=
  before1_0_of V (dat1 V q1 c) (A_eq1 V q1 c 0) (after1_0 V q1 c) t d
theorem before1_1 (c : Dev nD) (t : Fin cfg1.N) (d) : (dat1 V q1 c).before 1 t d = iblk1 V c 1 t :=
  before1_1_of V (dat1 V q1 c) (A_eq1 V q1 c 1) (after1_1 V q1 c) t d

/-- What the body is called with at point `t`, the windows one by one, -/
def bodyPre1 (c : Dev nD) (t : Fin cfg1.N) : sProp 𝕄 :=
  iprop((dat1 V q1 c).Φ t.castSucc ∗ (dat1 V q1 c).owesAt () t.castSucc
    ∗ (∃ d, owns (c : Thread nD τ) (st1_0 t) fullShare ((dat1 V q1 c).before 0 t d))
    ∗ (∃ d, owns (c : Thread nD τ) (st1_1 t) fullShare ((dat1 V q1 c).before 1 t d))
    ∗ (∃ d, owns (c : Thread nD τ) (st1_2 t) fullShare ((dat1 V q1 c).before 2 t d)))

/-- and what it returns. -/
def bodyPost1 (c : Dev nD) (t : Fin cfg1.N) : sProp 𝕄 :=
  iprop((dat1 V q1 c).Φ t.succ ∗ (dat1 V q1 c).owesAt () t.succ
    ∗ owns (c : Thread nD τ) (st1_0 t) fullShare ((dat1 V q1 c).after 0 t)
    ∗ owns (c : Thread nD τ) (st1_1 t) fullShare ((dat1 V q1 c).after 1 t)
    ∗ owns (c : Thread nD τ) (st1_2 t) fullShare ((dat1 V q1 c).after 2 t))

/-- The body at any point: the inputs' memrefs hold their blocks, so the kernel's triple applies; the invariant and
    the core's dues pass through unread. -/
theorem sound_body1 (c : Dev nD) (t : Fin cfg1.N) :
    bodyPre1 V q1 c t ⊢ wp frame (wpE (defs₀ (F := F)) Variants.none c none) Set.univ (bodyAt1 t) (fun _ => bodyPost1 V q1 c t) := by
  unfold bodyPre1 bodyPost1 bodyAt1
  simp only [before1_0, before1_1]
  rw [show (dat1 V q1 c).Φ t.succ = (dat1 V q1 c).Φ t.castSucc from rfl,
    show (dat1 V q1 c).owesAt () t.succ = (dat1 V q1 c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V q1 c) (defs₀ (F := F)) Variants.none () Set.univ := fun t => by
  rw [bigSep_W1, bigSep_W1]
  exact sound_body1 V q1 c t

/-! ## Region 2: the logistic of a block of rows times another block of rows transposed -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S1024x64 := Rect.unit (s := S1024x64) ![0, 0] S1024x64.size inb_S1024x64_S1024x64_0_0
abbrev r2_1 : Rect S1024x64 := Rect.unit (s := S1024x64) ![0, 0] S1024x64.size inb_S1024x64_S1024x64_0_0
abbrev r2_2 : Rect S1024x1024 := Rect.unit (s := S1024x1024) ![0, 0] S1024x1024.size inb_S1024x1024_S1024x1024_0_0

/-- The output staging buffer after the body, from the two input blocks: the one whole-block store. -/
def out2_2 (x0 : Vec F S1024x64 .f32) (x1 : Vec F S1024x64 .f32) : Vec F S1024x1024 .f32 :=
  View.canon [⟨r2_2, k2_pay1 (View.ld x0 r2_0) (View.ld x1 r2_1)⟩]

/-- The one store covers the buffer. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

set_option maxHeartbeats 1000000 in
/-- The kernel body on whole staging memrefs, the inputs' at contents `x0`, `x1` and the output's at anything, runs to
    the continuation holding the inputs' as they were and the output's at `out2_2 x0 x1`. -/
theorem sound_kernel2 (c : Dev nD) (E : Set ℕ) (i : grid2.Coords) (arg1 : Memref sig .tc .vmem S1024x64 .f32) (harg1 : arg1.IsWhole) (arg2 : Memref sig .tc .vmem S1024x64 .f32) (harg2 : arg2.IsWhole) (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_decode_kernel i arg1 harg1 arg2 harg2 arg3 harg3) K := by
  simp only [cc2_decode_kernel_eq_skeleton]; unfold cc2_decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## Region 2: the pipeline's proof data and the body obligation -/

/-- The proof data of pipeline 2 on core `c`: the arrays as the region finds them; after the body at point `t` each
    input's buffer at its block, the output's at the value of the two input blocks; the invariant the scoped rest and
    the generator register, untouched; nothing owed; the inputs' arrays held at the shares `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q
  owed _ := 0

variable (q2 : Fin cfg2.W → PosShare TreeShare)

theorem A_eq2 (c : Dev nD) (w : Fin cfg2.W) : (dat2 V q2 c).A w = V c (Pipeline.arrRef spec2 w) := by
  dsimp only [dat2]
theorem after2_0 (c : Dev nD) (t : Fin cfg2.N) : (dat2 V q2 c).after 0 t = iblk2 V c 0 t := by dsimp only [dat2]
theorem after2_1 (c : Dev nD) (t : Fin cfg2.N) : (dat2 V q2 c).after 1 t = iblk2 V c 1 t := by dsimp only [dat2]
theorem after2_2 (c : Dev nD) (t : Fin cfg2.N) : (dat2 V q2 c).after 2 t = out2_2 (iblk2 V c 0 t) (iblk2 V c 1 t) := by dsimp only [dat2]

theorem before2_0 (c : Dev nD) (t : Fin cfg2.N) (d) : (dat2 V q2 c).before 0 t d = iblk2 V c 0 t :=
  before2_0_of V (dat2 V q2 c) (A_eq2 V q2 c 0) (after2_0 V q2 c) t d
theorem before2_1 (c : Dev nD) (t : Fin cfg2.N) (d) : (dat2 V q2 c).before 1 t d = iblk2 V c 1 t :=
  before2_1_of V (dat2 V q2 c) (A_eq2 V q2 c 1) (after2_1 V q2 c) t d

/-- What the body is called with at point `t`, the windows one by one, -/
def bodyPre2 (c : Dev nD) (t : Fin cfg2.N) : sProp 𝕄 :=
  iprop((dat2 V q2 c).Φ t.castSucc ∗ (dat2 V q2 c).owesAt () t.castSucc
    ∗ (∃ d, owns (c : Thread nD τ) (st2_0 t) fullShare ((dat2 V q2 c).before 0 t d))
    ∗ (∃ d, owns (c : Thread nD τ) (st2_1 t) fullShare ((dat2 V q2 c).before 1 t d))
    ∗ (∃ d, owns (c : Thread nD τ) (st2_2 t) fullShare ((dat2 V q2 c).before 2 t d)))

/-- and what it returns. -/
def bodyPost2 (c : Dev nD) (t : Fin cfg2.N) : sProp 𝕄 :=
  iprop((dat2 V q2 c).Φ t.succ ∗ (dat2 V q2 c).owesAt () t.succ
    ∗ owns (c : Thread nD τ) (st2_0 t) fullShare ((dat2 V q2 c).after 0 t)
    ∗ owns (c : Thread nD τ) (st2_1 t) fullShare ((dat2 V q2 c).after 1 t)
    ∗ owns (c : Thread nD τ) (st2_2 t) fullShare ((dat2 V q2 c).after 2 t))

/-- The body at any point: the inputs' memrefs hold their blocks, so the kernel's triple applies; the invariant and
    the core's dues pass through unread. -/
theorem sound_body2 (c : Dev nD) (t : Fin cfg2.N) :
    bodyPre2 V q2 c t ⊢ wp frame (wpE (defs₀ (F := F)) Variants.none c none) Set.univ (bodyAt2 t) (fun _ => bodyPost2 V q2 c t) := by
  unfold bodyPre2 bodyPost2 bodyAt2
  simp only [before2_0, before2_1]
  rw [show (dat2 V q2 c).Φ t.succ = (dat2 V q2 c).Φ t.castSucc from rfl,
    show (dat2 V q2 c).owesAt () t.succ = (dat2 V q2 c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V q2 c) (defs₀ (F := F)) Variants.none () Set.univ := fun t => by
  rw [bigSep_W2, bigSep_W2]
  exact sound_body2 V q2 c t

end Cert.Kernel.Hand

end
-- ==== Proof.BitsRun.lean ====
import proofs.«102990_j70274254897510_1_alg».proof.Proof.BitsBodies
import proofs.«102990_j70274254897510_1_alg».proof.Proof.Gen.Kernel.Regions

/-!
# The whole run: the three kernel regions between the host stretches

Between two items of the main function a core holds every unscoped buffer whole, at a valuation: the launch memory,
then each host stretch's operations applied, then after a region the same valuation with the region's output array
replaced by what the region's write-backs leave. Each region is entered from the valuation before it: its windows'
arrays are taken out of the unscoped buffers, the pipeline runs, and the arrays are put back. The third region reads
one array through two windows; that array is held in two halves of its share, one per window, and rejoined at exit.
The run ends with every unscoped buffer at the last valuation, from which the results and the arguments are read.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The valuations between the items, and what each region leaves -/

/-- The third region's shares: the one array its two input windows read, in two halves. -/
def q2 : Fin cfg2.W → PosShare TreeShare := fun w => match w with
  | ⟨0, _⟩ => fullShare.left
  | ⟨1, _⟩ => fullShare.right
  | ⟨2, _⟩ => fullShare

/-- Region 0's entry contents, read at the TensorCore's references. -/
def E5 : (c : Dev nD) → (b : Ref sig .tc) → Buf (Elt F) ((c : Thread nD τ).loc b) := fun c b => V5 m c b
theorem E5_apply (c : Dev nD) (b : Ref sig .tc) : E5 m c b = V5 m c b := rfl
theorem bufs_E5 (c : Dev nD) : (unscopedBufs (Ix := Unit) (Name := ℕ) (U := UR sig nD τ) (Lvl := ℕ) c (E5 m c) : sProp 𝕄)
    = StableHlo.held (c : Thread nD τ) (Pipeline.ucRefs τ sig) (V5 m c) := Pipeline.unscopedBufs_held c (V5 m c)
attribute [irreducible] E5
/-- What region 0's write-backs leave in its output array. -/
def O6 (c : Dev nD) : Buf (Elt F) ((c : Thread nD τ).loc main_v20) := (dat0 (E5 m) (fun _ => fullShare) c).arrAt 2 cfg0.N
theorem O6_def (c : Dev nD) : O6 m c = (dat0 (E5 m) (fun _ => fullShare) c).arrAt 2 cfg0.N := rfl
attribute [irreducible] O6
/-- The regions' outputs, region 0's known. -/
def outsA : Outs (F := F) := fun _ r c => if h : r = main_v20 then h ▸ O6 m c else V0 m c r
def E9 : (c : Dev nD) → (b : Ref sig .tc) → Buf (Elt F) ((c : Thread nD τ).loc b) := fun c b => V9 m (outsA m) c b
theorem E9_apply (c : Dev nD) (b : Ref sig .tc) : E9 m c b = V9 m (outsA m) c b := rfl
theorem bufs_E9 (c : Dev nD) : (unscopedBufs (Ix := Unit) (Name := ℕ) (U := UR sig nD τ) (Lvl := ℕ) c (E9 m c) : sProp 𝕄)
    = StableHlo.held (c : Thread nD τ) (Pipeline.ucRefs τ sig) (V9 m (outsA m) c) := Pipeline.unscopedBufs_held c (V9 m (outsA m) c)
attribute [irreducible] E9
def O10 (c : Dev nD) : Buf (Elt F) ((c : Thread nD τ).loc main_v43) := (dat1 (E9 m) (fun _ => fullShare) c).arrAt 2 cfg1.N
theorem O10_def (c : Dev nD) : O10 m c = (dat1 (E9 m) (fun _ => fullShare) c).arrAt 2 cfg1.N := rfl
attribute [irreducible] O10
/-- The regions' outputs, regions 0 and 1's known. -/
def outsB : Outs (F := F) := fun n r c => if n = 6 then outsA m n r c else if h : r = main_v43 then h ▸ O10 m c else V0 m c r
def E11 : (c : Dev nD) → (b : Ref sig .tc) → Buf (Elt F) ((c : Thread nD τ).loc b) := fun c b => V11 m (outsB m) c b
theorem E11_apply (c : Dev nD) (b : Ref sig .tc) : E11 m c b = V11 m (outsB m) c b := rfl
theorem bufs_E11 (c : Dev nD) : (unscopedBufs (Ix := Unit) (Name := ℕ) (U := UR sig nD τ) (Lvl := ℕ) c (E11 m c) : sProp 𝕄)
    = StableHlo.held (c : Thread nD τ) (Pipeline.ucRefs τ sig) (V11 m (outsB m) c) := Pipeline.unscopedBufs_held c (V11 m (outsB m) c)
attribute [irreducible] E11
def O12 (c : Dev nD) : Buf (Elt F) ((c : Thread nD τ).loc main_v65) := (dat2 (E11 m) q2 c).arrAt 2 cfg2.N
theorem O12_def (c : Dev nD) : O12 m c = (dat2 (E11 m) q2 c).arrAt 2 cfg2.N := rfl
attribute [irreducible] O12
/-- The regions' outputs, all three. -/
def outs : Outs (F := F) := fun n r c => if n = 12 then (if h : r = main_v65 then h ▸ O12 m c else V0 m c r) else outsB m n r c

theorem outs_6 (c : Dev nD) : outs m 6 main_v20 c = O6 m c := by
  unfold outs outsB outsA; rw [if_neg (by decide), if_pos rfl, dif_pos rfl]
theorem outs_10 (c : Dev nD) : outs m 10 main_v43 c = O10 m c := by
  unfold outs outsB; rw [if_neg (by decide), if_neg (by decide), dif_pos rfl]
theorem outs_12 (c : Dev nD) : outs m 12 main_v65 c = O12 m c := by
  unfold outs; rw [if_pos rfl, dif_pos rfl]
theorem outsB_6 (c : Dev nD) : outsB m 6 main_v20 c = outsA m 6 main_v20 c := by
  unfold outsB; rw [if_pos rfl]
theorem outs_6' (c : Dev nD) : outs m 6 main_v20 c = outsA m 6 main_v20 c := by
  unfold outs; rw [if_neg (by decide)]; exact outsB_6 m c
theorem outs_10' (c : Dev nD) : outs m 10 main_v43 c = outsB m 10 main_v43 c := by
  unfold outs; rw [if_neg (by decide)]

/-- The valuations before and after each region, over all three outputs. -/
abbrev E5v (c : Dev nD) : Valuation τ sig (Elt F) := V5 m c
abbrev E6v (c : Dev nD) : Valuation τ sig (Elt F) := V6 m (outs m) c
abbrev E9v (c : Dev nD) : Valuation τ sig (Elt F) := V9 m (outs m) c
abbrev E10v (c : Dev nD) : Valuation τ sig (Elt F) := V10 m (outs m) c
abbrev E11v (c : Dev nD) : Valuation τ sig (Elt F) := V11 m (outs m) c
abbrev E12v (c : Dev nD) : Valuation τ sig (Elt F) := V12 m (outs m) c
abbrev E6 : (c : Dev nD) → (b : Ref sig .tc) → Buf (Elt F) ((c : Thread nD τ).loc b) := fun c b => V6 m (outs m) c b
abbrev E10 : (c : Dev nD) → (b : Ref sig .tc) → Buf (Elt F) ((c : Thread nD τ).loc b) := fun c b => V10 m (outs m) c b
def E12 : (c : Dev nD) → (b : Ref sig .tc) → Buf (Elt F) ((c : Thread nD τ).loc b) := fun c b => V12 m (outs m) c b
theorem E12_apply (c : Dev nD) (b : Ref sig .tc) : E12 m c b = V12 m (outs m) c b := rfl
theorem bufs_E12 (c : Dev nD) : (unscopedBufs (Ix := Unit) (Name := ℕ) (U := UR sig nD τ) (Lvl := ℕ) c (E12 m c) : sProp 𝕄)
    = StableHlo.held (c : Thread nD τ) (Pipeline.ucRefs τ sig) (V12 m (outs m) c) := Pipeline.unscopedBufs_held c (V12 m (outs m) c)
attribute [irreducible] E12

/-- A region's entry valuation does not depend on the outputs of the regions after it. -/
theorem V6_eq (c : Dev nD) : V6 m (outs m) c = V6 m (outsA m) c := by
  unfold V6; rw [outs_6']
theorem V9_eq (c : Dev nD) : V9 m (outs m) c = V9 m (outsA m) c := by
  unfold V9 V8 V7; rw [V6_eq]
theorem V10_eq (c : Dev nD) : V10 m (outs m) c = V10 m (outsB m) c := by
  have h9 : V9 m (outsB m) c = V9 m (outsA m) c := by unfold V9 V8 V7 V6; rw [outsB_6]
  unfold V10; rw [outs_10', V9_eq, h9]
theorem V11_eq (c : Dev nD) : V11 m (outs m) c = V11 m (outsB m) c := by
  unfold V11; rw [V10_eq]

/-! ## The proof data family -/

abbrev 𝒱₀ : Variants := Variants.none
abbrev L : GSem nD τ sig → Finset Unit := fun _ => ∅
abbrev lv : GSem nD τ sig → Unit → ℕ := fun _ _ => 0

/-- Every pipeline's proof data, each at its region's entry contents. -/
def pdats : (p : Fin 3) → (c : Dev nD) → Dat τ (Elt F) Unit ℕ (UR sig nD τ) ℕ (cfgs p) c
  | ⟨0, _⟩ => fun c => dat0 (E5 m) (fun _ => fullShare) c
  | ⟨1, _⟩ => fun c => dat1 (E9 m) (fun _ => fullShare) c
  | ⟨2, _⟩ => fun c => dat2 (E11 m) q2 c

/-- What rides beside the buffers through every item: the generator register at some state and the core's dues, none. -/
abbrev R (c : Dev nD) : sProp 𝕄 := iprop((∃ r, prngReg c r) ∗ ∃ W, owes (c : Thread nD τ) (0 : CellTallies nD τ sig Unit) W)

/-! ## Regions 0 and 1: distinct arrays -/

theorem hF0 (c : Dev nD) (w : Fin cfg0.W) : (pdats m 0 c).arrAt w cfg0.N = E6 m c (Pipeline.arrRef spec0 w) := by
  match w with
  | ⟨0, _⟩ => exact ((pdats m 0 c).arrAt_in 0 rfl _).trans ((E5_apply m c main_v19).trans (V6_of m (outs m) c main_v19 (by decide)).symm)
  | ⟨1, _⟩ => exact ((pdats m 0 c).arrAt_in 1 rfl _).trans ((E5_apply m c main_arg1).trans (V6_of m (outs m) c main_arg1 (by decide)).symm)
  | ⟨2, _⟩ =>
    refine (O6_def m c).symm.trans ?_
    show O6 m c = V6 m (outs m) c main_v20
    unfold V6; rw [Function.update_self, outs_6]
theorem hrest0 (c : Dev nD) : ∀ b, b ∉ Finset.univ.image (Pipeline.arrRef spec0) → E6 m c b = E5 m c b :=
  fun b hb => (V6_of m (outs m) c b (fun h => hb (Finset.mem_image.mpr ⟨2, Finset.mem_univ _, (List.mem_singleton.mp h).symm⟩))).trans (E5_apply m c b).symm

theorem hF1 (c : Dev nD) (w : Fin cfg1.W) : (pdats m 1 c).arrAt w cfg1.N = E10 m c (Pipeline.arrRef spec1 w) := by
  match w with
  | ⟨0, _⟩ => exact ((pdats m 1 c).arrAt_in 0 rfl _).trans ((E9_apply m c main_v42).trans ((congrFun (V9_eq m c) _).symm.trans (V10_of m (outs m) c main_v42 (by decide)).symm))
  | ⟨1, _⟩ => exact ((pdats m 1 c).arrAt_in 1 rfl _).trans ((E9_apply m c main_v38).trans ((congrFun (V9_eq m c) _).symm.trans (V10_of m (outs m) c main_v38 (by decide)).symm))
  | ⟨2, _⟩ =>
    refine (O10_def m c).symm.trans ?_
    show O10 m c = V10 m (outs m) c main_v43
    unfold V10; rw [Function.update_self, outs_10]
theorem hrest1 (c : Dev nD) : ∀ b, b ∉ Finset.univ.image (Pipeline.arrRef spec1) → E10 m c b = E9 m c b :=
  fun b hb => (V10_of m (outs m) c b (fun h => hb (Finset.mem_image.mpr ⟨2, Finset.mem_univ _, (List.mem_singleton.mp h).symm⟩))).trans ((congrFun (V9_eq m c) _).trans (E9_apply m c b).symm)

set_option backward.isDefEq.respectTransparency.types false in
/-- Region 0 over the thread state: entered from every unscoped buffer at the valuation before it, left at the one
    after it. Its arrays are split out of the unscoped buffers at entry and put back at exit, the output's at what the
    write-backs leave; the generator register enters the invariant and returns; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) (fun _ => fullShare) c).loose
  hwaits := Pipeline.hwaits_of_owed_zero _ _ _ _ L lv 0 fun _ _ => rfl
  pre c := iprop(StableHlo.held (c : Thread nD τ) (Pipeline.ucRefs τ sig) (E5v m c) ∗ R c)
  post c := iprop(StableHlo.held (c : Thread nD τ) (Pipeline.ucRefs τ sig) (E6v m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [bufs_E5] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation before it, left at the one
    after it. Its arrays are split out of the unscoped buffers at entry and put back at exit, the output's at what the
    write-backs leave; the generator register enters the invariant and returns; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E9 m) (fun _ => fullShare) c).loose
  hwaits := Pipeline.hwaits_of_owed_zero _ _ _ _ L lv 1 fun _ _ => rfl
  pre c := iprop(StableHlo.held (c : Thread nD τ) (Pipeline.ucRefs τ sig) (E9v m c) ∗ R c)
  post c := iprop(StableHlo.held (c : Thread nD τ) (Pipeline.ucRefs τ sig) (E10v m c) ∗ R c)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none, show E9v m c = V9 m (outsA m) c from V9_eq m c]
    have hsplit := Pipeline.arrays_of_unscopedBufs (p := 1) (pcfgs (F := F)) adm (pdats m) launch1.win launch1.arr_whole c
      ((pdats m 1 c).share_full fun _ => rfl) (E9 m c) fun _ => rfl
    rw [bufs_E9] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: one array behind two input windows -/

/-- The buffers behind region 2's windows are two: the array both input windows read, and the output array. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v64) ↦{fullShare} W main_v64) ∗ (((c : Thread nD τ).loc main_v65) ↦{fullShare} W main_v65)) := by
  unfold Pipeline.arrBufs
  rw [bigSep_eq_bigSepL_of_eq [main_v64, main_v65] (by decide) (by decide)]
  rfl

/-- A core's unscoped buffers at any contents: the shared input array, the output array, and the rest. -/
theorem split2 (c : Dev nD) (W : (b : Ref sig .tc) → Buf (Elt F) ((c : Thread nD τ).loc b)) :
    (unscopedBufs (Ix := Unit) (Name := ℕ) (U := UR sig nD τ) (Lvl := ℕ) c W : sProp 𝕄)
      = iprop(((((c : Thread nD τ).loc main_v64) ↦{fullShare} W main_v64) ∗ (((c : Thread nD τ).loc main_v65) ↦{fullShare} W main_v65))
          ∗ Pipeline.unscopedRest spec2 c W) := by
  rw [← arrBufs2_eq]
  exact Pipeline.unscopedBufs_split₀ (Ix := Unit) (Name := ℕ) (U := UR sig nD τ) (Lvl := ℕ) (Val := Elt F) (nD := nD) (τ := τ)
    cfgs 2 winFacts₀2.arr_unscoped c W

/-- Region 2's arrays at given contents, window by window: the shared array in the two halves of its share, the
    output array whole. -/
theorem arrays2_of (c : Dev nD) (G : (w : Fin cfg2.W) → Buf (Elt F) ((cfg2.win w).arr.view.loc (c : Thread nD τ)))
    (a0 a1 : Buf (Elt F) ((c : Thread nD τ).loc main_v64)) (a2 : Buf (Elt F) ((c : Thread nD τ).loc main_v65))
    (h0 : G 0 = a0) (h1 : G 1 = a1) (h2 : G 2 = a2) :
    ((pdats m 2 c).arrays G : sProp 𝕄)
      = iprop((((c : Thread nD τ).loc main_v64) ↦{fullShare.left} a0) ∗ (((c : Thread nD τ).loc main_v64) ↦{fullShare.right} a1)
          ∗ (((c : Thread nD τ).loc main_v65) ↦{fullShare} a2)) := by
  subst h0 h1 h2
  unfold Pipeline.Dat.arrays
  rw [bigSep_W2, Memref.IsWhole.set_eq_univ (m := ((cfgs 2).win 0).arr) (arr_whole2 0), Memref.IsWhole.set_eq_univ (m := ((cfgs 2).win 1).arr) (arr_whole2 1),
    Memref.IsWhole.set_eq_univ (m := ((cfgs 2).win 2).arr) (arr_whole2 2)]
  rfl

theorem h64 (c : Dev nD) : E12 m c main_v64 = E11 m c main_v64 :=
  (E12_apply m c main_v64).trans ((V12_of m (outs m) c main_v64 (by decide)).trans ((congrFun (V11_eq m c) _).trans (E11_apply m c main_v64).symm))
theorem h65 (c : Dev nD) : E12 m c main_v65 = O12 m c := by
  refine (E12_apply m c main_v65).trans ?_
  show V12 m (outs m) c main_v65 = _
  unfold V12; rw [Function.update_self, outs_12]
theorem hrest2 (c : Dev nD) : ∀ b, b ∉ Finset.univ.image (Pipeline.arrRef spec2) → E12 m c b = E11 m c b :=
  fun b hb => (E12_apply m c b).trans ((V12_of m (outs m) c b (fun h => hb (Finset.mem_image.mpr ⟨2, Finset.mem_univ _, (List.mem_singleton.mp h).symm⟩))).trans
    ((congrFun (V11_eq m c) _).trans (E11_apply m c b).symm))

/-- The unscoped buffers off region 2's arrays, at two valuations that agree there. -/
theorem rest_congr2 (c : Dev nD) (W W' : (b : Ref sig .tc) → Buf (Elt F) ((c : Thread nD τ).loc b))
    (h : ∀ b, b ∉ Finset.univ.image (Pipeline.arrRef spec2) → W' b = W b) :
    (Pipeline.unscopedRest (Ix := Unit) (Name := ℕ) (U := UR sig nD τ) (Lvl := ℕ) spec2 c W' : sProp 𝕄) = Pipeline.unscopedRest spec2 c W := by
  unfold Pipeline.unscopedRest
  exact bigSep_congr fun b hb => by rw [h b (Finset.mem_sdiff.mp hb).2]

/-- What region 2's proof data starts and ends with in each window's array. -/
theorem A2_0 (c : Dev nD) : (pdats m 2 c).arrAt 0 0 = E11 m c main_v64 := rfl
theorem A2_1 (c : Dev nD) : (pdats m 2 c).arrAt 1 0 = E11 m c main_v64 := rfl
theorem A2_2 (c : Dev nD) : (pdats m 2 c).arrAt 2 0 = E11 m c main_v65 := rfl
theorem Z2_0 (c : Dev nD) : (pdats m 2 c).arrAt 0 cfg2.N = E11 m c main_v64 := ((pdats m 2 c).arrAt_in 0 rfl _).trans rfl
theorem Z2_1 (c : Dev nD) : (pdats m 2 c).arrAt 1 cfg2.N = E11 m c main_v64 := ((pdats m 2 c).arrAt_in 1 rfl _).trans rfl
theorem Z2_2 (c : Dev nD) : (pdats m 2 c).arrAt 2 cfg2.N = O12 m c := (O12_def m c).symm

/-- Region 2's arrays at entry, and after every write-back, window by window. -/
theorem arrays2_entry (c : Dev nD) :
    ((pdats m 2 c).arrays (fun x => (pdats m 2 c).arrAt x 0) : sProp 𝕄)
      = iprop((((c : Thread nD τ).loc main_v64) ↦{fullShare.left} E11 m c main_v64) ∗ (((c : Thread nD τ).loc main_v64) ↦{fullShare.right} E11 m c main_v64)
          ∗ (((c : Thread nD τ).loc main_v65) ↦{fullShare} E11 m c main_v65)) :=
  arrays2_of m c _ _ _ _ (A2_0 m c) (A2_1 m c) (A2_2 m c)
theorem arrays2_exit (c : Dev nD) :
    ((pdats m 2 c).arrays (fun x => (pdats m 2 c).arrAt x (Pipeline.pin (pcfgs (F := F)) adm 2).N) : sProp 𝕄)
      = iprop((((c : Thread nD τ).loc main_v64) ↦{fullShare.left} E11 m c main_v64) ∗ (((c : Thread nD τ).loc main_v64) ↦{fullShare.right} E11 m c main_v64)
          ∗ (((c : Thread nD τ).loc main_v65) ↦{fullShare} O12 m c)) :=
  arrays2_of m c _ _ _ _ (Z2_0 m c) (Z2_1 m c) (Z2_2 m c)

set_option maxHeartbeats 2000000 in
set_option backward.isDefEq.respectTransparency.types false in
/-- Region 2 over the thread state. At entry the array its two input windows read is split into the two halves of its
    share, one per window; at exit the halves, both still at the entry contents, are joined again. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E11 m) q2 c).loose
  hwaits := Pipeline.hwaits_of_owed_zero _ _ _ _ L lv 2 fun _ _ => rfl
  pre c := iprop(StableHlo.held (c : Thread nD τ) (Pipeline.ucRefs τ sig) (E11v m c) ∗ R c)
  post c := iprop(StableHlo.held (c : Thread nD τ) (Pipeline.ucRefs τ sig) (E12v m c) ∗ R c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none, show E11v m c = V11 m (outsB m) c from V11_eq m c]
    have hsplit := split2 c (E11 m c)
    rw [bufs_E11] at hsplit
    have harr := arrays2_entry m c
    iintro ⟨⟨Hub, Hp, HO⟩, -, -⟩
    ihave H := (Entails.of_eq hsplit) $$ Hub
    icases H with ⟨⟨Hz, Ho⟩, Hrest⟩
    ihave Hz := (pointsTo_share (PosShare.mem_left_op_right fullShare)).1 $$ Hz
    icases Hz with ⟨Hz1, Hz2⟩
    imodintro
    isplitl [Hz1 Hz2 Ho]
    · iapply (Entails.of_eq harr.symm)
      isplitl [Hz1]; · iexact Hz1
      isplitl [Hz2]; · iexact Hz2
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hsplit := split2 c (E12 m c)
    rw [bufs_E12, h64, h65, rest_congr2 c (E11 m c) (E12 m c) (hrest2 m c)] at hsplit
    have harr := arrays2_exit m c
    iintro ⟨Ha, HO, HY, Hrest⟩
    ihave Ha := (Entails.of_eq harr) $$ Ha
    icases Ha with ⟨Hz1, Hz2, Ho⟩
    ihave Hz := (pointsTo_share (PosShare.mem_left_op_right fullShare)).2 $$ [Hz1 Hz2]
    · isplitl [Hz1] <;> iassumption
    imodintro
    isplitl [Hz Ho Hrest]
    · iapply (Entails.of_eq hsplit.symm)
      isplitl [Hz Ho]
      · isplitl [Hz] <;> iassumption
      iexact Hrest
    isplitl [HY]; · iexact HY
    unfold Pipeline.Dat.owesAt Pipeline.owesWithin
    icases HO with ⟨%W, -, HO⟩; iexists W; iexact HO

/-! ## The run -/

/-- What rides beside the buffers, between any two items. -/
abbrev Erest : Fin 4 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last region's exit state is the final thread state beside the core owing nothing. -/
theorem last_chain (c : Dev nD) :
    (iprop(StableHlo.held (c : Thread nD τ) (Pipeline.ucRefs τ sig) (E12v m c) ∗ R c) : sProp 𝕄)
      ⊢ iprop((StableHlo.held (c : Thread nD τ) (Pipeline.ucRefs τ sig) (V12 m (outs m) c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- Every weakly fair execution of the main function from memory `m` with zero counters terminates, faulting nowhere,
    and every final memory holds every unscoped buffer at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V12 m (outs m) c b) :=
  Pipeline.θ_run_regions_kit_dev (pcfgs (F := F)) adm (pdats m) () cellOf_inj emb₁ defs₀ 𝒱₀ L lv m ρ main
    (segs m (outs m) 𝒱₀ L lv Erest () (pdats m) (reg0 m) (reg1 m) (reg2 m))
    (fun c Q => by
      rewrite [main_chain c, Seg.run_eq_chain,
        show (segs m (outs m) 𝒱₀ L lv Erest () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m (outs m) c) ∗ ∃ r, prngReg c r))
    (hch := fun c => ⟨.rfl, .rfl, .rfl, .rfl, .rfl, .rfl, .rfl, .rfl, .rfl, .rfl, .rfl, .rfl, last_chain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (outs m) c) s')
      isplitl [Hh] <;> iassumption)
    (hQ := fun s h c => h c)

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c),
     (h c _ (mem_uc main_arg6 (by decide))).trans (V12_main_arg6 m (outs m) c),
     (h c _ (mem_uc main_arg7 (by decide))).trans (V12_main_arg7 m (outs m) c),
     (h c _ (mem_uc main_arg8 (by decide))).trans (V12_main_arg8 m (outs m) c),
     (h c _ (mem_uc main_arg9 (by decide))).trans (V12_main_arg9 m (outs m) c)⟩) (run_all m ρ)

/-- The run with its two results named: the third region's output array, and the contents the third region found in
    the array it reads; the arguments unchanged. -/
theorem run_values (ρ : Dev nD → PrngReg) :
    θ_run defs (onTc (τ := τ) (main (F := F))) ⟨m, fun _ => 0, ρ⟩ (fun r => ∀ c : Dev nD,
      r.2.mem ((c.tc : Thread nD τ).loc main_v65) = O12 m c
      ∧ r.2.mem ((c.tc : Thread nD τ).loc main_v64) = E11 m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v65 (by decide))).trans ((E12_apply m c main_v65).symm.trans (h65 m c)),
     (h c _ (mem_uc main_v64 (by decide))).trans ((E12_apply m c main_v64).symm.trans (h64 m c)),
     (h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c),
     (h c _ (mem_uc main_arg6 (by decide))).trans (V12_main_arg6 m (outs m) c),
     (h c _ (mem_uc main_arg7 (by decide))).trans (V12_main_arg7 m (outs m) c),
     (h c _ (mem_uc main_arg8 (by decide))).trans (V12_main_arg8 m (outs m) c),
     (h c _ (mem_uc main_arg9 (by decide))).trans (V12_main_arg9 m (outs m) c)⟩) (run_all m ρ)

theorem outsA_6 (c : Dev nD) : outsA m 6 main_v20 c = O6 m c := by
  unfold outsA; rw [dif_pos rfl]
theorem outsB_10 (c : Dev nD) : outsB m 10 main_v43 c = O10 m c := by
  unfold outsB; rw [if_neg (by decide), dif_pos rfl]

end Cert.Kernel.Hand

end
-- ==== Proof.IdealBodies.lean ====
import proofs.«102990_j70274254897510_1_alg».proof.Proof.Gen.KernelIdeal.Launch
import proofs.«102990_j70274254897510_1_alg».proof.Proof.Gen.KernelIdeal.Skeleton
import proofs.«102990_j70274254897510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The three kernel bodies as separation-logic triples, and each pipeline's proof data

Each of the three kernels loads its two input blocks whole, computes one value from them (a product of the two
blocks; for the third kernel the logistic of the product with the second block transposed) and stores it over the
whole output block. So, at any grid point, the output staging buffer ends holding that one value of the two input
blocks, and the input staging buffers are unchanged. The proof data of a pipeline records exactly this: the arrays
as the region finds them (a parameter `V`), each input window's buffer at its block of the array, the output
window's buffer at the value of the two input blocks.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: a block of rows times the whole first weight matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- The output staging buffer after the body, from the two input blocks: the one whole-block store. -/
def out0_2 (x0 : Vec F S2048x256 .f32) (x1 : Vec F S256x128 .f32) : Vec F S2048x128 .f32 :=
  View.canon [⟨r0_2, k0_pay1 (View.ld x0 r0_0) (View.ld x1 r0_1)⟩]

/-- The one store covers the buffer. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S2048x256 .f32) (harg1 : arg1.IsWhole) (arg2 : Memref sig .tc .vmem S256x128 .f32) (harg2 : arg2.IsWhole) (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## Region 0: the pipeline's proof data and the body obligation -/

/-- The proof data of pipeline 0 on core `c`: the arrays as the region finds them; after the body at point `t` each
    input's buffer at its block, the output's at the value of the two input blocks; the invariant the scoped rest and
    the generator register, untouched; nothing owed; the inputs' arrays held at the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

variable (q0 : Fin cfg0.W → PosShare TreeShare)

theorem A_eq0 (c : Dev nD) (w : Fin cfg0.W) : (dat0 V q0 c).A w = V c (Pipeline.arrRef spec0 w) := by
  dsimp only [dat0]
theorem after0_0 (c : Dev nD) (t : Fin cfg0.N) : (dat0 V q0 c).after 0 t = iblk0 V c 0 t := by dsimp only [dat0]
theorem after0_1 (c : Dev nD) (t : Fin cfg0.N) : (dat0 V q0 c).after 1 t = iblk0 V c 1 t := by dsimp only [dat0]
theorem after0_2 (c : Dev nD) (t : Fin cfg0.N) : (dat0 V q0 c).after 2 t = out0_2 (iblk0 V c 0 t) (iblk0 V c 1 t) := by dsimp only [dat0]

theorem before0_0 (c : Dev nD) (t : Fin cfg0.N) (d) : (dat0 V q0 c).before 0 t d = iblk0 V c 0 t :=
  before0_0_of V (dat0 V q0 c) (A_eq0 V q0 c 0) (after0_0 V q0 c) t d
theorem before0_1 (c : Dev nD) (t : Fin cfg0.N) (d) : (dat0 V q0 c).before 1 t d = iblk0 V c 1 t :=
  before0_1_of V (dat0 V q0 c) (A_eq0 V q0 c 1) (after0_1 V q0 c) t d

/-- What the body is called with at point `t`, the windows one by one, -/
def bodyPre0 (c : Dev nD) (t : Fin cfg0.N) : sProp 𝕄 :=
  iprop((dat0 V q0 c).Φ t.castSucc ∗ (dat0 V q0 c).owesAt () t.castSucc
    ∗ (∃ d, owns (c : Thread nD τ) (st0_0 t) fullShare ((dat0 V q0 c).before 0 t d))
    ∗ (∃ d, owns (c : Thread nD τ) (st0_1 t) fullShare ((dat0 V q0 c).before 1 t d))
    ∗ (∃ d, owns (c : Thread nD τ) (st0_2 t) fullShare ((dat0 V q0 c).before 2 t d)))

/-- and what it returns. -/
def bodyPost0 (c : Dev nD) (t : Fin cfg0.N) : sProp 𝕄 :=
  iprop((dat0 V q0 c).Φ t.succ ∗ (dat0 V q0 c).owesAt () t.succ
    ∗ owns (c : Thread nD τ) (st0_0 t) fullShare ((dat0 V q0 c).after 0 t)
    ∗ owns (c : Thread nD τ) (st0_1 t) fullShare ((dat0 V q0 c).after 1 t)
    ∗ owns (c : Thread nD τ) (st0_2 t) fullShare ((dat0 V q0 c).after 2 t))

/-- The body at any point: the inputs' memrefs hold their blocks, so the kernel's triple applies; the invariant and
    the core's dues pass through unread. -/
theorem sound_body0 (c : Dev nD) (t : Fin cfg0.N) :
    bodyPre0 V q0 c t ⊢ wp frame (wpE (defs₀ (F := F)) Variants.none c none) Set.univ (bodyAt0 t) (fun _ => bodyPost0 V q0 c t) := by
  unfold bodyPre0 bodyPost0 bodyAt0
  simp only [before0_0, before0_1]
  rw [show (dat0 V q0 c).Φ t.succ = (dat0 V q0 c).Φ t.castSucc from rfl,
    show (dat0 V q0 c).owesAt () t.succ = (dat0 V q0 c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V q0 c) (defs₀ (F := F)) Variants.none () Set.univ := fun t => by
  rw [bigSep_W0, bigSep_W0]
  exact sound_body0 V q0 c t

/-! ## Region 1: a block of rows times the whole second weight matrix -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S2048x128 := Rect.unit (s := S2048x128) ![0, 0] S2048x128.size inb_S2048x128_S2048x128_0_0

/-- The output staging buffer after the body, from the two input blocks: the one whole-block store. -/
def out1_2 (x0 : Vec F S2048x128 .f32) (x1 : Vec F S128x128 .f32) : Vec F S2048x128 .f32 :=
  View.canon [⟨r1_2, k1_pay1 (View.ld x0 r1_0) (View.ld x1 r1_1)⟩]

/-- The one store covers the buffer. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

set_option maxHeartbeats 1000000 in
/-- The kernel body on whole staging memrefs, the inputs' at contents `x0`, `x1` and the output's at anything, runs to
    the continuation holding the inputs' as they were and the output's at `out1_2 x0 x1`. -/
theorem sound_kernel1 (c : Dev nD) (E : Set ℕ) (i : grid1.Coords) (arg1 : Memref sig .tc .vmem S2048x128 .f32) (harg1 : arg1.IsWhole) (arg2 : Memref sig .tc .vmem S128x128 .f32) (harg2 : arg2.IsWhole) (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_matmul_kernel i arg1 harg1 arg2 harg2 arg3 harg3) K := by
  simp only [cc1_matmul_kernel_eq_skeleton]; unfold cc1_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## Region 1: the pipeline's proof data and the body obligation -/

/-- The proof data of pipeline 1 on core `c`: the arrays as the region finds them; after the body at point `t` each
    input's buffer at its block, the output's at the value of the two input blocks; the invariant the scoped rest and
    the generator register, untouched; nothing owed; the inputs' arrays held at the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

variable (q1 : Fin cfg1.W → PosShare TreeShare)

theorem A_eq1 (c : Dev nD) (w : Fin cfg1.W) : (dat1 V q1 c).A w = V c (Pipeline.arrRef spec1 w) := by
  dsimp only [dat1]
theorem after1_0 (c : Dev nD) (t : Fin cfg1.N) : (dat1 V q1 c).after 0 t = iblk1 V c 0 t := by dsimp only [dat1]
theorem after1_1 (c : Dev nD) (t : Fin cfg1.N) : (dat1 V q1 c).after 1 t = iblk1 V c 1 t := by dsimp only [dat1]
theorem after1_2 (c : Dev nD) (t : Fin cfg1.N) : (dat1 V q1 c).after 2 t = out1_2 (iblk1 V c 0 t) (iblk1 V c 1 t) := by dsimp only [dat1]

theorem before1_0 (c : Dev nD) (t : Fin cfg1.N) (d) : (dat1 V q1 c).before 0 t d = iblk1 V c 0 t :=
  before1_0_of V (dat1 V q1 c) (A_eq1 V q1 c 0) (after1_0 V q1 c) t d
theorem before1_1 (c : Dev nD) (t : Fin cfg1.N) (d) : (dat1 V q1 c).before 1 t d = iblk1 V c 1 t :=
  before1_1_of V (dat1 V q1 c) (A_eq1 V q1 c 1) (after1_1 V q1 c) t d

/-- What the body is called with at point `t`, the windows one by one, -/
def bodyPre1 (c : Dev nD) (t : Fin cfg1.N) : sProp 𝕄 :=
  iprop((dat1 V q1 c).Φ t.castSucc ∗ (dat1 V q1 c).owesAt () t.castSucc
    ∗ (∃ d, owns (c : Thread nD τ) (st1_0 t) fullShare ((dat1 V q1 c).before 0 t d))
    ∗ (∃ d, owns (c : Thread nD τ) (st1_1 t) fullShare ((dat1 V q1 c).before 1 t d))
    ∗ (∃ d, owns (c : Thread nD τ) (st1_2 t) fullShare ((dat1 V q1 c).before 2 t d)))

/-- and what it returns. -/
def bodyPost1 (c : Dev nD) (t : Fin cfg1.N) : sProp 𝕄 :=
  iprop((dat1 V q1 c).Φ t.succ ∗ (dat1 V q1 c).owesAt () t.succ
    ∗ owns (c : Thread nD τ) (st1_0 t) fullShare ((dat1 V q1 c).after 0 t)
    ∗ owns (c : Thread nD τ) (st1_1 t) fullShare ((dat1 V q1 c).after 1 t)
    ∗ owns (c : Thread nD τ) (st1_2 t) fullShare ((dat1 V q1 c).after 2 t))

/-- The body at any point: the inputs' memrefs hold their blocks, so the kernel's triple applies; the invariant and
    the core's dues pass through unread. -/
theorem sound_body1 (c : Dev nD) (t : Fin cfg1.N) :
    bodyPre1 V q1 c t ⊢ wp frame (wpE (defs₀ (F := F)) Variants.none c none) Set.univ (bodyAt1 t) (fun _ => bodyPost1 V q1 c t) := by
  unfold bodyPre1 bodyPost1 bodyAt1
  simp only [before1_0, before1_1]
  rw [show (dat1 V q1 c).Φ t.succ = (dat1 V q1 c).Φ t.castSucc from rfl,
    show (dat1 V q1 c).owesAt () t.succ = (dat1 V q1 c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V q1 c) (defs₀ (F := F)) Variants.none () Set.univ := fun t => by
  rw [bigSep_W1, bigSep_W1]
  exact sound_body1 V q1 c t

/-! ## Region 2: the logistic of a block of rows times another block of rows transposed -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S1024x64 := Rect.unit (s := S1024x64) ![0, 0] S1024x64.size inb_S1024x64_S1024x64_0_0
abbrev r2_1 : Rect S1024x64 := Rect.unit (s := S1024x64) ![0, 0] S1024x64.size inb_S1024x64_S1024x64_0_0
abbrev r2_2 : Rect S1024x1024 := Rect.unit (s := S1024x1024) ![0, 0] S1024x1024.size inb_S1024x1024_S1024x1024_0_0

/-- The output staging buffer after the body, from the two input blocks: the one whole-block store. -/
def out2_2 (x0 : Vec F S1024x64 .f32) (x1 : Vec F S1024x64 .f32) : Vec F S1024x1024 .f32 :=
  View.canon [⟨r2_2, k2_pay1 (View.ld x0 r2_0) (View.ld x1 r2_1)⟩]

/-- The one store covers the buffer. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

set_option maxHeartbeats 1000000 in
/-- The kernel body on whole staging memrefs, the inputs' at contents `x0`, `x1` and the output's at anything, runs to
    the continuation holding the inputs' as they were and the output's at `out2_2 x0 x1`. -/
theorem sound_kernel2 (c : Dev nD) (E : Set ℕ) (i : grid2.Coords) (arg1 : Memref sig .tc .vmem S1024x64 .f32) (harg1 : arg1.IsWhole) (arg2 : Memref sig .tc .vmem S1024x64 .f32) (harg2 : arg2.IsWhole) (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_decode_kernel i arg1 harg1 arg2 harg2 arg3 harg3) K := by
  simp only [cc2_decode_kernel_eq_skeleton]; unfold cc2_decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## Region 2: the pipeline's proof data and the body obligation -/

/-- The proof data of pipeline 2 on core `c`: the arrays as the region finds them; after the body at point `t` each
    input's buffer at its block, the output's at the value of the two input blocks; the invariant the scoped rest and
    the generator register, untouched; nothing owed; the inputs' arrays held at the shares `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q
  owed _ := 0

variable (q2 : Fin cfg2.W → PosShare TreeShare)

theorem A_eq2 (c : Dev nD) (w : Fin cfg2.W) : (dat2 V q2 c).A w = V c (Pipeline.arrRef spec2 w) := by
  dsimp only [dat2]
theorem after2_0 (c : Dev nD) (t : Fin cfg2.N) : (dat2 V q2 c).after 0 t = iblk2 V c 0 t := by dsimp only [dat2]
theorem after2_1 (c : Dev nD) (t : Fin cfg2.N) : (dat2 V q2 c).after 1 t = iblk2 V c 1 t := by dsimp only [dat2]
theorem after2_2 (c : Dev nD) (t : Fin cfg2.N) : (dat2 V q2 c).after 2 t = out2_2 (iblk2 V c 0 t) (iblk2 V c 1 t) := by dsimp only [dat2]

theorem before2_0 (c : Dev nD) (t : Fin cfg2.N) (d) : (dat2 V q2 c).before 0 t d = iblk2 V c 0 t :=
  before2_0_of V (dat2 V q2 c) (A_eq2 V q2 c 0) (after2_0 V q2 c) t d
theorem before2_1 (c : Dev nD) (t : Fin cfg2.N) (d) : (dat2 V q2 c).before 1 t d = iblk2 V c 1 t :=
  before2_1_of V (dat2 V q2 c) (A_eq2 V q2 c 1) (after2_1 V q2 c) t d

/-- What the body is called with at point `t`, the windows one by one, -/
def bodyPre2 (c : Dev nD) (t : Fin cfg2.N) : sProp 𝕄 :=
  iprop((dat2 V q2 c).Φ t.castSucc ∗ (dat2 V q2 c).owesAt () t.castSucc
    ∗ (∃ d, owns (c : Thread nD τ) (st2_0 t) fullShare ((dat2 V q2 c).before 0 t d))
    ∗ (∃ d, owns (c : Thread nD τ) (st2_1 t) fullShare ((dat2 V q2 c).before 1 t d))
    ∗ (∃ d, owns (c : Thread nD τ) (st2_2 t) fullShare ((dat2 V q2 c).before 2 t d)))

/-- and what it returns. -/
def bodyPost2 (c : Dev nD) (t : Fin cfg2.N) : sProp 𝕄 :=
  iprop((dat2 V q2 c).Φ t.succ ∗ (dat2 V q2 c).owesAt () t.succ
    ∗ owns (c : Thread nD τ) (st2_0 t) fullShare ((dat2 V q2 c).after 0 t)
    ∗ owns (c : Thread nD τ) (st2_1 t) fullShare ((dat2 V q2 c).after 1 t)
    ∗ owns (c : Thread nD τ) (st2_2 t) fullShare ((dat2 V q2 c).after 2 t))

/-- The body at any point: the inputs' memrefs hold their blocks, so the kernel's triple applies; the invariant and
    the core's dues pass through unread. -/
theorem sound_body2 (c : Dev nD) (t : Fin cfg2.N) :
    bodyPre2 V q2 c t ⊢ wp frame (wpE (defs₀ (F := F)) Variants.none c none) Set.univ (bodyAt2 t) (fun _ => bodyPost2 V q2 c t) := by
  unfold bodyPre2 bodyPost2 bodyAt2
  simp only [before2_0, before2_1]
  rw [show (dat2 V q2 c).Φ t.succ = (dat2 V q2 c).Φ t.castSucc from rfl,
    show (dat2 V q2 c).owesAt () t.succ = (dat2 V q2 c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V q2 c) (defs₀ (F := F)) Variants.none () Set.univ := fun t => by
  rw [bigSep_W2, bigSep_W2]
  exact sound_body2 V q2 c t

end Cert.KernelIdeal.Hand

end
-- ==== Proof.IdealRun.lean ====
import proofs.«102990_j70274254897510_1_alg».proof.Proof.IdealBodies
import proofs.«102990_j70274254897510_1_alg».proof.Proof.Gen.KernelIdeal.Regions

/-!
# The whole run: the three kernel regions between the host stretches

Between two items of the main function a core holds every unscoped buffer whole, at a valuation: the launch memory,
then each host stretch's operations applied, then after a region the same valuation with the region's output array
replaced by what the region's write-backs leave. Each region is entered from the valuation before it: its windows'
arrays are taken out of the unscoped buffers, the pipeline runs, and the arrays are put back. The third region reads
one array through two windows; that array is held in two halves of its share, one per window, and rejoined at exit.
The run ends with every unscoped buffer at the last valuation, from which the results and the arguments are read.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The valuations between the items, and what each region leaves -/

/-- The third region's shares: the one array its two input windows read, in two halves. -/
def q2 : Fin cfg2.W → PosShare TreeShare := fun w => match w with
  | ⟨0, _⟩ => fullShare.left
  | ⟨1, _⟩ => fullShare.right
  | ⟨2, _⟩ => fullShare

/-- Region 0's entry contents, read at the TensorCore's references. -/
def E5 : (c : Dev nD) → (b : Ref sig .tc) → Buf (Elt F) ((c : Thread nD τ).loc b) := fun c b => V5 m c b
theorem E5_apply (c : Dev nD) (b : Ref sig .tc) : E5 m c b = V5 m c b := rfl
theorem bufs_E5 (c : Dev nD) : (unscopedBufs (Ix := Unit) (Name := ℕ) (U := UR sig nD τ) (Lvl := ℕ) c (E5 m c) : sProp 𝕄)
    = StableHlo.held (c : Thread nD τ) (Pipeline.ucRefs τ sig) (V5 m c) := Pipeline.unscopedBufs_held c (V5 m c)
attribute [irreducible] E5
/-- What region 0's write-backs leave in its output array. -/
def O6 (c : Dev nD) : Buf (Elt F) ((c : Thread nD τ).loc main_v20) := (dat0 (E5 m) (fun _ => fullShare) c).arrAt 2 cfg0.N
theorem O6_def (c : Dev nD) : O6 m c = (dat0 (E5 m) (fun _ => fullShare) c).arrAt 2 cfg0.N := rfl
attribute [irreducible] O6
/-- The regions' outputs, region 0's known. -/
def outsA : Outs (F := F) := fun _ r c => if h : r = main_v20 then h ▸ O6 m c else V0 m c r
def E9 : (c : Dev nD) → (b : Ref sig .tc) → Buf (Elt F) ((c : Thread nD τ).loc b) := fun c b => V9 m (outsA m) c b
theorem E9_apply (c : Dev nD) (b : Ref sig .tc) : E9 m c b = V9 m (outsA m) c b := rfl
theorem bufs_E9 (c : Dev nD) : (unscopedBufs (Ix := Unit) (Name := ℕ) (U := UR sig nD τ) (Lvl := ℕ) c (E9 m c) : sProp 𝕄)
    = StableHlo.held (c : Thread nD τ) (Pipeline.ucRefs τ sig) (V9 m (outsA m) c) := Pipeline.unscopedBufs_held c (V9 m (outsA m) c)
attribute [irreducible] E9
def O10 (c : Dev nD) : Buf (Elt F) ((c : Thread nD τ).loc main_v43) := (dat1 (E9 m) (fun _ => fullShare) c).arrAt 2 cfg1.N
theorem O10_def (c : Dev nD) : O10 m c = (dat1 (E9 m) (fun _ => fullShare) c).arrAt 2 cfg1.N := rfl
attribute [irreducible] O10
/-- The regions' outputs, regions 0 and 1's known. -/
def outsB : Outs (F := F) := fun n r c => if n = 6 then outsA m n r c else if h : r = main_v43 then h ▸ O10 m c else V0 m c r
def E11 : (c : Dev nD) → (b : Ref sig .tc) → Buf (Elt F) ((c : Thread nD τ).loc b) := fun c b => V11 m (outsB m) c b
theorem E11_apply (c : Dev nD) (b : Ref sig .tc) : E11 m c b = V11 m (outsB m) c b := rfl
theorem bufs_E11 (c : Dev nD) : (unscopedBufs (Ix := Unit) (Name := ℕ) (U := UR sig nD τ) (Lvl := ℕ) c (E11 m c) : sProp 𝕄)
    = StableHlo.held (c : Thread nD τ) (Pipeline.ucRefs τ sig) (V11 m (outsB m) c) := Pipeline.unscopedBufs_held c (V11 m (outsB m) c)
attribute [irreducible] E11
def O12 (c : Dev nD) : Buf (Elt F) ((c : Thread nD τ).loc main_v65) := (dat2 (E11 m) q2 c).arrAt 2 cfg2.N
theorem O12_def (c : Dev nD) : O12 m c = (dat2 (E11 m) q2 c).arrAt 2 cfg2.N := rfl
attribute [irreducible] O12
/-- The regions' outputs, all three. -/
def outs : Outs (F := F) := fun n r c => if n = 12 then (if h : r = main_v65 then h ▸ O12 m c else V0 m c r) else outsB m n r c

theorem outs_6 (c : Dev nD) : outs m 6 main_v20 c = O6 m c := by
  unfold outs outsB outsA; rw [if_neg (by decide), if_pos rfl, dif_pos rfl]
theorem outs_10 (c : Dev nD) : outs m 10 main_v43 c = O10 m c := by
  unfold outs outsB; rw [if_neg (by decide), if_neg (by decide), dif_pos rfl]
theorem outs_12 (c : Dev nD) : outs m 12 main_v65 c = O12 m c := by
  unfold outs; rw [if_pos rfl, dif_pos rfl]
theorem outsB_6 (c : Dev nD) : outsB m 6 main_v20 c = outsA m 6 main_v20 c := by
  unfold outsB; rw [if_pos rfl]
theorem outs_6' (c : Dev nD) : outs m 6 main_v20 c = outsA m 6 main_v20 c := by
  unfold outs; rw [if_neg (by decide)]; exact outsB_6 m c
theorem outs_10' (c : Dev nD) : outs m 10 main_v43 c = outsB m 10 main_v43 c := by
  unfold outs; rw [if_neg (by decide)]

/-- The valuations before and after each region, over all three outputs. -/
abbrev E5v (c : Dev nD) : Valuation τ sig (Elt F) := V5 m c
abbrev E6v (c : Dev nD) : Valuation τ sig (Elt F) := V6 m (outs m) c
abbrev E9v (c : Dev nD) : Valuation τ sig (Elt F) := V9 m (outs m) c
abbrev E10v (c : Dev nD) : Valuation τ sig (Elt F) := V10 m (outs m) c
abbrev E11v (c : Dev nD) : Valuation τ sig (Elt F) := V11 m (outs m) c
abbrev E12v (c : Dev nD) : Valuation τ sig (Elt F) := V12 m (outs m) c
abbrev E6 : (c : Dev nD) → (b : Ref sig .tc) → Buf (Elt F) ((c : Thread nD τ).loc b) := fun c b => V6 m (outs m) c b
abbrev E10 : (c : Dev nD) → (b : Ref sig .tc) → Buf (Elt F) ((c : Thread nD τ).loc b) := fun c b => V10 m (outs m) c b
def E12 : (c : Dev nD) → (b : Ref sig .tc) → Buf (Elt F) ((c : Thread nD τ).loc b) := fun c b => V12 m (outs m) c b
theorem E12_apply (c : Dev nD) (b : Ref sig .tc) : E12 m c b = V12 m (outs m) c b := rfl
theorem bufs_E12 (c : Dev nD) : (unscopedBufs (Ix := Unit) (Name := ℕ) (U := UR sig nD τ) (Lvl := ℕ) c (E12 m c) : sProp 𝕄)
    = StableHlo.held (c : Thread nD τ) (Pipeline.ucRefs τ sig) (V12 m (outs m) c) := Pipeline.unscopedBufs_held c (V12 m (outs m) c)
attribute [irreducible] E12

/-- A region's entry valuation does not depend on the outputs of the regions after it. -/
theorem V6_eq (c : Dev nD) : V6 m (outs m) c = V6 m (outsA m) c := by
  unfold V6; rw [outs_6']
theorem V9_eq (c : Dev nD) : V9 m (outs m) c = V9 m (outsA m) c := by
  unfold V9 V8 V7; rw [V6_eq]
theorem V10_eq (c : Dev nD) : V10 m (outs m) c = V10 m (outsB m) c := by
  have h9 : V9 m (outsB m) c = V9 m (outsA m) c := by unfold V9 V8 V7 V6; rw [outsB_6]
  unfold V10; rw [outs_10', V9_eq, h9]
theorem V11_eq (c : Dev nD) : V11 m (outs m) c = V11 m (outsB m) c := by
  unfold V11; rw [V10_eq]

/-! ## The proof data family -/

abbrev 𝒱₀ : Variants := Variants.none
abbrev L : GSem nD τ sig → Finset Unit := fun _ => ∅
abbrev lv : GSem nD τ sig → Unit → ℕ := fun _ _ => 0

/-- Every pipeline's proof data, each at its region's entry contents. -/
def pdats : (p : Fin 3) → (c : Dev nD) → Dat τ (Elt F) Unit ℕ (UR sig nD τ) ℕ (cfgs p) c
  | ⟨0, _⟩ => fun c => dat0 (E5 m) (fun _ => fullShare) c
  | ⟨1, _⟩ => fun c => dat1 (E9 m) (fun _ => fullShare) c
  | ⟨2, _⟩ => fun c => dat2 (E11 m) q2 c

/-- What rides beside the buffers through every item: the generator register at some state and the core's dues, none. -/
abbrev R (c : Dev nD) : sProp 𝕄 := iprop((∃ r, prngReg c r) ∗ ∃ W, owes (c : Thread nD τ) (0 : CellTallies nD τ sig Unit) W)

/-! ## Regions 0 and 1: distinct arrays -/

theorem hF0 (c : Dev nD) (w : Fin cfg0.W) : (pdats m 0 c).arrAt w cfg0.N = E6 m c (Pipeline.arrRef spec0 w) := by
  match w with
  | ⟨0, _⟩ => exact ((pdats m 0 c).arrAt_in 0 rfl _).trans ((E5_apply m c main_v19).trans (V6_of m (outs m) c main_v19 (by decide)).symm)
  | ⟨1, _⟩ => exact ((pdats m 0 c).arrAt_in 1 rfl _).trans ((E5_apply m c main_arg1).trans (V6_of m (outs m) c main_arg1 (by decide)).symm)
  | ⟨2, _⟩ =>
    refine (O6_def m c).symm.trans ?_
    show O6 m c = V6 m (outs m) c main_v20
    unfold V6; rw [Function.update_self, outs_6]
theorem hrest0 (c : Dev nD) : ∀ b, b ∉ Finset.univ.image (Pipeline.arrRef spec0) → E6 m c b = E5 m c b :=
  fun b hb => (V6_of m (outs m) c b (fun h => hb (Finset.mem_image.mpr ⟨2, Finset.mem_univ _, (List.mem_singleton.mp h).symm⟩))).trans (E5_apply m c b).symm

theorem hF1 (c : Dev nD) (w : Fin cfg1.W) : (pdats m 1 c).arrAt w cfg1.N = E10 m c (Pipeline.arrRef spec1 w) := by
  match w with
  | ⟨0, _⟩ => exact ((pdats m 1 c).arrAt_in 0 rfl _).trans ((E9_apply m c main_v42).trans ((congrFun (V9_eq m c) _).symm.trans (V10_of m (outs m) c main_v42 (by decide)).symm))
  | ⟨1, _⟩ => exact ((pdats m 1 c).arrAt_in 1 rfl _).trans ((E9_apply m c main_v38).trans ((congrFun (V9_eq m c) _).symm.trans (V10_of m (outs m) c main_v38 (by decide)).symm))
  | ⟨2, _⟩ =>
    refine (O10_def m c).symm.trans ?_
    show O10 m c = V10 m (outs m) c main_v43
    unfold V10; rw [Function.update_self, outs_10]
theorem hrest1 (c : Dev nD) : ∀ b, b ∉ Finset.univ.image (Pipeline.arrRef spec1) → E10 m c b = E9 m c b :=
  fun b hb => (V10_of m (outs m) c b (fun h => hb (Finset.mem_image.mpr ⟨2, Finset.mem_univ _, (List.mem_singleton.mp h).symm⟩))).trans ((congrFun (V9_eq m c) _).trans (E9_apply m c b).symm)

set_option backward.isDefEq.respectTransparency.types false in
/-- Region 0 over the thread state: entered from every unscoped buffer at the valuation before it, left at the one
    after it. Its arrays are split out of the unscoped buffers at entry and put back at exit, the output's at what the
    write-backs leave; the generator register enters the invariant and returns; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) (fun _ => fullShare) c).loose
  hwaits := Pipeline.hwaits_of_owed_zero _ _ _ _ L lv 0 fun _ _ => rfl
  pre c := iprop(StableHlo.held (c : Thread nD τ) (Pipeline.ucRefs τ sig) (E5v m c) ∗ R c)
  post c := iprop(StableHlo.held (c : Thread nD τ) (Pipeline.ucRefs τ sig) (E6v m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [bufs_E5] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the valuation before it, left at the one
    after it. Its arrays are split out of the unscoped buffers at entry and put back at exit, the output's at what the
    write-backs leave; the generator register enters the invariant and returns; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E9 m) (fun _ => fullShare) c).loose
  hwaits := Pipeline.hwaits_of_owed_zero _ _ _ _ L lv 1 fun _ _ => rfl
  pre c := iprop(StableHlo.held (c : Thread nD τ) (Pipeline.ucRefs τ sig) (E9v m c) ∗ R c)
  post c := iprop(StableHlo.held (c : Thread nD τ) (Pipeline.ucRefs τ sig) (E10v m c) ∗ R c)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none, show E9v m c = V9 m (outsA m) c from V9_eq m c]
    have hsplit := Pipeline.arrays_of_unscopedBufs (p := 1) (pcfgs (F := F)) adm (pdats m) launch1.win launch1.arr_whole c
      ((pdats m 1 c).share_full fun _ => rfl) (E9 m c) fun _ => rfl
    rw [bufs_E9] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: one array behind two input windows -/

/-- The buffers behind region 2's windows are two: the array both input windows read, and the output array. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v64) ↦{fullShare} W main_v64) ∗ (((c : Thread nD τ).loc main_v65) ↦{fullShare} W main_v65)) := by
  unfold Pipeline.arrBufs
  rw [bigSep_eq_bigSepL_of_eq [main_v64, main_v65] (by decide) (by decide)]
  rfl

/-- A core's unscoped buffers at any contents: the shared input array, the output array, and the rest. -/
theorem split2 (c : Dev nD) (W : (b : Ref sig .tc) → Buf (Elt F) ((c : Thread nD τ).loc b)) :
    (unscopedBufs (Ix := Unit) (Name := ℕ) (U := UR sig nD τ) (Lvl := ℕ) c W : sProp 𝕄)
      = iprop(((((c : Thread nD τ).loc main_v64) ↦{fullShare} W main_v64) ∗ (((c : Thread nD τ).loc main_v65) ↦{fullShare} W main_v65))
          ∗ Pipeline.unscopedRest spec2 c W) := by
  rw [← arrBufs2_eq]
  exact Pipeline.unscopedBufs_split₀ (Ix := Unit) (Name := ℕ) (U := UR sig nD τ) (Lvl := ℕ) (Val := Elt F) (nD := nD) (τ := τ)
    cfgs 2 winFacts₀2.arr_unscoped c W

/-- Region 2's arrays at given contents, window by window: the shared array in the two halves of its share, the
    output array whole. -/
theorem arrays2_of (c : Dev nD) (G : (w : Fin cfg2.W) → Buf (Elt F) ((cfg2.win w).arr.view.loc (c : Thread nD τ)))
    (a0 a1 : Buf (Elt F) ((c : Thread nD τ).loc main_v64)) (a2 : Buf (Elt F) ((c : Thread nD τ).loc main_v65))
    (h0 : G 0 = a0) (h1 : G 1 = a1) (h2 : G 2 = a2) :
    ((pdats m 2 c).arrays G : sProp 𝕄)
      = iprop((((c : Thread nD τ).loc main_v64) ↦{fullShare.left} a0) ∗ (((c : Thread nD τ).loc main_v64) ↦{fullShare.right} a1)
          ∗ (((c : Thread nD τ).loc main_v65) ↦{fullShare} a2)) := by
  subst h0 h1 h2
  unfold Pipeline.Dat.arrays
  rw [bigSep_W2, Memref.IsWhole.set_eq_univ (m := ((cfgs 2).win 0).arr) (arr_whole2 0), Memref.IsWhole.set_eq_univ (m := ((cfgs 2).win 1).arr) (arr_whole2 1),
    Memref.IsWhole.set_eq_univ (m := ((cfgs 2).win 2).arr) (arr_whole2 2)]
  rfl

theorem h64 (c : Dev nD) : E12 m c main_v64 = E11 m c main_v64 :=
  (E12_apply m c main_v64).trans ((V12_of m (outs m) c main_v64 (by decide)).trans ((congrFun (V11_eq m c) _).trans (E11_apply m c main_v64).symm))
theorem h65 (c : Dev nD) : E12 m c main_v65 = O12 m c := by
  refine (E12_apply m c main_v65).trans ?_
  show V12 m (outs m) c main_v65 = _
  unfold V12; rw [Function.update_self, outs_12]
theorem hrest2 (c : Dev nD) : ∀ b, b ∉ Finset.univ.image (Pipeline.arrRef spec2) → E12 m c b = E11 m c b :=
  fun b hb => (E12_apply m c b).trans ((V12_of m (outs m) c b (fun h => hb (Finset.mem_image.mpr ⟨2, Finset.mem_univ _, (List.mem_singleton.mp h).symm⟩))).trans
    ((congrFun (V11_eq m c) _).trans (E11_apply m c b).symm))

/-- The unscoped buffers off region 2's arrays, at two valuations that agree there. -/
theorem rest_congr2 (c : Dev nD) (W W' : (b : Ref sig .tc) → Buf (Elt F) ((c : Thread nD τ).loc b))
    (h : ∀ b, b ∉ Finset.univ.image (Pipeline.arrRef spec2) → W' b = W b) :
    (Pipeline.unscopedRest (Ix := Unit) (Name := ℕ) (U := UR sig nD τ) (Lvl := ℕ) spec2 c W' : sProp 𝕄) = Pipeline.unscopedRest spec2 c W := by
  unfold Pipeline.unscopedRest
  exact bigSep_congr fun b hb => by rw [h b (Finset.mem_sdiff.mp hb).2]

/-- What region 2's proof data starts and ends with in each window's array. -/
theorem A2_0 (c : Dev nD) : (pdats m 2 c).arrAt 0 0 = E11 m c main_v64 := rfl
theorem A2_1 (c : Dev nD) : (pdats m 2 c).arrAt 1 0 = E11 m c main_v64 := rfl
theorem A2_2 (c : Dev nD) : (pdats m 2 c).arrAt 2 0 = E11 m c main_v65 := rfl
theorem Z2_0 (c : Dev nD) : (pdats m 2 c).arrAt 0 cfg2.N = E11 m c main_v64 := ((pdats m 2 c).arrAt_in 0 rfl _).trans rfl
theorem Z2_1 (c : Dev nD) : (pdats m 2 c).arrAt 1 cfg2.N = E11 m c main_v64 := ((pdats m 2 c).arrAt_in 1 rfl _).trans rfl
theorem Z2_2 (c : Dev nD) : (pdats m 2 c).arrAt 2 cfg2.N = O12 m c := (O12_def m c).symm

/-- Region 2's arrays at entry, and after every write-back, window by window. -/
theorem arrays2_entry (c : Dev nD) :
    ((pdats m 2 c).arrays (fun x => (pdats m 2 c).arrAt x 0) : sProp 𝕄)
      = iprop((((c : Thread nD τ).loc main_v64) ↦{fullShare.left} E11 m c main_v64) ∗ (((c : Thread nD τ).loc main_v64) ↦{fullShare.right} E11 m c main_v64)
          ∗ (((c : Thread nD τ).loc main_v65) ↦{fullShare} E11 m c main_v65)) :=
  arrays2_of m c _ _ _ _ (A2_0 m c) (A2_1 m c) (A2_2 m c)
theorem arrays2_exit (c : Dev nD) :
    ((pdats m 2 c).arrays (fun x => (pdats m 2 c).arrAt x (Pipeline.pin (pcfgs (F := F)) adm 2).N) : sProp 𝕄)
      = iprop((((c : Thread nD τ).loc main_v64) ↦{fullShare.left} E11 m c main_v64) ∗ (((c : Thread nD τ).loc main_v64) ↦{fullShare.right} E11 m c main_v64)
          ∗ (((c : Thread nD τ).loc main_v65) ↦{fullShare} O12 m c)) :=
  arrays2_of m c _ _ _ _ (Z2_0 m c) (Z2_1 m c) (Z2_2 m c)

set_option maxHeartbeats 2000000 in
set_option backward.isDefEq.respectTransparency.types false in
/-- Region 2 over the thread state. At entry the array its two input windows read is split into the two halves of its
    share, one per window; at exit the halves, both still at the entry contents, are joined again. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E11 m) q2 c).loose
  hwaits := Pipeline.hwaits_of_owed_zero _ _ _ _ L lv 2 fun _ _ => rfl
  pre c := iprop(StableHlo.held (c : Thread nD τ) (Pipeline.ucRefs τ sig) (E11v m c) ∗ R c)
  post c := iprop(StableHlo.held (c : Thread nD τ) (Pipeline.ucRefs τ sig) (E12v m c) ∗ R c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none, show E11v m c = V11 m (outsB m) c from V11_eq m c]
    have hsplit := split2 c (E11 m c)
    rw [bufs_E11] at hsplit
    have harr := arrays2_entry m c
    iintro ⟨⟨Hub, Hp, HO⟩, -, -⟩
    ihave H := (Entails.of_eq hsplit) $$ Hub
    icases H with ⟨⟨Hz, Ho⟩, Hrest⟩
    ihave Hz := (pointsTo_share (PosShare.mem_left_op_right fullShare)).1 $$ Hz
    icases Hz with ⟨Hz1, Hz2⟩
    imodintro
    isplitl [Hz1 Hz2 Ho]
    · iapply (Entails.of_eq harr.symm)
      isplitl [Hz1]; · iexact Hz1
      isplitl [Hz2]; · iexact Hz2
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hsplit := split2 c (E12 m c)
    rw [bufs_E12, h64, h65, rest_congr2 c (E11 m c) (E12 m c) (hrest2 m c)] at hsplit
    have harr := arrays2_exit m c
    iintro ⟨Ha, HO, HY, Hrest⟩
    ihave Ha := (Entails.of_eq harr) $$ Ha
    icases Ha with ⟨Hz1, Hz2, Ho⟩
    ihave Hz := (pointsTo_share (PosShare.mem_left_op_right fullShare)).2 $$ [Hz1 Hz2]
    · isplitl [Hz1] <;> iassumption
    imodintro
    isplitl [Hz Ho Hrest]
    · iapply (Entails.of_eq hsplit.symm)
      isplitl [Hz Ho]
      · isplitl [Hz] <;> iassumption
      iexact Hrest
    isplitl [HY]; · iexact HY
    unfold Pipeline.Dat.owesAt Pipeline.owesWithin
    icases HO with ⟨%W, -, HO⟩; iexists W; iexact HO

/-! ## The run -/

/-- What rides beside the buffers, between any two items. -/
abbrev Erest : Fin 4 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last region's exit state is the final thread state beside the core owing nothing. -/
theorem last_chain (c : Dev nD) :
    (iprop(StableHlo.held (c : Thread nD τ) (Pipeline.ucRefs τ sig) (E12v m c) ∗ R c) : sProp 𝕄)
      ⊢ iprop((StableHlo.held (c : Thread nD τ) (Pipeline.ucRefs τ sig) (V12 m (outs m) c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- Every weakly fair execution of the main function from memory `m` with zero counters terminates, faulting nowhere,
    and every final memory holds every unscoped buffer at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V12 m (outs m) c b) :=
  Pipeline.θ_run_regions_kit_dev (pcfgs (F := F)) adm (pdats m) () cellOf_inj emb₁ defs₀ 𝒱₀ L lv m ρ main
    (segs m (outs m) 𝒱₀ L lv Erest () (pdats m) (reg0 m) (reg1 m) (reg2 m))
    (fun c Q => by
      rewrite [main_chain c, Seg.run_eq_chain,
        show (segs m (outs m) 𝒱₀ L lv Erest () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m (outs m) c) ∗ ∃ r, prngReg c r))
    (hch := fun c => ⟨.rfl, .rfl, .rfl, .rfl, .rfl, .rfl, .rfl, .rfl, .rfl, .rfl, .rfl, .rfl, last_chain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (outs m) c) s')
      isplitl [Hh] <;> iassumption)
    (hQ := fun s h c => h c)

/-- The frame: every argument array ends holding its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c),
     (h c _ (mem_uc main_arg6 (by decide))).trans (V12_main_arg6 m (outs m) c),
     (h c _ (mem_uc main_arg7 (by decide))).trans (V12_main_arg7 m (outs m) c),
     (h c _ (mem_uc main_arg8 (by decide))).trans (V12_main_arg8 m (outs m) c),
     (h c _ (mem_uc main_arg9 (by decide))).trans (V12_main_arg9 m (outs m) c)⟩) (run_all m ρ)

/-- The run with its two results named: the third region's output array, and the contents the third region found in
    the array it reads; the arguments unchanged. -/
theorem run_values (ρ : Dev nD → PrngReg) :
    θ_run defs (onTc (τ := τ) (main (F := F))) ⟨m, fun _ => 0, ρ⟩ (fun r => ∀ c : Dev nD,
      r.2.mem ((c.tc : Thread nD τ).loc main_v65) = O12 m c
      ∧ r.2.mem ((c.tc : Thread nD τ).loc main_v64) = E11 m c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v65 (by decide))).trans ((E12_apply m c main_v65).symm.trans (h65 m c)),
     (h c _ (mem_uc main_v64 (by decide))).trans ((E12_apply m c main_v64).symm.trans (h64 m c)),
     (h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c),
     (h c _ (mem_uc main_arg6 (by decide))).trans (V12_main_arg6 m (outs m) c),
     (h c _ (mem_uc main_arg7 (by decide))).trans (V12_main_arg7 m (outs m) c),
     (h c _ (mem_uc main_arg8 (by decide))).trans (V12_main_arg8 m (outs m) c),
     (h c _ (mem_uc main_arg9 (by decide))).trans (V12_main_arg9 m (outs m) c)⟩) (run_all m ρ)

theorem outsA_6 (c : Dev nD) : outsA m 6 main_v20 c = O6 m c := by
  unfold outsA; rw [dif_pos rfl]
theorem outsB_10 (c : Dev nD) : outsB m 10 main_v43 c = O10 m c := by
  unfold outsB; rw [if_neg (by decide), dif_pos rfl]

end Cert.KernelIdeal.Hand

end
-- ==== Proof.LibPlainProduct.lean ====
/-
  A plain matrix product read at an entry.

  For the dimension numbers of an M×K by K×N product (left operand contracted on its columns, right operand on
  its rows, no batch axis), the vector unit's product into a zero accumulator and the host's general dot
  product, read at the ideal values at row `p` and column `c`, are both the sum over `k : Fin K` of
  `l (p, k) · r (k, c)`: the contraction's one-axis index set is re-indexed by its coordinate, and the two
  operand indices at an output index are computed axis by axis.
-/
import Idealize.ShloMosaic.PureOps.Ideal.Laws
import Idealize.ShloMosaic.Lib.ValueIdx

noncomputable section

open scoped BigOperators

namespace Idealize.ShloMosaic.PlainProduct

open Idealize.ShloMosaic Idealize.ShloMosaic.ValueIdx

variable {M K N : Nat}

/-- The left operand's row at an output index is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction's coordinate. -/
theorem lhs_col (i : (⟨2, ![M, N]⟩ : Shape).Idx) (q : (DotDims.plain M K N).contr.Idx) :
    ((DotDims.plain M K N).lhsIdx i q 1).val = (q ⟨0, (DotDims.plain M K N).rank_contr ▸ Nat.one_pos⟩).val :=
  (DotDims.plain M K N).lhsIdx_val_of_single rfl i q

/-- The right operand's row is the contraction's coordinate. -/
theorem rhs_row (i : (⟨2, ![M, N]⟩ : Shape).Idx) (q : (DotDims.plain M K N).contr.Idx) :
    ((DotDims.plain M K N).rhsIdx i q 0).val = (q ⟨0, (DotDims.plain M K N).rank_contr ▸ Nat.one_pos⟩).val :=
  (DotDims.plain M K N).rhsIdx_val_of_single rfl i q

/-- The right operand's column at an output index is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum at entry `(p, c)` is the sum over `k` of `l (p, k) · r (k, c)`. -/
theorem sum_contr (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

/-- The vector unit's product into a zero accumulator at entry `(p, c)`. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ k : Fin K, l (ix2 p k) * r (ix2 k c) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    (Host.dotGeneral d prec l r : FVec Ideal ⟨2, ![M, N]⟩ .f32) (ix2 p c) = ∑ k : Fin K, l (ix2 p k) * r (ix2 k c) := by
  subst hd
  simp only [Host.dotGeneral]
  rw [Ideal.dotGeneral_apply]
  exact sum_contr l r p c

end Idealize.ShloMosaic.PlainProduct

end
-- ==== Proof.RegionValue0.lean ====
import proofs.«102990_j70274254897510_1_alg».proof.Proof.IdealBodies
import proofs.«102990_j70274254897510_1_alg».proof.Proof.LibPlainProduct
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen

/-!
# Region 0: the output array is the product of the two input arrays

Each grid point `t` multiplies rows `2048 t … 2048 t + 2047` of the left array by the whole right array and writes the
result over the same rows of the output. The eight row blocks tile the output, so it ends holding the matrix product.
-/

-- the TensorCore's buffer contents when the region is entered, and the input shares
variable (V : (c : Dev nD) → (b : Ref sig .tc) → Buf (Elt Ideal) ((c : Thread nD τ).loc b))
variable (q0 : Fin cfg0.W → PosShare TreeShare)

/-- The zero offsets, however spelt. -/
theorem zero_off2 : (![0, 0] : Fin 2 → Nat) = fun _ => 0 := funext fun a => by fin_cases a <;> rfl

/-- The body's value at row `p`, column `j`: the product's entry. The shape cast to the same shape and the
    change of format are identities on the ideal values; the product into a zero accumulator is the plain sum. -/
theorem pay0_apply (x0 : Vec Ideal S2048x256 .f32) (x1 : Vec Ideal S256x128 .f32) (p : Fin 2048) (j : Fin 128) :
    k0_pay1 x0 x1 (ix2 p j) = ∑ k : Fin 256, x0 (ix2 p k) * x1 (ix2 k j) := by
  unfold k0_pay1
  rw [shapeCast_self]
  exact PlainProduct.matmul_zero_apply (M := 2048) (K := 256) (N := 128) _ rfl none _ _ p j

/-- The two input arrays as the region finds them and the output array after it, as functions to the extended reals. -/
abbrev lhs0 (c : Dev nD) : S16384x256.Idx → EReal := V c main_v19
abbrev rhs0 (c : Dev nD) : S256x128.Idx → EReal := V c main_arg1
abbrev res0 (c : Dev nD) : S16384x128.Idx → EReal := (dat0 V q0 c).arrAt 2 cfg0.N

/-- The matrix product of the two input arrays, entry by entry. -/
def prod0 (c : Dev nD) : S16384x128.Idx → EReal := fun i =>
  ∑ k : Fin 256, lhs0 V c (ix2 (⟨(i 0).val, idx2_lt0 i⟩ : Fin 16384) k) * rhs0 V c (ix2 k (⟨(i 1).val, idx2_lt1 i⟩ : Fin 128))

/-- The printed index maps over the grid: the row-block index is the point, the column-block index zero; the right
    array's one block is at zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `2048 t …` of the left array. -/
theorem iblk0_0_apply (c : Dev nD) (t : Fin cfg0.N) (x : S2048x256.Idx) (k : S16384x256.Idx)
    (hk0 : (k 0).val = 2048 * t.val + (x 0).val) (hk1 : (k 1).val = (x 1).val) :
    (iblk0 V c 0 t : S2048x256.Idx → EReal) x = lhs0 V c k := by
  obtain ⟨e0, e1, -⟩ := idx_facts0 t
  unfold iblk0
  rw [View.read_apply]
  show lhs0 V c _ = lhs0 V c _
  congr 1
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 256 + 1 * (x 1).val = (k 1).val; rw [e1, hk1]; omega

/-- The right window's block at any point is the whole right array. -/
theorem iblk0_1_apply (c : Dev nD) (t : Fin cfg0.N) (x : S256x128.Idx) :
    (iblk0 V c 1 t : S256x128.Idx → EReal) x = rhs0 V c x := by
  obtain ⟨-, -, e0, e1, -⟩ := idx_facts0 t
  unfold iblk0
  rw [View.read_apply]
  show rhs0 V c _ = rhs0 V c _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 128 + 1 * (x 1).val = (x 1).val; rw [e1]; omega

/-- What point `t` writes back is block `t` of the matrix product. -/
theorem flushed0_eq (c : Dev nD) (t : Fin cfg0.N) :
    (dat0 V q0 c).flushed 2 t = ((cfg0.win 2).blk t).view.read (Elt Ideal) (prod0 V c) := by
  show (cfg0.win 2).cut (grid0.coords t) ((dat0 V q0 c).after 2 t) = _
  rw [after0_2]
  unfold out0_2
  rw [View.canon_unit_zero zero_off2]
  simp only [View.ld_unit_zero (S := S2048x256) zero_off2, View.ld_unit_zero (S := S256x128) zero_off2]
  obtain ⟨-, -, -, -, e0, e1⟩ := idx_facts0 t
  funext y
  obtain ⟨a, b, rfl⟩ : ∃ (a : Fin 2048) (b : Fin 128), y = ix2 a b := ⟨y 0, y 1, eq_ix2 y⟩
  show k0_pay1 (iblk0 V c 0 t) (iblk0 V c 1 t) (ix2 a b) = prod0 V c (((cfg0.win 2).blk t).view.emb (ix2 a b))
  refine (pay0_apply _ _ a b).trans ?_
  unfold prod0
  refine Finset.sum_congr rfl fun k _ => ?_
  congr 1
  · refine iblk0_0_apply V c t _ _ ?_ rfl
    show win0_2.index t (0 : Fin 2) * 2048 + 1 * a.val = 2048 * t.val + a.val
    rw [e0]; omega
  · refine (iblk0_1_apply V c t _).trans ?_
    congr 1
    funext d
    apply Fin.ext
    match d with
    | ⟨0, _⟩ => rfl
    | ⟨1, _⟩ => show b.val = win0_2.index t (1 : Fin 2) * 128 + 1 * b.val; rw [e1]; omega

/-- An index of the output array is in point `t`'s block iff each coordinate is in the block's range on its axis. -/
theorem mem_blk0 (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v20).slice (win0_2.rect t)).set ↔ _
  rw [View.set_slice_whole, Rect.mem_set_unit]
  exact Iff.rfl

/-- Every index of the output array is in the block of the point its row falls in. -/
theorem cover0 (i : S16384x128.Idx) :
    ∃ t : Fin cfg0.N, (cfg0.win 2).flush t = true ∧ i ∈ ((cfg0.win 2).blk t).view.set := by
  have hi0 : (i 0).val < 16384 := idx2_lt0 i
  have hi1 : (i 1).val < 128 := idx2_lt1 i
  have hN : cfg0.N = 8 := N_0
  have hlt : (i 0).val / 2048 < cfg0.N := by rw [hN]; omega
  refine ⟨⟨(i 0).val / 2048, hlt⟩, flush0_2 _, ?_⟩
  rw [mem_blk0]
  obtain ⟨-, -, -, -, e0, e1⟩ := idx_facts0 ⟨(i 0).val / 2048, hlt⟩
  intro a
  match a with
  | ⟨0, _⟩ =>
    show win0_2.index ⟨(i 0).val / 2048, hlt⟩ (0 : Fin 2) * 2048 ≤ (i 0).val ∧ (i 0).val < win0_2.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_2.index ⟨(i 0).val / 2048, hlt⟩ (1 : Fin 2) * 128 ≤ (i 1).val ∧ (i 1).val < win0_2.index ⟨(i 0).val / 2048, hlt⟩ (1 : Fin 2) * 128 + 128
    rw [e1]; omega

/-- The output array after the region is the matrix product. -/
theorem final0 (c : Dev nD) : res0 V q0 c = prod0 V c :=
  (dat0 V q0 c).arrAt_eq_of_cover 2 (prod0 V c) (fun t _ => flushed0_eq V q0 c t) cover0

/-- The output array after the region, entry by entry. -/
theorem value0 (c : Dev nD) (p : Fin 16384) (j : Fin 128) :
    res0 V q0 c (ix2 p j) = ∑ k : Fin 256, lhs0 V c (ix2 p k) * rhs0 V c (ix2 k j) := by
  rw [final0]
  rfl

end Cert.KernelIdeal.Hand

end
-- ==== Proof.RefTerms.lean ====
import proofs.«102990_j70274254897510_1_alg».proof.Proof.Gen.ReferenceIdeal
import Idealize.ShloMosaic.PureOps.Ideal

/-!
# Two sub-terms of what the reference computes, named

The reference computes, from an edge-endpoint array, the degree normalisation 1/sqrt(degree) (zero where the degree is
zero): `normRef`. From the features, the first layer's weights and bias and the two endpoint arrays it computes the rows
fed to the second layer's products, the rectified first layer scaled by the source normalisation: `xs2Ref`. Both are
the reference program's own operations, composed in its order.
-/

noncomputable section

namespace Cert.RefTerms

open Idealize.ShloMosaic Cert.ReferenceIdeal Cert.ReferenceIdeal.Gen

/-- 1/sqrt of the number of edges with a given endpoint, zero where there is none. -/
def normRef (i : IVec S262144 32) : FVec Ideal S16384 .f32 :=
  (select (cmpf (F := Ideal) .ogt (Host.scatterAdd scatter_S16384_S262144x1_S262144_n_0_0_1 (broadcastInDim S16384 ![] bcast_S_S16384 (constant (F := Ideal) S_ .f32 0x00000000#32)) (broadcastInDim S262144x1 ![0] bcast_S262144_S262144x1_0 i) (broadcastInDim S262144 ![] bcast_S_S262144 (constant (F := Ideal) S_ .f32 0x3F800000#32))) (broadcastInDim S16384 ![] bcast_S_S16384 (constant (F := Ideal) S_ .f32 0x00000000#32))) (Host.powf (Host.scatterAdd scatter_S16384_S262144x1_S262144_n_0_0_1 (broadcastInDim S16384 ![] bcast_S_S16384 (constant (F := Ideal) S_ .f32 0x00000000#32)) (broadcastInDim S262144x1 ![0] bcast_S262144_S262144x1_0 i) (broadcastInDim S262144 ![] bcast_S_S262144 (constant (F := Ideal) S_ .f32 0x3F800000#32))) (broadcastInDim S16384 ![] bcast_S_S16384 (constant (F := Ideal) S_ .f32 0xBF000000#32))) (broadcastInDim S16384 ![] bcast_S_S16384 (id (constant (F := Ideal) S_ .f32 0x00000000#32))))

set_option maxRecDepth 8192 in
/-- The rectified first graph-convolution layer, each row scaled by its source normalisation. -/
def xs2Ref (a0 : FVec Ideal S16384x256 .f32) (a1 : FVec Ideal S256x128 .f32) (a2 : FVec Ideal S128 .f32) (i8 i9 : IVec S262144 32) :
    FVec Ideal S16384x128 .f32 :=
  (mulf (maximumf (addf (mulf (Host.scatterAdd scatter_S16384x128_S262144x1_S262144x128_1_0_0_1 (broadcastInDim S16384x128 ![] bcast_S_S16384x128 (constant (F := Ideal) S_ .f32 0x00000000#32)) (broadcastInDim S262144x1 ![0] bcast_S262144_S262144x1_0 i9) (Host.gather gather_S16384x128_S262144x1_S262144x128_1_0_n_n_0_1_1128 (Host.dotGeneral (F := Ideal) dot_S16384x256_S256x128_S16384x128_1_0_0_1_n_n none (mulf a0 (broadcastInDim S16384x256 ![0, 1] bcast_S16384x1_S16384x256_0_1 (broadcastInDim S16384x1 ![0] bcast_S16384_S16384x1_0 (normRef i8)))) a1) (broadcastInDim S262144x1 ![0] bcast_S262144_S262144x1_0 (select (cmpi .slt i8 (broadcastInDim S262144 ![] bcast_S_S262144 (constantI S_ 32 0#32))) (addi i8 (broadcastInDim S262144 ![] bcast_S_S262144 (constantI S_ 32 16384#32))) i8)))) (broadcastInDim S16384x128 ![0, 1] bcast_S16384x1_S16384x128_0_1 (broadcastInDim S16384x1 ![0] bcast_S16384_S16384x1_0 (normRef i9)))) (broadcastInDim S16384x128 ![0, 1] bcast_S1x128_S16384x128_0_1 (broadcastInDim S1x128 ![1] bcast_S128_S1x128_1 a2))) (broadcastInDim S16384x128 ![] bcast_S_S16384x128 (constant (F := Ideal) S_ .f32 0x00000000#32))) (broadcastInDim S16384x128 ![0, 1] bcast_S16384x1_S16384x128_0_1 (broadcastInDim S16384x1 ![0] bcast_S16384_S16384x1_0 (normRef i8))))

end Cert.RefTerms

end
-- ==== Proof.LibHostEval.lean ====
/-
  Evaluating a stretch of host operations all the way to its inputs.

  The contents a list of host operations leaves in a buffer is a fold of the operations' results over the contents they
  started from. Rewriting by "this operation wrote the buffer" / "this operation did not" turns the fold into the
  operations' functions applied to each other, down to the starting contents at the buffers nothing in the list wrote.
  One obstacle: a concatenation takes its pieces as a list of (shape, array) pairs together with a fact about the list's
  shapes, so the list cannot be rewritten under that fact. Here a concatenation of 2, 6 or 10 pieces is restated with
  its shapes kept apart from its pieces — then each piece is an ordinary argument and is evaluated like everything else —
  and an entry of a literal vector of references is read off by its position.
-/
import Idealize.ShloMosaic.Lib.StableHlo.Run

noncomputable section

namespace Cert.Lib.HostEval

open Idealize.ShloMosaic

/-- A concatenation of two pieces, the shapes kept apart from the pieces. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h
theorem cat2_def {α : Type} (t : Shape) (a : Fin t.rank) (s₁ s₂ : Shape) (x₁ : s₁.Idx → α) (x₂ : s₂.Idx → α)
    (h : Shape.Concatenates (([⟨s₁, x₁⟩, ⟨s₂, x₂⟩] : List ((s : Shape) × (s.Idx → α))).map (fun p : (s : Shape) × (s.Idx → α) => p.1)) t a) :
    concatenate t a [⟨s₁, x₁⟩, ⟨s₂, x₂⟩] h = cat2 t a s₁ s₂ h x₁ x₂ := rfl

/-- A concatenation of 6 pieces of one shape, the shapes kept apart from the pieces. -/
def cat6 {α : Type} (t : Shape) (a : Fin t.rank) (s : Shape) (h : Shape.Concatenates [s, s, s, s, s, s] t a)
    (x0 x1 x2 x3 x4 x5 : s.Idx → α) : t.Idx → α :=
  concatenate t a [⟨s, x0⟩, ⟨s, x1⟩, ⟨s, x2⟩, ⟨s, x3⟩, ⟨s, x4⟩, ⟨s, x5⟩] h
theorem cat6_def {α : Type} (t : Shape) (a : Fin t.rank) (s : Shape) (x0 x1 x2 x3 x4 x5 : s.Idx → α)
    (h : Shape.Concatenates (([⟨s, x0⟩, ⟨s, x1⟩, ⟨s, x2⟩, ⟨s, x3⟩, ⟨s, x4⟩, ⟨s, x5⟩] : List ((s : Shape) × (s.Idx → α))).map (fun p : (s : Shape) × (s.Idx → α) => p.1)) t a) :
    concatenate t a [⟨s, x0⟩, ⟨s, x1⟩, ⟨s, x2⟩, ⟨s, x3⟩, ⟨s, x4⟩, ⟨s, x5⟩] h = cat6 t a s h x0 x1 x2 x3 x4 x5 := rfl

/-- A concatenation of 10 pieces of one shape, the shapes kept apart from the pieces. -/
def cat10 {α : Type} (t : Shape) (a : Fin t.rank) (s : Shape) (h : Shape.Concatenates [s, s, s, s, s, s, s, s, s, s] t a)
    (x0 x1 x2 x3 x4 x5 x6 x7 x8 x9 : s.Idx → α) : t.Idx → α :=
  concatenate t a [⟨s, x0⟩, ⟨s, x1⟩, ⟨s, x2⟩, ⟨s, x3⟩, ⟨s, x4⟩, ⟨s, x5⟩, ⟨s, x6⟩, ⟨s, x7⟩, ⟨s, x8⟩, ⟨s, x9⟩] h
theorem cat10_def {α : Type} (t : Shape) (a : Fin t.rank) (s : Shape) (x0 x1 x2 x3 x4 x5 x6 x7 x8 x9 : s.Idx → α)
    (h : Shape.Concatenates (([⟨s, x0⟩, ⟨s, x1⟩, ⟨s, x2⟩, ⟨s, x3⟩, ⟨s, x4⟩, ⟨s, x5⟩, ⟨s, x6⟩, ⟨s, x7⟩, ⟨s, x8⟩, ⟨s, x9⟩] : List ((s : Shape) × (s.Idx → α))).map (fun p : (s : Shape) × (s.Idx → α) => p.1)) t a) :
    concatenate t a [⟨s, x0⟩, ⟨s, x1⟩, ⟨s, x2⟩, ⟨s, x3⟩, ⟨s, x4⟩, ⟨s, x5⟩, ⟨s, x6⟩, ⟨s, x7⟩, ⟨s, x8⟩, ⟨s, x9⟩] h = cat10 t a s h x0 x1 x2 x3 x4 x5 x6 x7 x8 x9 := rfl

/-! Entries of a literal vector, by position. -/
theorem vec6_0 {β : Type} (a0 a1 a2 a3 a4 a5 : β) : (![a0, a1, a2, a3, a4, a5] : Fin 6 → β) (0 : Fin 6) = a0 := rfl
theorem vec6_1 {β : Type} (a0 a1 a2 a3 a4 a5 : β) : (![a0, a1, a2, a3, a4, a5] : Fin 6 → β) (1 : Fin 6) = a1 := rfl
theorem vec6_2 {β : Type} (a0 a1 a2 a3 a4 a5 : β) : (![a0, a1, a2, a3, a4, a5] : Fin 6 → β) (2 : Fin 6) = a2 := rfl
theorem vec6_3 {β : Type} (a0 a1 a2 a3 a4 a5 : β) : (![a0, a1, a2, a3, a4, a5] : Fin 6 → β) (3 : Fin 6) = a3 := rfl
theorem vec6_4 {β : Type} (a0 a1 a2 a3 a4 a5 : β) : (![a0, a1, a2, a3, a4, a5] : Fin 6 → β) (4 : Fin 6) = a4 := rfl
theorem vec6_5 {β : Type} (a0 a1 a2 a3 a4 a5 : β) : (![a0, a1, a2, a3, a4, a5] : Fin 6 → β) (5 : Fin 6) = a5 := rfl
theorem vec10_0 {β : Type} (a0 a1 a2 a3 a4 a5 a6 a7 a8 a9 : β) : (![a0, a1, a2, a3, a4, a5, a6, a7, a8, a9] : Fin 10 → β) (0 : Fin 10) = a0 := rfl
theorem vec10_1 {β : Type} (a0 a1 a2 a3 a4 a5 a6 a7 a8 a9 : β) : (![a0, a1, a2, a3, a4, a5, a6, a7, a8, a9] : Fin 10 → β) (1 : Fin 10) = a1 := rfl
theorem vec10_2 {β : Type} (a0 a1 a2 a3 a4 a5 a6 a7 a8 a9 : β) : (![a0, a1, a2, a3, a4, a5, a6, a7, a8, a9] : Fin 10 → β) (2 : Fin 10) = a2 := rfl
theorem vec10_3 {β : Type} (a0 a1 a2 a3 a4 a5 a6 a7 a8 a9 : β) : (![a0, a1, a2, a3, a4, a5, a6, a7, a8, a9] : Fin 10 → β) (3 : Fin 10) = a3 := rfl
theorem vec10_4 {β : Type} (a0 a1 a2 a3 a4 a5 a6 a7 a8 a9 : β) : (![a0, a1, a2, a3, a4, a5, a6, a7, a8, a9] : Fin 10 → β) (4 : Fin 10) = a4 := rfl
theorem vec10_5 {β : Type} (a0 a1 a2 a3 a4 a5 a6 a7 a8 a9 : β) : (![a0, a1, a2, a3, a4, a5, a6, a7, a8, a9] : Fin 10 → β) (5 : Fin 10) = a5 := rfl
theorem vec10_6 {β : Type} (a0 a1 a2 a3 a4 a5 a6 a7 a8 a9 : β) : (![a0, a1, a2, a3, a4, a5, a6, a7, a8, a9] : Fin 10 → β) (6 : Fin 10) = a6 := rfl
theorem vec10_7 {β : Type} (a0 a1 a2 a3 a4 a5 a6 a7 a8 a9 : β) : (![a0, a1, a2, a3, a4, a5, a6, a7, a8, a9] : Fin 10 → β) (7 : Fin 10) = a7 := rfl
theorem vec10_8 {β : Type} (a0 a1 a2 a3 a4 a5 a6 a7 a8 a9 : β) : (![a0, a1, a2, a3, a4, a5, a6, a7, a8, a9] : Fin 10 → β) (8 : Fin 10) = a8 := rfl
theorem vec10_9 {β : Type} (a0 a1 a2 a3 a4 a5 a6 a7 a8 a9 : β) : (![a0, a1, a2, a3, a4, a5, a6, a7, a8, a9] : Fin 10 → β) (9 : Fin 10) = a9 := rfl

end Cert.Lib.HostEval

open Idealize.ShloMosaic.StableHlo Cert.Lib.HostEval in
/-- Evaluate every fold of host operations in the goal, concatenations included, in one pass. -/
macro "host_eval" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      cat2_def, cat6_def, cat10_def, vec6_0, vec6_1, vec6_2, vec6_3, vec6_4, vec6_5, vec10_0, vec10_1, vec10_2, vec10_3, vec10_4, vec10_5, vec10_6, vec10_7, vec10_8, vec10_9]))

end
-- ==== Proof.IdealValueA.lean ====
import proofs.«102990_j70274254897510_1_alg».proof.Proof.IdealRun
import proofs.«102990_j70274254897510_1_alg».proof.Proof.RegionValue0
import proofs.«102990_j70274254897510_1_alg».proof.Proof.RefTerms
import proofs.«102990_j70274254897510_1_alg».proof.Proof.LibPlainProduct
import proofs.«102990_j70274254897510_1_alg».proof.Proof.LibHostEval

/-!
# The rows fed to the second layer, on the kernel program's side

The first region leaves in its output array, entry by entry, the sum over k of features-row times weight-column: the
host's dot_general of the same two arrays. The host operations between the first and the second region then compute
from it exactly what the reference computes from its own dot_general: gather by source, scatter-add by destination,
scale by the destination normalisation, add the bias, rectify, scale by the source normalisation.
-/

set_option maxRecDepth 16384

noncomputable section

namespace Cert.KernelIdeal.Hand

open Idealize.ShloMosaic Idealize.ShloMosaic.TcCoe Idealize.ShloMosaic.ValueIdx Idealize.SL.Sem
open Idealize.SL Idealize.SL.RA
open Cert.KernelIdeal Cert.KernelIdeal.Gen Cert.RefTerms

variable (m : (ℓ : Loc nD τ sig) → Buf (Elt Ideal) ℓ) (c : Dev nD)

/-- A valuation updated at a reference, read there and elsewhere. -/
theorem upd_self (W : Valuation τ sig (Elt Ideal)) (y : Ref sig .tc) (v : (Proc.devRef .tc y : DevRef τ sig).ty.Contents (Elt Ideal)) :
    Function.update W (no_index (Proc.devRef .tc y)) v (no_index (Proc.devRef .tc y)) = v := Function.update_self ..
theorem upd_ne (W : Valuation τ sig (Elt Ideal)) (y r : Ref sig .tc) (v : (Proc.devRef .tc y : DevRef τ sig).ty.Contents (Elt Ideal)) (h : r ≠ y) :
    Function.update W (no_index (Proc.devRef .tc y)) v (no_index (Proc.devRef .tc r)) = W (Proc.devRef .tc r) :=
  Function.update_of_ne (StableHlo.devRef_ne_of_ne h) ..

/-- The first region's output is the host's whole product of the two arrays it read. -/
theorem O6_eq : O6 m c = Host.dotGeneral (F := Ideal) (φ₁ := .f32) (φ₂ := .f32) Cert.ReferenceIdeal.dot_S16384x256_S256x128_S16384x128_1_0_0_1_n_n none
    (lhs0 (E5 m) c) (rhs0 (E5 m) c) := by
  rw [O6_def]
  funext i
  obtain ⟨p, j, rfl⟩ : ∃ (p : Fin 16384) (j : Fin 128), i = ix2 p j := ⟨i 0, i 1, eq_ix2 i⟩
  exact (value0 (E5 m) (fun _ => fullShare) c p j).trans
    (PlainProduct.dotGeneral_apply (φ₁ := .f32) (φ₂ := .f32) Cert.ReferenceIdeal.dot_S16384x256_S256x128_S16384x128_1_0_0_1_n_n rfl none
      (lhs0 (E5 m) c) (rhs0 (E5 m) c) p j).symm

set_option maxRecDepth 200000 in
set_option maxHeartbeats 4000000 in
/-- The rows fed to the second region's product are the reference's own term of the arguments. -/
theorem xs2_eq : E9 m c main_v42 = xs2Ref (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) := by
  rw [E9_apply]
  dsimp only [V9, V8, V7, V6]
  rw [outsA_6, O6_eq]
  dsimp only [lhs0, rhs0]
  rw [E5_apply, E5_apply]
  dsimp only [V5, V4, V3, V2, V1, V0, hostOps0, hostOps0_1, hostOps0_2, hostOps0_3, hostOps0_4, hostOps1, hostOps1_1, hostOps1_2]
  repeat (first | host_eval | simp (disch := decide) only [upd_self, upd_ne])
  simp only [StableHlo.TRef.toBuf, StableHlo.TRef.ofBuf, cast_eq]
  unfold xs2Ref normRef
  rfl

end Cert.KernelIdeal.Hand

end
-- ==== Proof.RegionValue1.lean ====
import proofs.«102990_j70274254897510_1_alg».proof.Proof.IdealBodies
import proofs.«102990_j70274254897510_1_alg».proof.Proof.LibPlainProduct
import Idealize.ShloMosaic.Lib.Pipeline.Value
import Idealize.ShloMosaic.Lib.ValueIdx
import proofs.«102990_j70274254897510_1_alg».proof.Proof.RegionValue0

set_option maxRecDepth 16384

noncomputable section

open scoped BigOperators

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen

/-!
# Region 1: the output array is the product of the two input arrays

Each grid point `t` multiplies rows `2048 t … 2048 t + 2047` of the left array by the whole right array and writes the
result over the same rows of the output. The eight row blocks tile the output, so it ends holding the matrix product.
-/

-- the TensorCore's buffer contents when the region is entered, and the input shares
variable (V : (c : Dev nD) → (b : Ref sig .tc) → Buf (Elt Ideal) ((c : Thread nD τ).loc b))
variable (q1 : Fin cfg1.W → PosShare TreeShare)

/-- The body's value at row `p`, column `j`: the product's entry. The shape cast to the same shape and the
    change of format are identities on the ideal values; the product into a zero accumulator is the plain sum. -/
theorem pay1_apply (x0 : Vec Ideal S2048x128 .f32) (x1 : Vec Ideal S128x128 .f32) (p : Fin 2048) (j : Fin 128) :
    k1_pay1 x0 x1 (ix2 p j) = ∑ k : Fin 128, x0 (ix2 p k) * x1 (ix2 k j) := by
  unfold k1_pay1
  rw [shapeCast_self, shapeCast_self]
  exact PlainProduct.matmul_zero_apply (M := 2048) (K := 128) (N := 128) _ rfl none _ _ p j

/-- The two input arrays as the region finds them and the output array after it, as functions to the extended reals. -/
abbrev lhs1 (c : Dev nD) : S16384x128.Idx → EReal := V c main_v42
abbrev rhs1 (c : Dev nD) : S128x128.Idx → EReal := V c main_v38
abbrev res1 (c : Dev nD) : S16384x128.Idx → EReal := (dat1 V q1 c).arrAt 2 cfg1.N

/-- The matrix product of the two input arrays, entry by entry. -/
def prod1 (c : Dev nD) : S16384x128.Idx → EReal := fun i =>
  ∑ k : Fin 128, lhs1 V c (ix2 (⟨(i 0).val, idx2_lt0 i⟩ : Fin 16384) k) * rhs1 V c (ix2 k (⟨(i 1).val, idx2_lt1 i⟩ : Fin 128))

/-- The printed index maps over the grid: the row-block index is the point, the column-block index zero; the right
    array's one block is at zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows `2048 t …` of the left array. -/
theorem iblk1_0_apply (c : Dev nD) (t : Fin cfg1.N) (x : S2048x128.Idx) (k : S16384x128.Idx)
    (hk0 : (k 0).val = 2048 * t.val + (x 0).val) (hk1 : (k 1).val = (x 1).val) :
    (iblk1 V c 0 t : S2048x128.Idx → EReal) x = lhs1 V c k := by
  obtain ⟨e0, e1, -⟩ := idx_facts1 t
  unfold iblk1
  rw [View.read_apply]
  show lhs1 V c _ = lhs1 V c _
  congr 1
  funext a
  apply Fin.ext
  match a with
  | ⟨0, _⟩ => show win1_0.index t (0 : Fin 2) * 2048 + 1 * (x 0).val = (k 0).val; rw [e0, hk0]; omega
  | ⟨1, _⟩ => show win1_0.index t (1 : Fin 2) * 128 + 1 * (x 1).val = (k 1).val; rw [e1, hk1]; omega

/-- The right window's block at any point is the whole right array. -/
theorem iblk1_1_apply (c : Dev nD) (t : Fin cfg1.N) (x : S128x128.Idx) :
    (iblk1 V c 1 t : S128x128.Idx → EReal) x = rhs1 V c x := by
  obtain ⟨-, -, e0, e1, -⟩ := idx_facts1 t
  unfold iblk1
  rw [View.read_apply]
  show rhs1 V c _ = rhs1 V c _
  congr 1
  funext a
  apply Fin.ext
  match a with
  | ⟨0, _⟩ => show win1_1.index t (0 : Fin 2) * 128 + 1 * (x 0).val = (x 0).val; rw [e0]; omega
  | ⟨1, _⟩ => show win1_1.index t (1 : Fin 2) * 128 + 1 * (x 1).val = (x 1).val; rw [e1]; omega

/-- What point `t` writes back is block `t` of the matrix product. -/
theorem flushed1_eq (c : Dev nD) (t : Fin cfg1.N) :
    (dat1 V q1 c).flushed 2 t = ((cfg1.win 2).blk t).view.read (Elt Ideal) (prod1 V c) := by
  show (cfg1.win 2).cut (grid1.coords t) ((dat1 V q1 c).after 2 t) = _
  rw [after1_2]
  unfold out1_2
  rw [View.canon_unit_zero zero_off2]
  simp only [View.ld_unit_zero (S := S2048x128) zero_off2, View.ld_unit_zero (S := S128x128) zero_off2]
  obtain ⟨-, -, -, -, e0, e1⟩ := idx_facts1 t
  funext y
  obtain ⟨a, b, rfl⟩ : ∃ (a : Fin 2048) (b : Fin 128), y = ix2 a b := ⟨y 0, y 1, eq_ix2 y⟩
  show k1_pay1 (iblk1 V c 0 t) (iblk1 V c 1 t) (ix2 a b) = prod1 V c (((cfg1.win 2).blk t).view.emb (ix2 a b))
  refine (pay1_apply _ _ a b).trans ?_
  unfold prod1
  refine Finset.sum_congr rfl fun k _ => ?_
  congr 1
  · refine iblk1_0_apply V c t _ _ ?_ rfl
    show win1_2.index t (0 : Fin 2) * 2048 + 1 * a.val = 2048 * t.val + a.val
    rw [e0]; omega
  · refine (iblk1_1_apply V c t _).trans ?_
    congr 1
    funext d
    apply Fin.ext
    match d with
    | ⟨0, _⟩ => rfl
    | ⟨1, _⟩ => show b.val = win1_2.index t (1 : Fin 2) * 128 + 1 * b.val; rw [e1]; omega

/-- An index of the output array is in point `t`'s block iff each coordinate is in the block's range on its axis. -/
theorem mem_blk1 (t : Fin cfg1.N) (i : S16384x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v43).slice (win1_2.rect t)).set ↔ _
  rw [View.set_slice_whole, Rect.mem_set_unit]
  exact Iff.rfl

/-- Every index of the output array is in the block of the point its row falls in. -/
theorem cover1 (i : S16384x128.Idx) :
    ∃ t : Fin cfg1.N, (cfg1.win 2).flush t = true ∧ i ∈ ((cfg1.win 2).blk t).view.set := by
  have hi0 : (i 0).val < 16384 := idx2_lt0 i
  have hi1 : (i 1).val < 128 := idx2_lt1 i
  have hN : cfg1.N = 8 := N_1
  have hlt : (i 0).val / 2048 < cfg1.N := by rw [hN]; omega
  refine ⟨⟨(i 0).val / 2048, hlt⟩, flush1_2 _, ?_⟩
  rw [mem_blk1]
  obtain ⟨-, -, -, -, e0, e1⟩ := idx_facts1 ⟨(i 0).val / 2048, hlt⟩
  intro a
  match a with
  | ⟨0, _⟩ =>
    show win1_2.index ⟨(i 0).val / 2048, hlt⟩ (0 : Fin 2) * 2048 ≤ (i 0).val ∧ (i 0).val < win1_2.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win1_2.index ⟨(i 0).val / 2048, hlt⟩ (1 : Fin 2) * 128 ≤ (i 1).val ∧ (i 1).val < win1_2.index ⟨(i 0).val / 2048, hlt⟩ (1 : Fin 2) * 128 + 128
    rw [e1]; omega

/-- The output array after the region is the matrix product. -/
theorem final1 (c : Dev nD) : res1 V q1 c = prod1 V c :=
  (dat1 V q1 c).arrAt_eq_of_cover 2 (prod1 V c) (fun t _ => flushed1_eq V q1 c t) cover1

/-- The output array after the region, entry by entry. -/
theorem value1 (c : Dev nD) (p : Fin 16384) (j : Fin 128) :
    res1 V q1 c (ix2 p j) = ∑ k : Fin 128, lhs1 V c (ix2 p k) * rhs1 V c (ix2 k j) := by
  rw [final1]
  rfl

end Cert.KernelIdeal.Hand

end
-- ==== Proof.LibGatherScatter.lean ====
import Idealize.ShloMosaic.Lib.ValueIdx
import Idealize.ShloMosaic.PureOps.Ideal
import Idealize.ShloMosaic.PureOps.Ideal.Laws
import Idealize.ShloMosaic.PureOps.Contract

/-!
# A gather and an accumulating scatter along the first axis, read at an index

The operand is an array over nodes (rank 1, or rank 2 with a feature axis); the index array has one 32-bit word per
edge, shaped (edges, 1).

* A gather reads, for edge e, the operand at the word read signed and clamped into the node range
  (and, for a rank-2 operand, at the same feature coordinate).
* An accumulating scatter adds, at node n, every update whose word read signed equals n (and, for rank 2, whose
  feature coordinate is the same); a word outside the node range is dropped.
-/

noncomputable section

open scoped BigOperators

namespace Cert.LibGS

open Idealize.ShloMosaic Idealize.ShloMosaic.ValueIdx

/-! ## Gathers -/

section Gather
variable {α : Type}

/-- Dimension numbers of a gather of a rank-1 operand of extent N by E one-word start indices. -/
abbrev gDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The rank-1 gather at edge e: the operand at the word of e, read signed and clamped into [0, N - 1]. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gDims1 N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (gDims1 N E wf).start (ix1 e) idx 0 + (gDims1 N E wf).batchCoord (ix1 e) 0
    + (gDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E wf).startIndexMap from List.mem_singleton.mpr rfl)]
  have hsi : (gDims1 N E wf).siIdx (ix1 e) ⟨List.idxOf (0 : Fin 1) (gDims1 N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Dimension numbers of a gather of rows of a rank-2 operand (N rows of K) by E one-word start indices. -/
abbrev gDims2 (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The row gather at (e, j): the operand at (the word of e read signed and clamped into [0, N - 1], j). -/
theorem gather2_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (j : Fin K) :
    Host.gather (gDims2 N K E wf) x idx (ix2 e j)
      = x (ix2 ⟨min (idx (ix2 e 0)).toInt.toNat (N - 1), by omega⟩ j) := by
  unfold Host.gather
  congr 1
  funext a
  refine Fin.ext ?_
  show (gDims2 N K E wf).start (ix2 e j) idx a + (gDims2 N K E wf).batchCoord (ix2 e j) a
    + (gDims2 N K E wf).offCoord (ix2 e j) a = _
  rw [GatherDims.batchCoord_eq_zero _ _ _ List.not_mem_nil]
  have ha : a = (0 : Fin 2) ∨ a = (1 : Fin 2) := by
    rcases a with ⟨v, hv⟩
    have hv2 : v < 2 := hv
    interval_cases v
    · exact Or.inl rfl
    · exact Or.inr rfl
  rcases ha with rfl | rfl
  · rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gDims2 N K E wf).startIndexMap from List.mem_singleton.mpr rfl)]
    have hsi : (gDims2 N K E wf).siIdx (ix2 e j) ⟨List.idxOf (0 : Fin 2) (gDims2 N K E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N K E wf).startIndexMap := by
      show (1 : Fin 2) ∉ [(0 : Fin 2)]
      decide
    have h2 : (1 : Fin 2) ∈ (gDims2 N K E wf).sKept := by
      refine (GatherDims.mem_sKept _ _).mpr ⟨?_, List.not_mem_nil⟩
      show (1 : Fin 2) ∉ [(0 : Fin 2)]
      decide
    unfold GatherDims.start
    rw [dif_neg h1]
    unfold GatherDims.offCoord
    rw [dif_pos h2]
    simp only [Nat.zero_add]
    rfl

end Gather

/-! ## Accumulating scatters -/

section Scatter

/-- Dimension numbers of a scatter into a rank-1 operand of extent N of E updates at one-word indices. -/
abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e lands on node n exactly when its word, read signed, is n. -/
theorem resultIdx1_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hstart : ∀ a, (sDims1 N E wf).start (ix1 e) idx a = (idx (ix2 e 0)).toInt := by
    intro a
    obtain rfl : a = 0 := Subsingleton.elim _ _
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : ∀ a, (sDims1 N E wf).window (ix1 e) a = 0 := by
    intro a
    obtain rfl : a = 0 := Subsingleton.elim _ _
    unfold ScatterDims.window
    rw [dif_neg (by simp [ScatterDims.sKept, Shape.kept])]
  unfold ScatterDims.resultIdx?
  split
  · rename_i h
    rw [Option.some.injEq]
    constructor
    · intro hf
      have h0 := congrArg (fun f => ((f 0 : Fin N) : Nat)) hf
      have hb := h 0
      simp only [hstart, hwin] at h0 hb
      simp only [Nat.cast_zero, add_zero] at h0 hb
      have : ((idx (ix2 e 0)).toInt.toNat : Int) = (n.val : Int) := by exact_mod_cast h0
      omega
    · intro hv
      funext a
      obtain rfl : a = 0 := Subsingleton.elim _ _
      refine Fin.ext ?_
      show ((sDims1 N E wf).start (ix1 e) idx 0 + ((sDims1 N E wf).window (ix1 e) 0 : Nat)).toNat = n.val
      rw [hstart, hwin, hv]; simp
  · rename_i h
    constructor
    · intro hf; exact absurd hf (by simp)
    · intro hv
      exfalso; apply h
      intro a
      rw [hstart, hwin, hv]
      obtain rfl : a = 0 := Subsingleton.elim _ _
      have := n.isLt
      constructor
      · simp
      · show ((n.val : Int) + ((0 : Nat) : Int)) < ((N : Nat) : Int)
        omega

/-- The rank-1 accumulating scatter at node n: the operand there plus the updates whose word is n. -/
theorem scatterAdd1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) (p : Fin E → Prop) [DecidablePred p]
    (hp : ∀ e, p e ↔ (idx (ix2 e 0)).toInt = (n.val : Int)) :
    Ideal.hostScatterAdd (sDims1 N E wf) x idx upd (ix1 n)
      = x (ix1 n) + ∑ e ∈ Finset.univ.filter p, upd (ix1 e) := by
  unfold Ideal.hostScatterAdd
  congr 1
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (hp _).mpr ((resultIdx1_iff wf idx _ n).mp this)⟩
  · intro e he
    exact Finset.mem_filter.mpr ⟨Finset.mem_univ _,
      (resultIdx1_iff wf idx e n).mpr ((hp e).mp (Finset.mem_filter.mp he).2)⟩
  · intro j _; exact (eq_ix1 j).symm
  · intro e _; rfl
  · intro j _; exact congrArg upd (eq_ix1 j)

/-- An axis of a rank-2 array is the first or the second. -/
theorem fin2_cases (a : Fin 2) : a = 0 ∨ a = 1 := by
  rcases a with ⟨v, hv⟩
  interval_cases v
  · exact Or.inl rfl
  · exact Or.inr rfl

/-- Dimension numbers of a scatter of E rows of K into a rank-2 operand (N rows of K) at one-word indices. -/
abbrev sDims2 (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- Update (e, j') lands on (n, j) exactly when the word of e, read signed, is n and j' = j. -/
theorem resultIdx2_iff {N K E w : Nat} (wf : ScatterDims.WF ⟨2, ![N, K]⟩ ⟨2, ![E, 1]⟩ ⟨2, ![E, K]⟩ [1] [0] [0] 1)
    (idx : IVec ⟨2, ![E, 1]⟩ w) (e : Fin E) (j' : Fin K) (n : Fin N) (j : Fin K) :
    (sDims2 N K E wf).resultIdx? (ix2 e j') idx = some (ix2 n j)
      ↔ (idx (ix2 e 0)).toInt = (n.val : Int) ∧ j' = j := by
  have hstart0 : (sDims2 N K E wf).start (ix2 e j') idx (0 : Fin 2) = (idx (ix2 e 0)).toInt := by
    unfold ScatterDims.start
    rw [dif_pos (show (0 : Fin 2) ∈ (sDims2 N K E wf).scatterDimsToOperandDims from List.mem_singleton.mpr rfl)]
    have hsi : (sDims2 N K E wf).siIdx (ix2 e j') ⟨List.idxOf (0 : Fin 2) (sDims2 N K E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (sDims2 N K E wf).start (ix2 e j') idx (1 : Fin 2) = 0 := by
    unfold ScatterDims.start
    rw [dif_neg (show (1 : Fin 2) ∉ [(0 : Fin 2)] by decide)]
  have hwin0 : (sDims2 N K E wf).window (ix2 e j') (0 : Fin 2) = 0 := by
    unfold ScatterDims.window
    rw [dif_neg (by simp [ScatterDims.sKept, Shape.kept])]
  have hwin1 : (sDims2 N K E wf).window (ix2 e j') (1 : Fin 2) = j'.val := by
    unfold ScatterDims.window
    rw [dif_pos (by simp [ScatterDims.sKept, Shape.kept, List.finRange])]
    rfl
  unfold ScatterDims.resultIdx?
  split
  · rename_i h
    rw [Option.some.injEq]
    constructor
    · intro hf
      have h0 := congrArg (fun f => ((f (0 : Fin 2) : Fin N) : Nat)) hf
      have h1 := congrArg (fun f => ((f (1 : Fin 2) : Fin K) : Nat)) hf
      have hb := h (0 : Fin 2)
      simp only [hstart0, hwin0, hstart1, hwin1] at h0 h1 hb
      simp only [Nat.cast_zero, add_zero, zero_add, Int.toNat_natCast] at h0 h1 hb
      refine ⟨?_, Fin.ext h1⟩
      have : ((idx (ix2 e 0)).toInt.toNat : Int) = (n.val : Int) := by exact_mod_cast h0
      omega
    · rintro ⟨hv, rfl⟩
      funext a
      refine Fin.ext ?_
      rcases fin2_cases a with rfl | rfl
      · show ((sDims2 N K E wf).start (ix2 e j') idx 0 + ((sDims2 N K E wf).window (ix2 e j') 0 : Nat)).toNat = n.val
        rw [hstart0, hwin0, hv]; simp
      · show ((sDims2 N K E wf).start (ix2 e j') idx 1 + ((sDims2 N K E wf).window (ix2 e j') 1 : Nat)).toNat = j'.val
        rw [hstart1, hwin1]; simp
  · rename_i h
    constructor
    · intro hf; exact absurd hf (by simp)
    · rintro ⟨hv, rfl⟩
      exfalso; apply h
      intro a
      rcases fin2_cases a with rfl | rfl
      · rw [hstart0, hwin0, hv]
        have := n.isLt
        constructor
        · simp
        · show ((n.val : Int) + ((0 : Nat) : Int)) < ((N : Nat) : Int)
          omega
      · rw [hstart1, hwin1]
        have := j'.isLt
        constructor
        · simp
        · show ((0 : Int) + ((j'.val : Nat) : Int)) < ((K : Nat) : Int)
          omega

/-- The row accumulating scatter at (n, j): the operand there plus the updates (e, j) whose word is n. -/
theorem scatterAdd2_apply {N K E w : Nat}
    (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w)
    (upd : (⟨2, ![E, K]⟩ : Shape).Idx → EReal) (n : Fin N) (j : Fin K) (p : Fin E → Prop) [DecidablePred p]
    (hp : ∀ e, p e ↔ (idx (ix2 e 0)).toInt = (n.val : Int)) :
    Ideal.hostScatterAdd (sDims2 N K E wf) x idx upd (ix2 n j)
      = x (ix2 n j) + ∑ e ∈ Finset.univ.filter p, upd (ix2 e j) := by
  unfold Ideal.hostScatterAdd
  congr 1
  have key : ∀ u : (⟨2, ![E, K]⟩ : Shape).Idx, (sDims2 N K E wf).resultIdx? u idx = some (ix2 n j) →
      p (u 0) ∧ u = ix2 (u 0) j := by
    intro u hu
    rw [eq_ix2 u] at hu
    have := (resultIdx2_iff wf idx _ _ n j).mp hu
    refine ⟨(hp _).mpr this.1, ?_⟩
    have h2 := eq_ix2 u
    rw [this.2] at h2
    exact h2
  refine Finset.sum_nbij' (fun u => u 0) (fun e => ix2 e j) ?_ ?_ ?_ ?_ ?_
  · intro u hu
    exact Finset.mem_filter.mpr ⟨Finset.mem_univ _, (key u (Finset.mem_filter.mp hu).2).1⟩
  · intro e he
    exact Finset.mem_filter.mpr ⟨Finset.mem_univ _,
      (resultIdx2_iff wf idx e j n j).mpr ⟨(hp e).mp (Finset.mem_filter.mp he).2, rfl⟩⟩
  · intro u hu; exact (key u (Finset.mem_filter.mp hu).2).2.symm
  · intro e _; rfl
  · intro u hu; exact congrArg upd (key u (Finset.mem_filter.mp hu).2).2

end Scatter

end Cert.LibGS

end
-- ==== Proof.LibConcat.lean ====
/-
  Two arrays laid side by side, read at coordinates.

  A two-piece concatenation of matrices along the columns reads, at (p, q), the first piece at
  (p, q) when q lies below the first piece's width and the second piece at (p, q − width)
  otherwise; likewise for two vectors laid end to end.  These are the library's two-piece
  concatenation lemmas with both indices written by coordinates.
-/
import Idealize.ShloMosaic.Lib.ValueIdx
import Idealize.ShloMosaic.Lib.Pipeline.Value

namespace Cert.LibConcat

open Idealize.ShloMosaic Idealize.ShloMosaic.ValueIdx

variable {α : Type}

/-- `[n, a] ++ [n, b]` along the columns, at a column `q` of the first piece. -/
theorem concat_cols_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (q : Fin c) (q' : Fin a)
    (hq : q'.val = q.val) :
    concatenate ⟨2, ![n, c]⟩ 1 [⟨⟨2, ![n, a]⟩, x₁⟩, ⟨⟨2, ![n, b]⟩, x₂⟩] h (ix2 p q) = x₁ (ix2 p q') :=
  concatenate_pair_apply_left 1 x₁ x₂ h (ix2 p q) rfl (ix2 p q') (fun d => by
    match d with
    | ⟨0, _⟩ => rfl
    | ⟨1, _⟩ => exact hq)

/-- `[n, a] ++ [n, b]` along the columns, at a column `q = a + q'` of the second piece. -/
theorem concat_cols_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (q : Fin c) (q' : Fin b)
    (hq : q'.val + a = q.val) :
    concatenate ⟨2, ![n, c]⟩ 1 [⟨⟨2, ![n, a]⟩, x₁⟩, ⟨⟨2, ![n, b]⟩, x₂⟩] h (ix2 p q) = x₂ (ix2 p q') :=
  concatenate_pair_apply_right 1 x₁ x₂ h (ix2 p q) rfl rfl (ix2 p q') (fun d hd => by
    match d with
    | ⟨0, _⟩ => rfl
    | ⟨1, _⟩ => exact absurd rfl hd) hq

/-- `[a] ++ [b]` laid end to end, at a position `q` of the first piece. -/
theorem concat_vec_left {a b c : ℕ} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (q : Fin c) (q' : Fin a) (hq : q'.val = q.val) :
    concatenate ⟨1, ![c]⟩ 0 [⟨⟨1, ![a]⟩, x₁⟩, ⟨⟨1, ![b]⟩, x₂⟩] h (ix1 q) = x₁ (ix1 q') :=
  concatenate_pair_apply_left 0 x₁ x₂ h (ix1 q) rfl (ix1 q') (fun d => by
    match d with
    | ⟨0, _⟩ => exact hq)

/-- `[a] ++ [b]` laid end to end, at a position `q = a + q'` of the second piece. -/
theorem concat_vec_right {a b c : ℕ} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (q : Fin c) (q' : Fin b) (hq : q'.val + a = q.val) :
    concatenate ⟨1, ![c]⟩ 0 [⟨⟨1, ![a]⟩, x₁⟩, ⟨⟨1, ![b]⟩, x₂⟩] h (ix1 q) = x₂ (ix1 q') :=
  concatenate_pair_apply_right 0 x₁ x₂ h (ix1 q) rfl rfl (ix1 q') (fun d hd => by
    match d with
    | ⟨0, _⟩ => exact absurd rfl hd) hq

end Cert.LibConcat
-- ==== Proof.LibGraphConv.lean ====
/-
  A graph-convolution aggregation read at an entry.

  Rows of an N-by-K array are gathered along E edges (one signed word per edge names the source row, clamped
  into the row range), added up at the edges' target rows into an array of one scalar, each row is scaled by
  a per-row coefficient, and a per-column bias is added.  Entry (p, c) of the result is

      (scalar + sum over the edges whose target word is p of the array at (source row of the edge, c))
        * coefficient p + bias c.

  Every step acts one column at a time: column c of the result depends on column c of the array only.
-/
import Idealize.ShloMosaic.Lib.ValueIdx
import Idealize.ShloMosaic.Lib.Pipeline.Value
import Idealize.ShloMosaic.PureOps.Ideal
import Idealize.ShloMosaic.PureOps.Ideal.Laws
import Idealize.ShloMosaic.PureOps.Contract
import proofs.«102990_j70274254897510_1_alg».proof.Proof.LibGatherScatter

noncomputable section

open scoped BigOperators

namespace Cert.LibGraphConv

open Idealize.ShloMosaic Idealize.ShloMosaic.ValueIdx Cert.LibGS

variable {α : Type}

/-- A scalar spread over an N-by-K array reads the scalar at every entry. -/
theorem bcast_scalar_apply {N K : Nat}
    (h : (⟨0, ![]⟩ : Shape).BroadcastsInDim ⟨2, ![N, K]⟩ (![] : Fin 0 → Fin 2))
    (x : (⟨0, ![]⟩ : Shape).Idx → α) (j : (⟨2, ![N, K]⟩ : Shape).Idx) :
    broadcastInDim ⟨2, ![N, K]⟩ ![] h x j = x ix0 :=
  broadcastInDim_apply _ h x j ix0 (fun a => a.elim0)

/-- A length-N vector laid out as a column and spread along the rows reads, at (p, c), the vector at p. -/
theorem bcast_col_apply {N K : Nat}
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (x : (⟨1, ![N]⟩ : Shape).Idx → α) (p : Fin N) (c : Fin K) :
    broadcastInDim ⟨2, ![N, K]⟩ ![0, 1] h2 (broadcastInDim ⟨2, ![N, 1]⟩ ![0] h1 x) (ix2 p c) = x (ix1 p) := by
  have hp := p.isLt
  refine (broadcastInDim_apply _ h2 _ (ix2 p c) (ix2 p (0 : Fin 1)) (fun a => ?_)).trans
    (broadcastInDim_apply _ h1 x (ix2 p (0 : Fin 1)) (ix1 p) (fun a => ?_))
  · match a with
    | ⟨0, _⟩ =>
      show p.val = if N = 1 then 0 else p.val
      split <;> omega
    | ⟨1, _⟩ =>
      show (0 : Nat) = if (1 : Nat) = 1 then 0 else c.val
      rw [if_pos rfl]
  · match a with
    | ⟨0, _⟩ =>
      show p.val = if N = 1 then 0 else p.val
      split <;> omega

/-- A length-K vector laid out as a row and spread down the columns reads, at (p, c), the vector at c. -/
theorem bcast_row_apply {N K : Nat}
    (h1 : (⟨1, ![K]⟩ : Shape).BroadcastsInDim ⟨2, ![1, K]⟩ (![1] : Fin 1 → Fin 2))
    (h2 : (⟨2, ![1, K]⟩ : Shape).BroadcastsInDim ⟨2, ![N, K]⟩ (![0, 1] : Fin 2 → Fin 2))
    (x : (⟨1, ![K]⟩ : Shape).Idx → α) (p : Fin N) (c : Fin K) :
    broadcastInDim ⟨2, ![N, K]⟩ ![0, 1] h2 (broadcastInDim ⟨2, ![1, K]⟩ ![1] h1 x) (ix2 p c) = x (ix1 c) := by
  have hc := c.isLt
  refine (broadcastInDim_apply _ h2 _ (ix2 p c) (ix2 (0 : Fin 1) c) (fun a => ?_)).trans
    (broadcastInDim_apply _ h1 x (ix2 (0 : Fin 1) c) (ix1 c) (fun a => ?_))
  · match a with
    | ⟨0, _⟩ =>
      show (0 : Nat) = if (1 : Nat) = 1 then 0 else p.val
      rw [if_pos rfl]
    | ⟨1, _⟩ =>
      show c.val = if K = 1 then 0 else c.val
      split <;> omega
  · match a with
    | ⟨0, _⟩ =>
      show c.val = if K = 1 then 0 else c.val
      split <;> omega

/-- The aggregation at entry (p, c). -/
theorem graphConv_apply {N K E : Nat} (hN : 0 < N)
    (wfg : GatherDims.WF ⟨2, ![N, K]⟩ ⟨2, ![E, 1]⟩ ⟨2, ![E, K]⟩ [1] [0] [] [0] [] 1 ![1, K])
    (wfs : ScatterDims.WF ⟨2, ![N, K]⟩ ⟨2, ![E, 1]⟩ ⟨2, ![E, K]⟩ [1] [0] [0] 1)
    (hz : (⟨0, ![]⟩ : Shape).BroadcastsInDim ⟨2, ![N, K]⟩ (![] : Fin 0 → Fin 2))
    (hc1 : (⟨1, ![N]⟩ : Shape).BroadcastsInDim ⟨2, ![N, 1]⟩ (![0] : Fin 1 → Fin 2))
    (hc2 : (⟨2, ![N, 1]⟩ : Shape).BroadcastsInDim ⟨2, ![N, K]⟩ (![0, 1] : Fin 2 → Fin 2))
    (hb1 : (⟨1, ![K]⟩ : Shape).BroadcastsInDim ⟨2, ![1, K]⟩ (![1] : Fin 1 → Fin 2))
    (hb2 : (⟨2, ![1, K]⟩ : Shape).BroadcastsInDim ⟨2, ![N, K]⟩ (![0, 1] : Fin 2 → Fin 2))
    (zero : FVec Ideal ⟨0, ![]⟩ .f32) (u : FVec Ideal ⟨2, ![N, K]⟩ .f32) (gi si : IVec ⟨2, ![E, 1]⟩ 32)
    (cd : FVec Ideal ⟨1, ![N]⟩ .f32) (b : FVec Ideal ⟨1, ![K]⟩ .f32) (p : Fin N) (c : Fin K) :
    addf
        (mulf
          (Host.scatterAdd (sDims2 N K E wfs) (broadcastInDim ⟨2, ![N, K]⟩ ![] hz zero) si
            (Host.gather (gDims2 N K E wfg) u gi))
          (broadcastInDim ⟨2, ![N, K]⟩ ![0, 1] hc2 (broadcastInDim ⟨2, ![N, 1]⟩ ![0] hc1 cd)))
        (broadcastInDim ⟨2, ![N, K]⟩ ![0, 1] hb2 (broadcastInDim ⟨2, ![1, K]⟩ ![1] hb1 b)) (ix2 p c)
      = (zero ix0 + ∑ e ∈ Finset.univ.filter (fun e : Fin E => (si (ix2 e 0)).toInt = (p.val : Int)),
            u (ix2 ⟨min (gi (ix2 e 0)).toInt.toNat (N - 1), by omega⟩ c)) * cd (ix1 p) + b (ix1 c) := by
  rw [addf_apply, mulf_apply, bcast_col_apply hc1 hc2 cd p c, bcast_row_apply hb1 hb2 b p c]
  have hs : Host.scatterAdd (sDims2 N K E wfs) (broadcastInDim ⟨2, ![N, K]⟩ ![] hz zero) si
        (Host.gather (gDims2 N K E wfg) u gi) (ix2 p c)
      = zero ix0 + ∑ e ∈ Finset.univ.filter (fun e : Fin E => (si (ix2 e 0)).toInt = (p.val : Int)),
          u (ix2 ⟨min (gi (ix2 e 0)).toInt.toNat (N - 1), by omega⟩ c) := by
    show Ideal.hostScatterAdd (sDims2 N K E wfs) (broadcastInDim ⟨2, ![N, K]⟩ ![] hz zero) si
        (Host.gather (gDims2 N K E wfg) u gi) (ix2 p c) = _
    rw [scatterAdd2_apply wfs _ si _ p c (fun e : Fin E => (si (ix2 e 0)).toInt = (p.val : Int)) (fun _ => Iff.rfl),
      bcast_scalar_apply hz zero]
    congr 1
    exact Finset.sum_congr rfl fun e _ => gather2_apply hN wfg u gi e c
  rw [hs]

end Cert.LibGraphConv

end
-- ==== Proof.Bridge.lean ====
/-
  The kernel's stage-two chain and the reference's, read entry by entry.

  The kernel forms one product against the two weight matrices laid side by side, gathers its rows
  along the edges, adds them up at the edges' targets, scales each row by the target's coefficient, adds the
  two biases laid end to end, and only then cuts the result into its left and right halves.  The reference
  does the same chain twice, once per weight matrix, at half the width.  Entry (p, c) of a product against
  [Wm | Ws] is entry (p, c) of the product against Wm for c below the split and entry (p, c - split) of the
  product against Ws otherwise, and the gather, the accumulation, the row scaling and the bias all act one
  column at a time; so the two agree at every entry.
-/
import proofs.«102990_j70274254897510_1_alg».proof.Proof.Gen.KernelIdeal
import proofs.«102990_j70274254897510_1_alg».proof.Proof.Gen.ReferenceIdeal
import proofs.«102990_j70274254897510_1_alg».proof.Proof.LibGatherScatter
import proofs.«102990_j70274254897510_1_alg».proof.Proof.LibConcat
import proofs.«102990_j70274254897510_1_alg».proof.Proof.LibPlainProduct
import proofs.«102990_j70274254897510_1_alg».proof.Proof.LibGraphConv
import Idealize.ShloMosaic.Lib.Pipeline.Value
import Idealize.ShloMosaic.Lib.ValueIdx

noncomputable section

open scoped BigOperators

namespace Cert.Bridge

open Idealize.ShloMosaic Idealize.ShloMosaic.ValueIdx

/-! ## The kernel's side -/

section KernelSide
open Cert.KernelIdeal Cert.KernelIdeal.Gen

/-- The edge sources as gather indices: a negative word is wrapped by the node count, then the words are
    laid out as a column. -/
abbrev srcIdx (i8 : IVec S262144 32) : IVec S262144x1 32 :=
  broadcastInDim S262144x1 ![0] bcast_S262144_S262144x1_0
    (select (cmpi .slt i8 (broadcastInDim S262144 ![] bcast_S_S262144 (constantI S_ 32 0#32)))
      (addi i8 (broadcastInDim S262144 ![] bcast_S_S262144 (constantI S_ 32 16384#32))) i8)

/-- The edge targets as scatter indices: the words laid out as a column. -/
abbrev dstIdx (i9 : IVec S262144 32) : IVec S262144x1 32 :=
  broadcastInDim S262144x1 ![0] bcast_S262144_S262144x1_0 i9

/-- The two weight matrices laid side by side. -/
abbrev W23 (Wm Ws : FVec Ideal S128x64 .f32) : FVec Ideal S128x128 .f32 :=
  concatenate S128x128 1 [⟨S128x64, Wm⟩, ⟨S128x64, Ws⟩] concatenates_S128x64_S128x64_S128x128_d1

/-- The two biases laid end to end. -/
abbrev b23 (bm bs : FVec Ideal S64 .f32) : FVec Ideal S128 .f32 :=
  concatenate S128 0 [⟨S64, bm⟩, ⟨S64, bs⟩] concatenates_S64_S64_S128_d0

/-- The kernel's aggregated rows at full width: gather along the edges, accumulate at the targets into
    zeros, scale each row, add the bias. -/
abbrev aggKernel (R1 : FVec Ideal S16384x128 .f32) (bm bs : FVec Ideal S64 .f32) (cdst : FVec Ideal S16384 .f32)
    (i8 i9 : IVec S262144 32) : FVec Ideal S16384x128 .f32 :=
  addf
    (mulf
      (Host.scatterAdd scatter_S16384x128_S262144x1_S262144x128_1_0_0_1
        (broadcastInDim S16384x128 ![] bcast_S_S16384x128 (constant (F := Ideal) S_ .f32 0x00000000#32))
        (dstIdx i9)
        (Host.gather gather_S16384x128_S262144x1_S262144x128_1_0_n_n_0_1_1128 R1 (srcIdx i8)))
      (broadcastInDim S16384x128 ![0, 1] bcast_S16384x1_S16384x128_0_1
        (broadcastInDim S16384x1 ![0] bcast_S16384_S16384x1_0 cdst)))
    (broadcastInDim S16384x128 ![0, 1] bcast_S1x128_S16384x128_0_1
      (broadcastInDim S1x128 ![1] bcast_S128_S1x128_1 (b23 bm bs)))

/-- The kernel's z: the left half of the aggregated rows plus the noise times the exponential of the right half. -/
def zKernel (R1 : FVec Ideal S16384x128 .f32) (bm bs : FVec Ideal S64 .f32) (cdst : FVec Ideal S16384 .f32)
    (noise : FVec Ideal S16384x64 .f32) (i8 i9 : IVec S262144 32) : FVec Ideal S16384x64 .f32 :=
  addf
    (extractStridedSlice S16384x64 ![0, 0] (aggKernel R1 bm bs cdst i8 i9) slices_S16384x128_S16384x64_0_0)
    (mulf noise
      (Host.exp (extractStridedSlice S16384x64 ![0, 64] (aggKernel R1 bm bs cdst i8 i9) slices_S16384x128_S16384x64_0_64)))

end KernelSide

/-! ## The reference's side -/

section ReferenceSide
open Cert.ReferenceIdeal Cert.ReferenceIdeal.Gen

/-- One of the reference's two half-width chains: product against one weight matrix, gather along the edges,
    accumulate at the targets into zeros, scale each row, add the bias. -/
abbrev aggRef (xs2 : FVec Ideal S16384x128 .f32) (W : FVec Ideal S128x64 .f32) (b : FVec Ideal S64 .f32)
    (cdst : FVec Ideal S16384 .f32) (i8 i9 : IVec S262144 32) : FVec Ideal S16384x64 .f32 :=
  addf
    (mulf
      (Host.scatterAdd scatter_S16384x64_S262144x1_S262144x64_1_0_0_1
        (broadcastInDim S16384x64 ![] bcast_S_S16384x64 (constant (F := Ideal) S_ .f32 0x00000000#32))
        (broadcastInDim S262144x1 ![0] bcast_S262144_S262144x1_0 i9)
        (Host.gather gather_S16384x64_S262144x1_S262144x64_1_0_n_n_0_1_164
          (Host.dotGeneral (F := Ideal) dot_S16384x128_S128x64_S16384x64_1_0_0_1_n_n none xs2 W)
          (broadcastInDim S262144x1 ![0] bcast_S262144_S262144x1_0
            (select (cmpi .slt i8 (broadcastInDim S262144 ![] bcast_S_S262144 (constantI S_ 32 0#32)))
              (addi i8 (broadcastInDim S262144 ![] bcast_S_S262144 (constantI S_ 32 16384#32))) i8))))
      (broadcastInDim S16384x64 ![0, 1] bcast_S16384x1_S16384x64_0_1
        (broadcastInDim S16384x1 ![0] bcast_S16384_S16384x1_0 cdst)))
    (broadcastInDim S16384x64 ![0, 1] bcast_S1x64_S16384x64_0_1 (broadcastInDim S1x64 ![1] bcast_S64_S1x64_1 b))

/-- The reference's z: the mean chain plus the noise times the exponential of the log-deviation chain. -/
def zRef (xs2 : FVec Ideal S16384x128 .f32) (Wm Ws : FVec Ideal S128x64 .f32) (bm bs : FVec Ideal S64 .f32)
    (cdst : FVec Ideal S16384 .f32) (noise : FVec Ideal S16384x64 .f32) (i8 i9 : IVec S262144 32) :
    FVec Ideal S16384x64 .f32 :=
  addf (aggRef xs2 Wm bm cdst i8 i9) (mulf noise (Host.exp (aggRef xs2 Ws bs cdst i8 i9)))

/-- The reference's decoder: one over one plus the exponential of minus the product of z with its transpose. -/
def preRef (zv : FVec Ideal S16384x64 .f32) : FVec Ideal S16384x16384 .f32 :=
  Host.divf (broadcastInDim S16384x16384 ![] bcast_S_S16384x16384 (constant (F := Ideal) S_ .f32 0x3F800000#32))
    (addf (broadcastInDim S16384x16384 ![] bcast_S_S16384x16384 (constant (F := Ideal) S_ .f32 0x3F800000#32))
      (Host.exp (Host.negf (Host.dotGeneral (F := Ideal) dot_S16384x64_S64x16384_S16384x16384_1_0_0_1_n_n none zv
        (transpose S64x16384 [1, 0] zv transposes_S16384x64_S64x16384_1_0)))))

end ReferenceSide

/-! ## The two chains read at an entry -/

/-- The f32 word of zero, as a value. -/
abbrev zeroEntry : Ideal .f32 := Ideal.ofBits .f32 0x00000000#32

/-- The host's exponential acts entry by entry. -/
theorem hostExp_apply {s : Shape} {φ : FTy} (x : FVec Ideal s φ) (i : s.Idx) : Host.exp x i = Ideal.exp (x i) := rfl

section KernelRead
open Cert.KernelIdeal Cert.KernelIdeal.Gen

/-- Entry (p, c) of the kernel's aggregated rows: the sum, over the edges whose target is p, of the product's
    entry at (the edge's source, c), scaled by p's coefficient, plus the bias at c. -/
theorem aggKernel_apply (R1 : FVec Ideal S16384x128 .f32) (bm bs : FVec Ideal S64 .f32) (cdst : FVec Ideal S16384 .f32)
    (i8 i9 : IVec S262144 32) (p : Fin 16384) (c : Fin 128) :
    aggKernel R1 bm bs cdst i8 i9 (ix2 p c)
      = (zeroEntry + ∑ e ∈ Finset.univ.filter (fun e : Fin 262144 => (dstIdx i9 (ix2 e 0)).toInt = (p.val : Int)),
            R1 (ix2 ⟨min (srcIdx i8 (ix2 e 0)).toInt.toNat (16384 - 1), by omega⟩ c)) * cdst (ix1 p)
          + b23 bm bs (ix1 c) :=
  Cert.LibGraphConv.graphConv_apply (N := 16384) (K := 128) (E := 262144) (by decide)
    gather_S16384x128_S262144x1_S262144x128_1_0_n_n_0_1_1128_wf scatter_S16384x128_S262144x1_S262144x128_1_0_0_1_wf
    bcast_S_S16384x128 bcast_S16384_S16384x1_0 bcast_S16384x1_S16384x128_0_1 bcast_S128_S1x128_1
    bcast_S1x128_S16384x128_0_1 (constant (F := Ideal) S_ .f32 0x00000000#32) R1 (srcIdx i8) (dstIdx i9) cdst
    (b23 bm bs) p c

/-- The left half of a slice of the aggregated rows. -/
theorem slice_lo_apply (A : FVec Ideal S16384x128 .f32) (p : Fin 16384) (c : Fin 64) :
    extractStridedSlice S16384x64 ![0, 0] A slices_S16384x128_S16384x64_0_0 (ix2 p c)
      = A (ix2 p (⟨c.val, by omega⟩ : Fin 128)) :=
  extractStridedSlice_apply _ A slices_S16384x128_S16384x64_0_0 (ix2 p c) (ix2 p (⟨c.val, by omega⟩ : Fin 128))
    (fun a => by
      match a with
      | ⟨0, _⟩ => exact (Nat.zero_add p.val).symm
      | ⟨1, _⟩ => exact (Nat.zero_add c.val).symm)

/-- The right half of a slice of the aggregated rows. -/
theorem slice_hi_apply (A : FVec Ideal S16384x128 .f32) (p : Fin 16384) (c : Fin 64) :
    extractStridedSlice S16384x64 ![0, 64] A slices_S16384x128_S16384x64_0_64 (ix2 p c)
      = A (ix2 p (⟨c.val + 64, by omega⟩ : Fin 128)) :=
  extractStridedSlice_apply _ A slices_S16384x128_S16384x64_0_64 (ix2 p c) (ix2 p (⟨c.val + 64, by omega⟩ : Fin 128))
    (fun a => by
      match a with
      | ⟨0, _⟩ => exact (Nat.zero_add p.val).symm
      | ⟨1, _⟩ => exact Nat.add_comm c.val 64)

end KernelRead

section ReferenceRead
open Cert.ReferenceIdeal Cert.ReferenceIdeal.Gen

/-- Entry (p, c) of one of the reference's chains: the sum, over the edges whose target is p, of the product's
    entry at (the edge's source, c) written out as a sum over the contraction, scaled by p's coefficient, plus
    the bias at c. -/
theorem aggRef_apply (xs2 : FVec Ideal S16384x128 .f32) (W : FVec Ideal S128x64 .f32) (b : FVec Ideal S64 .f32)
    (cdst : FVec Ideal S16384 .f32) (i8 i9 : IVec S262144 32) (p : Fin 16384) (c : Fin 64) :
    aggRef xs2 W b cdst i8 i9 (ix2 p c)
      = (zeroEntry + ∑ e ∈ Finset.univ.filter (fun e : Fin 262144 => (dstIdx i9 (ix2 e 0)).toInt = (p.val : Int)),
            ∑ k : Fin 128, xs2 (ix2 ⟨min (srcIdx i8 (ix2 e 0)).toInt.toNat (16384 - 1), by omega⟩ k) * W (ix2 k c))
          * cdst (ix1 p)
          + b (ix1 c) := by
  refine (Cert.LibGraphConv.graphConv_apply (N := 16384) (K := 64) (E := 262144) (by decide)
    gather_S16384x64_S262144x1_S262144x64_1_0_n_n_0_1_164_wf scatter_S16384x64_S262144x1_S262144x64_1_0_0_1_wf
    bcast_S_S16384x64 bcast_S16384_S16384x1_0 bcast_S16384x1_S16384x64_0_1 bcast_S64_S1x64_1
    bcast_S1x64_S16384x64_0_1 (constant (F := Ideal) S_ .f32 0x00000000#32)
    (Host.dotGeneral (F := Ideal) dot_S16384x128_S128x64_S16384x64_1_0_0_1_n_n none xs2 W) (srcIdx i8) (dstIdx i9) cdst
    b p c).trans ?_
  refine congrArg (fun s => (zeroEntry + s) * cdst (ix1 p) + b (ix1 c)) (Finset.sum_congr rfl fun e _ => ?_)
  exact PlainProduct.dotGeneral_apply dot_S16384x128_S128x64_S16384x64_1_0_0_1_n_n rfl none xs2 W _ c

/-- The f32 word 0x3F800000 is one. -/
theorem one_f32 : Ideal.ofBits .f32 0x3F800000#32 = 1 := by
  simp [Ideal.ofBits, Ideal.ieee, -EReal.coe_mul]; norm_num

/-- Entry (i, j) of the product of z with its transpose is the inner product of rows i and j. -/
theorem gram_apply (zv : FVec Ideal S16384x64 .f32) (i j : Fin 16384) :
    (Host.dotGeneral (F := Ideal) dot_S16384x64_S64x16384_S16384x16384_1_0_0_1_n_n none zv
        (transpose S64x16384 [1, 0] zv transposes_S16384x64_S64x16384_1_0)) (ix2 i j)
      = ∑ k : Fin 64, zv (ix2 i k) * zv (ix2 j k) :=
  (PlainProduct.dotGeneral_apply dot_S16384x64_S64x16384_S16384x16384_1_0_0_1_n_n rfl none zv
      (transpose S64x16384 [1, 0] zv transposes_S16384x64_S64x16384_1_0) i j).trans
    (Finset.sum_congr rfl fun k _ => congrArg (zv (ix2 i k) * ·)
      (transpose_apply [1, 0] zv transposes_S16384x64_S64x16384_1_0 (ix2 k j) (ix2 j k) (fun b => by
        match b with
        | ⟨0, _⟩ => rfl
        | ⟨1, _⟩ => rfl)))

/-- The reference's decoder at an entry. -/
theorem preRef_apply (zv : FVec Ideal S16384x64 .f32) (j : S16384x16384.Idx) :
    preRef zv j
      = Ideal.div (Ideal.ofBits .f32 0x3F800000#32)
          (Ideal.ofBits .f32 0x3F800000#32
            + Ideal.exp (-(Host.dotGeneral (F := Ideal) dot_S16384x64_S64x16384_S16384x16384_1_0_0_1_n_n none zv
                (transpose S64x16384 [1, 0] zv transposes_S16384x64_S64x16384_1_0)) j)) :=
  rfl

end ReferenceRead

/-! ## The two theorems -/

open Cert.KernelIdeal Cert.KernelIdeal.Gen in
/-- The kernel's z is the reference's z, entry by entry, whenever the kernel's full-width product has the
    entries of the product against the two weight matrices laid side by side. -/
theorem z_eq (xs2 R1 : FVec Ideal S16384x128 .f32) (Wm Ws : FVec Ideal S128x64 .f32) (bm bs : FVec Ideal S64 .f32)
    (cdst : FVec Ideal S16384 .f32) (noise : FVec Ideal S16384x64 .f32) (i8 i9 : IVec S262144 32)
    (hR1 : ∀ (p : Fin 16384) (c : Fin 128),
      R1 (ix2 p c) = ∑ k : Fin 128, xs2 (ix2 p k) * W23 Wm Ws (ix2 k c)) :
    zKernel R1 bm bs cdst noise i8 i9 = zRef xs2 Wm Ws bm bs cdst noise i8 i9 := by
  funext j
  obtain ⟨p, c, rfl⟩ : ∃ (p : Fin 16384) (c : Fin 64), j = ix2 p c := ⟨j 0, j 1, eq_ix2 j⟩
  have hc := c.isLt
  -- the left half: columns below the split belong to the first weight matrix and the first bias
  have hm : aggKernel R1 bm bs cdst i8 i9 (ix2 p (⟨c.val, by omega⟩ : Fin 128)) = aggRef xs2 Wm bm cdst i8 i9 (ix2 p c) := by
    refine (aggKernel_apply R1 bm bs cdst i8 i9 p _).trans (Eq.trans ?_ (aggRef_apply xs2 Wm bm cdst i8 i9 p c).symm)
    have hb : b23 bm bs (ix1 (⟨c.val, by omega⟩ : Fin 128)) = bm (ix1 c) :=
      Cert.LibConcat.concat_vec_left bm bs concatenates_S64_S64_S128_d0 _ c rfl
    have hs : ∀ q : Fin 16384, R1 (ix2 q (⟨c.val, by omega⟩ : Fin 128)) = ∑ k : Fin 128, xs2 (ix2 q k) * Wm (ix2 k c) :=
      fun q => (hR1 q _).trans (Finset.sum_congr rfl fun k _ => congrArg (xs2 (ix2 q k) * ·)
        (Cert.LibConcat.concat_cols_left Wm Ws concatenates_S128x64_S128x64_S128x128_d1 k _ c rfl))
    rw [hb]
    exact congrArg (fun s => (zeroEntry + s) * cdst (ix1 p) + bm (ix1 c)) (Finset.sum_congr rfl fun e _ => hs _)
  -- the right half: columns from the split on belong to the second weight matrix and the second bias
  have hs : aggKernel R1 bm bs cdst i8 i9 (ix2 p (⟨c.val + 64, by omega⟩ : Fin 128)) = aggRef xs2 Ws bs cdst i8 i9 (ix2 p c) := by
    refine (aggKernel_apply R1 bm bs cdst i8 i9 p _).trans (Eq.trans ?_ (aggRef_apply xs2 Ws bs cdst i8 i9 p c).symm)
    have hb : b23 bm bs (ix1 (⟨c.val + 64, by omega⟩ : Fin 128)) = bs (ix1 c) :=
      Cert.LibConcat.concat_vec_right bm bs concatenates_S64_S64_S128_d0 _ c rfl
    have hs : ∀ q : Fin 16384, R1 (ix2 q (⟨c.val + 64, by omega⟩ : Fin 128)) = ∑ k : Fin 128, xs2 (ix2 q k) * Ws (ix2 k c) :=
      fun q => (hR1 q _).trans (Finset.sum_congr rfl fun k _ => congrArg (xs2 (ix2 q k) * ·)
        (Cert.LibConcat.concat_cols_right Wm Ws concatenates_S128x64_S128x64_S128x128_d1 k _ c rfl))
    rw [hb]
    exact congrArg (fun s => (zeroEntry + s) * cdst (ix1 p) + bs (ix1 c)) (Finset.sum_congr rfl fun e _ => hs _)
  unfold zKernel zRef
  rw [addf_apply, addf_apply, mulf_apply, mulf_apply, hostExp_apply, hostExp_apply, slice_lo_apply, slice_hi_apply, hm, hs]

open Cert.KernelIdeal in
/-- An array whose entry (i, j) is the logistic function of the inner product of rows i and j of z is the
    reference's decoder applied to z. -/
theorem pre_eq (zv : FVec Ideal S16384x64 .f32) (R2 : FVec Ideal S16384x16384 .f32)
    (hR2 : ∀ (i j : Fin 16384), R2 (ix2 i j) = Ideal.logistic (∑ k : Fin 64, zv (ix2 i k) * zv (ix2 j k))) :
    R2 = preRef zv := by
  funext j
  obtain ⟨i, j', rfl⟩ : ∃ (i j' : Fin 16384), j = ix2 i j' := ⟨j 0, j 1, eq_ix2 j⟩
  rw [preRef_apply, gram_apply, one_f32]
  exact hR2 i j'

end Cert.Bridge

end
-- ==== Proof.IdealValueB.lean ====
import proofs.«102990_j70274254897510_1_alg».proof.Proof.IdealRun
import proofs.«102990_j70274254897510_1_alg».proof.Proof.IdealValueA
import proofs.«102990_j70274254897510_1_alg».proof.Proof.RegionValue1
import proofs.«102990_j70274254897510_1_alg».proof.Proof.RefTerms
import proofs.«102990_j70274254897510_1_alg».proof.Proof.Bridge
import proofs.«102990_j70274254897510_1_alg».proof.Proof.LibHostEval

/-!
# The second result, on the kernel program's side

The second region multiplies the rows it is fed by the two second-layer weight matrices laid side by side. The host
operations after it gather, scatter-add, scale and shift all 128 columns at once and only then cut the left and right
halves; column by column that is the reference's two separate chains. So the array the third region reads is the
reference's second result.
-/

set_option maxRecDepth 16384

noncomputable section

namespace Cert.KernelIdeal.Hand

open Idealize.ShloMosaic Idealize.ShloMosaic.TcCoe Idealize.ShloMosaic.ValueIdx Idealize.SL.Sem
open Idealize.SL Idealize.SL.RA
open Cert.KernelIdeal Cert.KernelIdeal.Gen Cert.RefTerms

variable (m : (ℓ : Loc nD τ sig) → Buf (Elt Ideal) ℓ) (c : Dev nD)

set_option maxHeartbeats 4000000 in
/-- The weights the second region multiplies by: the two matrices side by side. -/
theorem w23_eq : E9 m c main_v38 = Cert.Bridge.W23 (m ((c.tc : Thread nD τ).loc main_arg3)) (m ((c.tc : Thread nD τ).loc main_arg5)) := by
  rw [E9_apply]
  dsimp only [V9, V8, V7, V6, V5, V4, V3, V2, V1, V0, hostOps0, hostOps0_1, hostOps0_2, hostOps0_3, hostOps0_4, hostOps1, hostOps1_1, hostOps1_2]
  repeat (first | host_eval | simp (disch := decide) only [upd_self, upd_ne])
  all_goals (try simp only [StableHlo.TRef.toBuf, StableHlo.TRef.ofBuf, cast_eq])
  all_goals rfl

set_option maxRecDepth 200000 in
set_option maxHeartbeats 8000000 in
/-- What the third region finds in the array it reads: the host operations after the second region, applied to that
    region's output. -/
theorem z_found : E11 m c main_v64
    = Cert.Bridge.zKernel (O10 m c) (m ((c.tc : Thread nD τ).loc main_arg4)) (m ((c.tc : Thread nD τ).loc main_arg6)) (normRef (m ((c.tc : Thread nD τ).loc main_arg9))) (m ((c.tc : Thread nD τ).loc main_arg7)) (m ((c.tc : Thread nD τ).loc main_arg8)) (m ((c.tc : Thread nD τ).loc main_arg9)) := by
  rw [E11_apply]
  dsimp only [V11, V10]
  rw [outsB_10]
  dsimp only [V9, V8, V7, V6, V5, V4, V3, V2, V1, V0, hostOps0, hostOps0_1, hostOps0_2, hostOps0_3, hostOps0_4, hostOps1, hostOps1_1, hostOps1_2, hostOps2]
  repeat (first | host_eval | simp (disch := decide) only [upd_self, upd_ne])
  simp only [StableHlo.TRef.toBuf, StableHlo.TRef.ofBuf, cast_eq]
  unfold Cert.Bridge.zKernel normRef
  rfl

/-- The array the third region reads is the reference's second result, as a term of the arguments. -/
theorem z_kernel : E11 m c main_v64 = Cert.Bridge.zRef (xs2Ref (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)))
      (m ((c.tc : Thread nD τ).loc main_arg3)) (m ((c.tc : Thread nD τ).loc main_arg5)) (m ((c.tc : Thread nD τ).loc main_arg4)) (m ((c.tc : Thread nD τ).loc main_arg6)) (normRef (m ((c.tc : Thread nD τ).loc main_arg9))) (m ((c.tc : Thread nD τ).loc main_arg7)) (m ((c.tc : Thread nD τ).loc main_arg8)) (m ((c.tc : Thread nD τ).loc main_arg9)) := by
  rw [z_found m c, ← xs2_eq m c]
  exact Cert.Bridge.z_eq (E9 m c main_v42) (O10 m c) (m ((c.tc : Thread nD τ).loc main_arg3)) (m ((c.tc : Thread nD τ).loc main_arg5)) (m ((c.tc : Thread nD τ).loc main_arg4)) (m ((c.tc : Thread nD τ).loc main_arg6)) (normRef (m ((c.tc : Thread nD τ).loc main_arg9))) (m ((c.tc : Thread nD τ).loc main_arg7)) (m ((c.tc : Thread nD τ).loc main_arg8)) (m ((c.tc : Thread nD τ).loc main_arg9))
    (fun p j => by
      rw [O10_def]
      refine (value1 (E9 m) (fun _ => fullShare) c p j).trans ?_
      dsimp only [lhs1, rhs1]
      rw [w23_eq m c])

end Cert.KernelIdeal.Hand

end
-- ==== Proof.RegionValue2.lean ====
import proofs.«102990_j70274254897510_1_alg».proof.Proof.IdealBodies
import proofs.«102990_j70274254897510_1_alg».proof.Proof.LibPlainProduct
import Idealize.ShloMosaic.Lib.Pipeline.Value
import Idealize.ShloMosaic.Lib.ValueIdx
import proofs.«102990_j70274254897510_1_alg».proof.Proof.RegionValue0
set_option maxRecDepth 16384

noncomputable section

open scoped BigOperators

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen

/-!
# Region 2: the output array is the logistic of the input array times its own transpose

Grid point `(i, j)` takes rows `1024 i …` and rows `1024 j …` of the one input array, multiplies the first block by the
transpose of the second, applies the logistic function entry by entry and writes the result over block `(i, j)` of the
output. The 16 × 16 blocks tile the output, so entry `(r, s)` ends at the logistic of the inner product of rows `r` and `s`.
-/

-- the TensorCore's buffer contents when the region is entered, and the input shares
variable (V : (c : Dev nD) → (b : Ref sig .tc) → Buf (Elt Ideal) ((c : Thread nD τ).loc b))
variable (q2 : Fin cfg2.W → PosShare TreeShare)

/-- The body's value at row `p`, column `j`: the logistic of the inner product of row `p` of the first block and row
    `j` of the second. The shape casts to the same shape and the changes of format are identities on the ideal
    values; the transpose reads the second block at the swapped index; the product into a zero accumulator is the
    plain sum; the logistic acts entry by entry. -/
theorem pay2_apply (x0 x1 : Vec Ideal S1024x64 .f32) (p : Fin 1024) (j : Fin 1024) :
    k2_pay1 x0 x1 (ix2 p j) = Ideal.logistic (∑ k : Fin 64, x0 (ix2 p k) * x1 (ix2 j k)) := by
  unfold k2_pay1
  rw [shapeCast_self, shapeCast_self]
  show Ideal.logistic _ = _
  congr 1
  refine (PlainProduct.matmul_zero_apply (M := 1024) (K := 64) (N := 1024) _ rfl none _ _ p j).trans ?_
  refine Finset.sum_congr rfl fun k _ => ?_
  congr 1
  exact transpose_apply [1, 0] _ transposes_S1024x64_p1_0_S64x1024 (ix2 k j) (ix2 j k)
    (fun b => match b with | ⟨0, _⟩ => rfl | ⟨1, _⟩ => rfl)

/-- The input array as the region finds it and the output array after it, as functions to the extended reals. -/
abbrev arg2 (c : Dev nD) : S16384x64.Idx → EReal := V c main_v64
abbrev res2 (c : Dev nD) : S16384x16384.Idx → EReal := (dat2 V q2 c).arrAt 2 cfg2.N

/-- The logistic of the input array times its transpose, entry by entry. -/
def gram2 (c : Dev nD) : S16384x16384.Idx → EReal := fun i =>
  Ideal.logistic (∑ k : Fin 64, arg2 V c (ix2 (⟨(i 0).val, idx2_lt0 i⟩ : Fin 16384) k) * arg2 V c (ix2 (⟨(i 1).val, idx2_lt1 i⟩ : Fin 16384) k))

/-- The printed index maps over the grid: point `t` is `(t / 16, t % 16)`; the first window's row block is the first
    coordinate, the second window's the second, and the output's block is the pair. -/
theorem idx_facts2 : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = t.val % 16 :=
  (by decide +kernel : ∀ t : Fin grid2.N, _)

/-- The first window's block at point `t` is rows `1024 (t / 16) …` of the input array. -/
theorem iblk2_0_apply (c : Dev nD) (t : Fin cfg2.N) (x : S1024x64.Idx) (k : S16384x64.Idx)
    (hk0 : (k 0).val = 1024 * (t.val / 16) + (x 0).val) (hk1 : (k 1).val = (x 1).val) :
    (iblk2 V c 0 t : S1024x64.Idx → EReal) x = arg2 V c k := by
  obtain ⟨e0, e1, -⟩ := idx_facts2 t
  unfold iblk2
  rw [View.read_apply]
  show arg2 V c _ = arg2 V c _
  congr 1
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 64 + 1 * (x 1).val = (k 1).val; rw [e1, hk1]; omega

/-- The second window's block at point `t` is rows `1024 (t % 16) …` of the same array. -/
theorem iblk2_1_apply (c : Dev nD) (t : Fin cfg2.N) (x : S1024x64.Idx) (k : S16384x64.Idx)
    (hk0 : (k 0).val = 1024 * (t.val % 16) + (x 0).val) (hk1 : (k 1).val = (x 1).val) :
    (iblk2 V c 1 t : S1024x64.Idx → EReal) x = arg2 V c k := by
  obtain ⟨-, -, e0, e1, -⟩ := idx_facts2 t
  unfold iblk2
  rw [View.read_apply]
  show arg2 V c _ = arg2 V c _
  congr 1
  funext a
  apply Fin.ext
  match a with
  | ⟨0, _⟩ => show win2_1.index t (0 : Fin 2) * 1024 + 1 * (x 0).val = (k 0).val; rw [e0, hk0]; omega
  | ⟨1, _⟩ => show win2_1.index t (1 : Fin 2) * 64 + 1 * (x 1).val = (k 1).val; rw [e1, hk1]; omega

/-- What point `t` writes back is block `t` of that array. -/
theorem flushed2_eq (c : Dev nD) (t : Fin cfg2.N) :
    (dat2 V q2 c).flushed 2 t = ((cfg2.win 2).blk t).view.read (Elt Ideal) (gram2 V c) := by
  show (cfg2.win 2).cut (grid2.coords t) ((dat2 V q2 c).after 2 t) = _
  rw [after2_2]
  unfold out2_2
  rw [View.canon_unit_zero zero_off2]
  simp only [View.ld_unit_zero (S := S1024x64) zero_off2]
  obtain ⟨-, -, -, -, e0, e1⟩ := idx_facts2 t
  funext y
  obtain ⟨a, b, rfl⟩ : ∃ (a : Fin 1024) (b : Fin 1024), y = ix2 a b := ⟨y 0, y 1, eq_ix2 y⟩
  show k2_pay1 (iblk2 V c 0 t) (iblk2 V c 1 t) (ix2 a b) = gram2 V c (((cfg2.win 2).blk t).view.emb (ix2 a b))
  refine (pay2_apply _ _ a b).trans ?_
  unfold gram2
  congr 1
  refine Finset.sum_congr rfl fun k _ => ?_
  congr 1
  · refine iblk2_0_apply V c t _ _ ?_ rfl
    show win2_2.index t (0 : Fin 2) * 1024 + 1 * a.val = 1024 * (t.val / 16) + a.val
    rw [e0]; omega
  · refine iblk2_1_apply V c t _ _ ?_ rfl
    show win2_2.index t (1 : Fin 2) * 1024 + 1 * b.val = 1024 * (t.val % 16) + b.val
    rw [e1]; omega

/-- An index of the output array is in point `t`'s block iff each coordinate is in the block's range on its axis. -/
theorem mem_blk2 (t : Fin cfg2.N) (i : S16384x16384.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v65).slice (win2_2.rect t)).set ↔ _
  rw [View.set_slice_whole, Rect.mem_set_unit]
  exact Iff.rfl

/-- Every index of the output array is in the block of the point its row block and column block name. -/
theorem cover2 (i : S16384x16384.Idx) :
    ∃ t : Fin cfg2.N, (cfg2.win 2).flush t = true ∧ i ∈ ((cfg2.win 2).blk t).view.set := by
  have hi0 : (i 0).val < 16384 := idx2_lt0 i
  have hi1 : (i 1).val < 16384 := idx2_lt1 i
  have hN : cfg2.N = 256 := N_2
  have hlt : (i 0).val / 1024 * 16 + (i 1).val / 1024 < cfg2.N := by rw [hN]; omega
  refine ⟨⟨(i 0).val / 1024 * 16 + (i 1).val / 1024, hlt⟩, flush2_2 _, ?_⟩
  rw [mem_blk2]
  obtain ⟨-, -, -, -, e0, e1⟩ := idx_facts2 ⟨(i 0).val / 1024 * 16 + (i 1).val / 1024, hlt⟩
  intro a
  match a with
  | ⟨0, _⟩ =>
    show win2_2.index ⟨(i 0).val / 1024 * 16 + (i 1).val / 1024, hlt⟩ (0 : Fin 2) * 1024 ≤ (i 0).val ∧ (i 0).val < win2_2.index ⟨(i 0).val / 1024 * 16 + (i 1).val / 1024, hlt⟩ (0 : Fin 2) * 1024 + 1024
    rw [e0]
    show ((i 0).val / 1024 * 16 + (i 1).val / 1024) / 16 * 1024 ≤ (i 0).val ∧ (i 0).val < ((i 0).val / 1024 * 16 + (i 1).val / 1024) / 16 * 1024 + 1024
    omega
  | ⟨1, _⟩ =>
    show win2_2.index ⟨(i 0).val / 1024 * 16 + (i 1).val / 1024, hlt⟩ (1 : Fin 2) * 1024 ≤ (i 1).val ∧ (i 1).val < win2_2.index ⟨(i 0).val / 1024 * 16 + (i 1).val / 1024, hlt⟩ (1 : Fin 2) * 1024 + 1024
    rw [e1]
    show ((i 0).val / 1024 * 16 + (i 1).val / 1024) % 16 * 1024 ≤ (i 1).val ∧ (i 1).val < ((i 0).val / 1024 * 16 + (i 1).val / 1024) % 16 * 1024 + 1024
    omega

/-- The output array after the region is the logistic of the input array times its transpose. -/
theorem final2 (c : Dev nD) : res2 V q2 c = gram2 V c :=
  (dat2 V q2 c).arrAt_eq_of_cover 2 (gram2 V c) (fun t _ => flushed2_eq V q2 c t) cover2

/-- The output array after the region, entry by entry. -/
theorem value2 (c : Dev nD) (i j : Fin 16384) :
    res2 V q2 c (ix2 i j) = Ideal.logistic (∑ k : Fin 64, arg2 V c (ix2 i k) * arg2 V c (ix2 j k)) := by
  rw [final2]
  rfl

end Cert.KernelIdeal.Hand

end
-- ==== Proof.IdealValueC.lean ====
import proofs.«102990_j70274254897510_1_alg».proof.Proof.IdealRun
import proofs.«102990_j70274254897510_1_alg».proof.Proof.RegionValue2
import proofs.«102990_j70274254897510_1_alg».proof.Proof.Bridge
import proofs.«102990_j70274254897510_1_alg».proof.Proof.RefTerms

/-!
# The first result, on the kernel program's side

The third region leaves at entry (i, j) the logistic function of the inner product of rows i and j of the array it
reads: the reference's logistic of that array's Gram matrix.
-/

set_option maxRecDepth 16384

noncomputable section

namespace Cert.KernelIdeal.Hand

open Idealize.ShloMosaic Idealize.ShloMosaic.TcCoe Idealize.ShloMosaic.ValueIdx Idealize.SL.Sem
open Idealize.SL Idealize.SL.RA
open Cert.KernelIdeal Cert.KernelIdeal.Gen Cert.RefTerms

variable (m : (ℓ : Loc nD τ sig) → Buf (Elt Ideal) ℓ) (c : Dev nD)

/-- The third region's output is the reference's last stretch applied to the array the region read. -/
theorem pre_kernel : O12 m c = Cert.Bridge.preRef (E11 m c main_v64) :=
  Cert.Bridge.pre_eq (E11 m c main_v64) (O12 m c) (fun i j => by
    rw [O12_def]
    exact value2 (E11 m) q2 c i j)

end Cert.KernelIdeal.Hand

end
-- ==== Proof.IdealValue.lean ====
import proofs.«102990_j70274254897510_1_alg».proof.Proof.IdealValueA
import proofs.«102990_j70274254897510_1_alg».proof.Proof.IdealValueB
import proofs.«102990_j70274254897510_1_alg».proof.Proof.IdealValueC

/-! The kernel program's two results as terms of its arguments: the three value modules together. -/
-- ==== Proof.RefSide.lean ====
import proofs.«102990_j70274254897510_1_alg».proof.Proof.RefRunPatched
import proofs.«102990_j70274254897510_1_alg».proof.Proof.RefTerms
import proofs.«102990_j70274254897510_1_alg».proof.Proof.Bridge

/-!
# What the reference's run leaves, in named pieces

The reference's second result is the sum of the mean layer and the noise scaled by the exponential of the log-deviation
layer, both graph convolutions of the same rectified first layer; its first result is the logistic function of that
sum's Gram matrix, spelt as one over one plus the exponential of the negated product. Both are the run's composed terms
with their repeated sub-terms named.
-/

noncomputable section

namespace Cert.RefSide

open Idealize.ShloMosaic Idealize.ShloMosaic.TcCoe Idealize.SL.Sem Cert.ReferenceIdeal Cert.ReferenceIdeal.Gen Cert.RefTerms

variable (m : (ℓ : Loc nD τ sig) → Buf (Elt Ideal) ℓ) (c : Dev nD)

set_option maxRecDepth 16384 in
/-- The second result: the two width-64 graph convolutions of the rectified first layer, combined with the noise. -/
theorem ref_z : Cert.ReferenceIdeal.ValueP.res_main_v81 (F := Ideal) m c
    = Cert.Bridge.zRef (xs2Ref (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)))
        (m ((c.tc : Thread nD τ).loc main_arg3)) (m ((c.tc : Thread nD τ).loc main_arg5)) (m ((c.tc : Thread nD τ).loc main_arg4)) (m ((c.tc : Thread nD τ).loc main_arg6)) (normRef (m ((c.tc : Thread nD τ).loc main_arg9))) (m ((c.tc : Thread nD τ).loc main_arg7)) (m ((c.tc : Thread nD τ).loc main_arg8)) (m ((c.tc : Thread nD τ).loc main_arg9)) := by
  unfold Cert.ReferenceIdeal.ValueP.res_main_v81 Cert.Bridge.zRef xs2Ref normRef
  rfl

set_option maxRecDepth 16384 in
/-- The first result: the logistic of the Gram matrix of the second result. -/
theorem ref_pre : Cert.ReferenceIdeal.ValueP.res_main_v89 (F := Ideal) m c
    = Cert.Bridge.preRef (Cert.ReferenceIdeal.ValueP.res_main_v81 (F := Ideal) m c) := by
  unfold Cert.ReferenceIdeal.ValueP.res_main_v89 Cert.ReferenceIdeal.ValueP.res_main_v81 Cert.Bridge.preRef
  rfl

end Cert.RefSide

end
-- ==== Proof.lean ====
/- The certificate's five claims.

   The kernel program and its idealization run as three pipelined regions between stretches of host operations; the run
   (terminating, faulting nowhere) leaves every unscoped buffer at a valuation computed from the launch memory, whence the
   arguments are unchanged (the two frames) and the two results are read. The reference is a host program; its run is its
   operations composed. Nothing was rewritten by the idealization, so it is preserved trivially. The two idealized
   programs agree because: each matmul region leaves, entry by entry, the plain sum of products a host dot_general
   computes; a product against two weight matrices laid side by side, then gathered, scatter-added, row-scaled and
   shifted by the two biases laid end to end, has as its left and right column halves the same chain run on each matrix
   and bias alone; and the logistic function is one over one plus the exponential of the negated argument. -/
import proofs.«102990_j70274254897510_1_alg».proof.Defs
import proofs.«102990_j70274254897510_1_alg».proof.Proof.Gen.Kernel
import proofs.«102990_j70274254897510_1_alg».proof.Proof.Gen.KernelIdeal
import proofs.«102990_j70274254897510_1_alg».proof.Proof.Gen.ReferenceIdeal
import proofs.«102990_j70274254897510_1_alg».proof.Proof.Gen.Pre_finite_inputs
import proofs.«102990_j70274254897510_1_alg».proof.Proof.BitsRun
import proofs.«102990_j70274254897510_1_alg».proof.Proof.IdealRun
import proofs.«102990_j70274254897510_1_alg».proof.Proof.IdealValue
import proofs.«102990_j70274254897510_1_alg».proof.Proof.RefRunPatched
import proofs.«102990_j70274254897510_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- Both idealized programs end with the same two arrays: the kernel program's from its run's last valuation, the
    reference's from its composed term, equal by the value theorems once the arguments' agreement is rewritten. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.O12 m c, fun c => Cert.KernelIdeal.Hand.E11 m c Cert.KernelIdeal.main_v64,
    Cert.KernelIdeal.Hand.run_values m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.RefSide.ref_pre, Cert.RefSide.ref_z, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    exact ((Cert.KernelIdeal.Hand.pre_kernel m c).trans (congrArg _ (Cert.KernelIdeal.Hand.z_kernel m c))).symm
  · rw [Cert.RefSide.ref_z, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    exact (Cert.KernelIdeal.Hand.z_kernel m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
